-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x300000 : Shape := ⟨2, ![2, 300000]⟩
abbrev S300000x16 : Shape := ⟨2, ![300000, 16]⟩
abbrev S128x256 : Shape := ⟨2, ![128, 256]⟩
abbrev S256 : Shape := ⟨1, ![256]⟩
abbrev S256x256 : Shape := ⟨2, ![256, 256]⟩
abbrev S528x128 : Shape := ⟨2, ![528, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S300000x16 : S_.BroadcastsInDim S300000x16 (![] : Fin 0 → Fin S300000x16.rank)
  reducesTo_S300000x16_S_d0_1 : S300000x16.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S528x128 : S_.BroadcastsInDim S528x128 (![] : Fin 0 → Fin S528x128.rank)
  reducesTo_S528x128_S_d0_1 : S528x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S64x2 .f32) (main_arg16 : FVec F S2 .f32) (main_v63 : IVec S_ 1) (main_v67 : IVec S_ 1) : IVec S_ 1 :=
  let main_v68 : IVec S_ 1 := andi main_v63 main_v67
  let main_v69 : FVec F S64x2 .f32 := Host.absf main_arg15
  let main_cst_26 : FVec F S_ .f32 := constant S_ .f32 0x7F800000#32
  let main_v70 : FVec F S64x2 .f32 := broadcastInDim S64x2 ![] bcast_S_S64x2 main_cst_26
  let main_v71 : IVec S64x2 1 := cmpf .olt main_v69 main_v70
  let main_c_27 : IVec S_ 1 := constantI S_ 1 1#1
  let main_v72 : IVec S_ 1 := (fun x v => Host.reduce IntOp.andi x v reducesTo_S64x2_S_d0_1 h_S_) main_v71 main_c_27
  let main_v73 : IVec S_ 1 := andi main_v68 main_v72
  let main_v74 : FVec F S2 .f32 := Host.absf main_arg16
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg12 : FVec F S128 .f32) (main_arg13 : FVec F S128x64 .f32) (main_arg14 : FVec F S64 .f32) (main_arg15 : FVec F S64x2 .f32) (main_arg16 : FVec F S2 .f32) (main_v48 : IVec S_ 1) (main_v49 : FVec F S528x128 .f32) (main_v50 : FVec F S528x128 .f32) : IVec S_ 1 :=
  let main_v51 : IVec S528x128 1 := cmpf .olt main_v49 main_v50
  let main_c_19 : IVec S_ 1 := constantI S_ 1 1#1
  let main_v52 : IVec S_ 1 := (fun x v => Host.reduce IntOp.andi x v reducesTo_S528x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_v63 main_v67

def fn_part2 {F : FTy → Type} [FloatOps F] (main_arg8 : FVec F S256 .f32) (main_arg9 : FVec F S256x256 .f32) (main_arg10 : FVec F S256 .f32) (main_arg11 : FVec F S528x128 .f32) (main_arg12 : FVec F S128 .f32) (main_arg13 : FVec F S128x64 .f32) (main_arg14 : FVec F S64 .f32) (main_arg15 : FVec F S64x2 .f32) (main_arg16 : FVec F S2 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S528x128 .f32 := Host.absf main_arg11
  let main_cst_18 : FVec F S_ .f32 := constant S_ .f32 0x7F800000#32
  let main_v50 : FVec F S528x128 .f32 := broadcastInDim S528x128 ![] bcast_S_S528x128 main_cst_18
  fn_part3 (F := F) main_arg12 main_arg13 main_arg14 main_arg15 main_arg16 main_v48 main_v49 main_v50

def fn_part1 {F : FTy → Type} [FloatOps F] (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S528x128 .f32) (main_arg12 : FVec F S128 .f32) (main_arg13 : FVec F S128x64 .f32) (main_arg14 : FVec F S64 .f32) (main_arg15 : FVec F S64x2 .f32) (main_arg16 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x300000 32) (main_arg2 : FVec F S300000x16 .f32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S528x128 .f32) (main_arg12 : FVec F S128 .f32) (main_arg13 : FVec F S128x64 .f32) (main_arg14 : FVec F S64 .f32) (main_arg15 : FVec F S64x2 .f32) (main_arg16 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S300000x16 .f32 := Host.absf main_arg2
  let main_cst_0 : FVec F S_ .f32 := constant S_ .f32 0x7F800000#32
  let main_v5 : FVec F S300000x16 .f32 := broadcastInDim S300000x16 ![] bcast_S_S300000x16 main_cst_0
  let main_v6 : IVec S300000x16 1 := cmpf .olt main_v4 main_v5
  let main_c_1 : IVec S_ 1 := constantI S_ 1 1#1
  let main_v7 : IVec S_ 1 := (fun x v => Host.reduce IntOp.andi x v reducesTo_S300000x16_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x300000 : Shape := ⟨2, ![2, 300000]⟩
abbrev S300000x16 : Shape := ⟨2, ![300000, 16]⟩
abbrev S128x256 : Shape := ⟨2, ![128, 256]⟩
abbrev S256 : Shape := ⟨1, ![256]⟩
abbrev S256x256 : Shape := ⟨2, ![256, 256]⟩
abbrev S528x128 : Shape := ⟨2, ![528, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x300000 : Shape := ⟨2, ![1, 300000]⟩
abbrev S300000 : Shape := ⟨1, ![300000]⟩
abbrev S_ : Shape := ⟨0, ![]⟩
abbrev S50000 : Shape := ⟨1, ![50000]⟩
abbrev S300000x1 : Shape := ⟨2, ![300000, 1]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S300000x256 : Shape := ⟨2, ![300000, 256]⟩
abbrev S2000x1 : Shape := ⟨2, ![2000, 1]⟩
abbrev S256x128 : Shape := ⟨2, ![256, 128]⟩
abbrev S16x128 : Shape := ⟨2, ![16, 128]⟩
abbrev S300000x128 : Shape := ⟨2, ![300000, 128]⟩
abbrev S1x128 : Shape := ⟨2, ![1, 128]⟩
abbrev S1x64 : Shape := ⟨2, ![1, 64]⟩
abbrev S1x2 : Shape := ⟨2, ![1, 2]⟩
abbrev S300000x2 : Shape := ⟨2, ![300000, 2]⟩
abbrev S3000x128 : Shape := ⟨2, ![3000, 128]⟩
abbrev S3000x16 : Shape := ⟨2, ![3000, 16]⟩
abbrev S3000x2 : Shape := ⟨2, ![3000, 2]⟩
abbrev S3000x64 : Shape := ⟨2, ![3000, 64]⟩

abbrev nBuf : Space → Nat
  | .hbm => 143
  | .vmem => 56
  | .smem => 0
  | _ => 0

abbrev hbmTy0_0 (i : Nat) : BufTy := match i % 128 with
  | 0 => ⟨S50000x128, .f32⟩
  | 1 => ⟨S2x300000, .i32⟩
  | 2 => ⟨S300000x16, .f32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S528x128, .f32⟩
  | 12 => ⟨S128, .f32⟩
  | 13 => ⟨S128x64, .f32⟩
  | 14 => ⟨S64, .f32⟩
  | 15 => ⟨S64x2, .f32⟩
  | 16 => ⟨S2, .f32⟩
  | 17 => ⟨S1x300000, .i32⟩
  | 18 => ⟨S300000, .i32⟩
  | 19 => ⟨S1x300000, .i32⟩
  | 20 => ⟨S300000, .i32⟩
  | 21 => ⟨S_, .f32⟩
  | 22 => ⟨S300000, .f32⟩
  | 23 => ⟨S_, .f32⟩
  | 24 => ⟨S50000, .f32⟩
  | 25 => ⟨S300000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S300000, .i32⟩
  | 33 => ⟨S300000, .i1⟩
  | 34 => ⟨S_, .i32⟩
  | 35 => ⟨S300000, .i32⟩
  | 36 => ⟨S300000, .i32⟩
  | 37 => ⟨S300000, .i32⟩
  | 38 => ⟨S300000x1, .i32⟩
  | 39 => ⟨S300000, .f32⟩
  | 40 => ⟨S_, .i32⟩
  | 41 => ⟨S300000, .i32⟩
  | 42 => ⟨S300000, .i1⟩
  | 43 => ⟨S_, .i32⟩
  | 44 => ⟨S300000, .i32⟩
  | 45 => ⟨S300000, .i32⟩
  | 46 => ⟨S300000, .i32⟩
  | 47 => ⟨S300000x1, .i32⟩
  | 48 => ⟨S300000, .f32⟩
  | 49 => ⟨S300000, .f32⟩
  | 50 => ⟨S_, .f32⟩
  | 51 => ⟨S50000, .f32⟩
  | 52 => ⟨S50000, .f32⟩
  | 53 => ⟨S50000x1, .f32⟩
  | 54 => ⟨S1x256, .f32⟩
  | 55 => ⟨S50000x256, .f32⟩
  | 56 => ⟨S1x256, .f32⟩
  | 57 => ⟨S50000x256, .bf16⟩
  | 58 => ⟨S_, .i32⟩
  | 59 => ⟨S300000, .i32⟩
  | 60 => ⟨S300000, .i1⟩
  | 61 => ⟨S_, .i32⟩
  | 62 => ⟨S300000, .i32⟩
  | 63 => ⟨S300000, .i32⟩
  | 64 => ⟨S300000, .i32⟩
  | 65 => ⟨S300000x1, .i32⟩
  | 66 => ⟨S300000x256, .bf16⟩
  | 67 => ⟨S300000x256, .f32⟩
  | 68 => ⟨S300000x1, .f32⟩
  | 69 => ⟨S300000x256, .f32⟩
  | 70 => ⟨S300000x256, .f32⟩
  | 71 => ⟨S_, .f32⟩
  | 72 => ⟨S50000x256, .f32⟩
  | 73 => ⟨S300000x1, .i32⟩
  | 74 => ⟨S50000x256, .f32⟩
  | 75 => ⟨S1x256, .f32⟩
  | 76 => ⟨S50000x256, .bf16⟩
  | 77 => ⟨S_, .i32⟩
  | 78 => ⟨S300000, .i32⟩
  | 79 => ⟨S300000, .i1⟩
  | 80 => ⟨S_, .i32⟩
  | 81 => ⟨S300000, .i32⟩
  | 82 => ⟨S300000, .i32⟩
  | 83 => ⟨S300000, .i32⟩
  | 84 => ⟨S300000x1, .i32⟩
  | 85 => ⟨S300000x256, .bf16⟩
  | 86 => ⟨S300000x256, .f32⟩
  | 87 => ⟨S300000x1, .f32⟩
  | 88 => ⟨S300000x256, .f32⟩
  | 89 => ⟨S300000x256, .f32⟩
  | 90 => ⟨S_, .f32⟩
  | 91 => ⟨S50000x256, .f32⟩
  | 92 => ⟨S300000x1, .i32⟩
  | 93 => ⟨S50000x256, .f32⟩
  | 94 => ⟨S1x256, .f32⟩
  | 95 => ⟨S50000x256, .bf16⟩
  | 96 => ⟨S_, .i32⟩
  | 97 => ⟨S300000, .i32⟩
  | 98 => ⟨S300000, .i1⟩
  | 99 => ⟨S_, .i32⟩
  | 100 => ⟨S300000, .i32⟩
  | 101 => ⟨S300000, .i32⟩
  | 102 => ⟨S300000, .i32⟩
  | 103 => ⟨S300000x1, .i32⟩
  | 104 => ⟨S300000x256, .bf16⟩
  | 105 => ⟨S300000x256, .f32⟩
  | 106 => ⟨S300000x1, .f32⟩
  | 107 => ⟨S300000x256, .f32⟩
  | 108 => ⟨S300000x256, .f32⟩
  | 109 => ⟨S_, .f32⟩
  | 110 => ⟨S50000x256, .f32⟩
  | 111 => ⟨S300000x1, .i32⟩
  | 112 => ⟨S50000x256, .f32⟩
  | 113 => ⟨S256x128, .f32⟩
  | 114 => ⟨S256x128, .f32⟩
  | 115 => ⟨S16x128, .f32⟩
  | 116 => ⟨S50000x128, .bf16⟩
  | 117 => ⟨S50000x128, .bf16⟩
  | 118 => ⟨S_, .i32⟩
  | 119 => ⟨S300000, .i32⟩
  | 120 => ⟨S300000, .i1⟩
  | 121 => ⟨S_, .i32⟩
  | 122 => ⟨S300000, .i32⟩
  | 123 => ⟨S300000, .i32⟩
  | 124 => ⟨S300000, .i32⟩
  | 125 => ⟨S300000x1, .i32⟩
  | 126 => ⟨S300000x128, .bf16⟩
  | 127 => ⟨S300000x128, .f32⟩
  | _ => ⟨S50000x128, .f32⟩

abbrev hbmTy0_1 (i : Nat) : BufTy := match i % 128 with
  | 0 => ⟨S_, .i32⟩
  | 1 => ⟨S300000, .i32⟩
  | 2 => ⟨S300000, .i1⟩
  | 3 => ⟨S_, .i32⟩
  | 4 => ⟨S300000, .i32⟩
  | 5 => ⟨S300000, .i32⟩
  | 6 => ⟨S300000, .i32⟩
  | 7 => ⟨S300000x1, .i32⟩
  | 8 => ⟨S300000x128, .bf16⟩
  | 9 => ⟨S300000x128, .f32⟩
  | 10 => ⟨S300000x128, .f32⟩
  | 11 => ⟨S1x128, .f32⟩
  | 12 => ⟨S1x64, .f32⟩
  | 13 => ⟨S1x2, .f32⟩
  | 14 => ⟨S300000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S2000x256, .bf16⟩
  | .local _ .vmem, ⟨11, _⟩ => ⟨S2000x256, .bf16⟩
  | .local _ .vmem, ⟨12, _⟩ => ⟨S2000x256, .f32⟩
  | .local _ .vmem, ⟨13, _⟩ => ⟨S2000x256, .f32⟩
  | .local _ .vmem, ⟨14, _⟩ => ⟨S2000x256, .bf16⟩
  | .local _ .vmem, ⟨15, _⟩ => ⟨S2000x256, .bf16⟩
  | .local _ .vmem, ⟨16, _⟩ => ⟨S2000x1, .f32⟩
  | .local _ .vmem, ⟨17, _⟩ => ⟨S2000x1, .f32⟩
  | .local _ .vmem, ⟨18, _⟩ => ⟨S256x256, .f32⟩
  | .local _ .vmem, ⟨19, _⟩ => ⟨S1x256, .f32⟩
  | .local _ .vmem, ⟨20, _⟩ => ⟨S2000x256, .bf16⟩
  | .local _ .vmem, ⟨21, _⟩ => ⟨S2000x256, .bf16⟩
  | .local _ .vmem, ⟨22, _⟩ => ⟨S2000x256, .f32⟩
  | .local _ .vmem, ⟨23, _⟩ => ⟨S2000x256, .f32⟩
  | .local _ .vmem, ⟨24, _⟩ => ⟨S2000x256, .bf16⟩
  | .local _ .vmem, ⟨25, _⟩ => ⟨S2000x256, .bf16⟩
  | .local _ .vmem, ⟨26, _⟩ => ⟨S2000x1, .f32⟩
  | .local _ .vmem, ⟨27, _⟩ => ⟨S2000x1, .f32⟩
  | .local _ .vmem, ⟨28, _⟩ => ⟨S256x256, .f32⟩
  | .local _ .vmem, ⟨29, _⟩ => ⟨S1x256, .f32⟩
  | .local _ .vmem, ⟨30, _⟩ => ⟨S2000x256, .bf16⟩
  | .local _ .vmem, ⟨31, _⟩ => ⟨S2000x256, .bf16⟩
  | .local _ .vmem, ⟨32, _⟩ => ⟨S2000x256, .f32⟩
  | .local _ .vmem, ⟨33, _⟩ => ⟨S2000x256, .f32⟩
  | .local _ .vmem, ⟨34, _⟩ => ⟨S2000x256, .bf16⟩
  | .local _ .vmem, ⟨35, _⟩ => ⟨S2000x256, .bf16⟩
  | .local _ .vmem, ⟨36, _⟩ => ⟨S2000x1, .f32⟩
  | .local _ .vmem, ⟨37, _⟩ => ⟨S2000x1, .f32⟩
  | .local _ .vmem, ⟨38, _⟩ => ⟨S256x128, .f32⟩
  | .local _ .vmem, ⟨39, _⟩ => ⟨S256x128, .f32⟩
  | .local _ .vmem, ⟨40, _⟩ => ⟨S2000x128, .bf16⟩
  | .local _ .vmem, ⟨41, _⟩ => ⟨S2000x128, .bf16⟩
  | .local _ .vmem, ⟨42, _⟩ => ⟨S2000x128, .bf16⟩
  | .local _ .vmem, ⟨43, _⟩ => ⟨S2000x128, .bf16⟩
  | .local _ .vmem, ⟨44, _⟩ => ⟨S3000x128, .f32⟩
  | .local _ .vmem, ⟨45, _⟩ => ⟨S3000x128, .f32⟩
  | .local _ .vmem, ⟨46, _⟩ => ⟨S3000x16, .f32⟩
  | .local _ .vmem, ⟨47, _⟩ => ⟨S3000x16, .f32⟩
  | .local _ .vmem, ⟨48, _⟩ => ⟨S16x128, .f32⟩
  | .local _ .vmem, ⟨49, _⟩ => ⟨S1x128, .f32⟩
  | .local _ .vmem, ⟨50, _⟩ => ⟨S128x64, .f32⟩
  | .local _ .vmem, ⟨51, _⟩ => ⟨S1x64, .f32⟩
  | .local _ .vmem, ⟨52, _⟩ => ⟨S64x2, .f32⟩
  | .local _ .vmem, ⟨53, _⟩ => ⟨S1x2, .f32⟩
  | .local _ .vmem, ⟨54, _⟩ => ⟨S3000x2, .f32⟩
  | .local _ .vmem, ⟨55, _⟩ => ⟨S3000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_12 : Ref sig .tc := ⟨.hbm, 96, rfl⟩
abbrev main_v65 : Ref sig .tc := ⟨.hbm, 97, rfl⟩
abbrev main_v66 : Ref sig .tc := ⟨.hbm, 98, rfl⟩
abbrev main_c_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_14 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82_0 : Ref sig .tc := ⟨.hbm, 116, rfl⟩
abbrev main_v82_1 : Ref sig .tc := ⟨.hbm, 117, rfl⟩
abbrev main_c_15 : Ref sig .tc := ⟨.hbm, 118, rfl⟩
abbrev main_v83 : Ref sig .tc := ⟨.hbm, 119, rfl⟩
abbrev main_v84 : Ref sig .tc := ⟨.hbm, 120, rfl⟩
abbrev main_c_16 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_17 : Ref sig .tc := ⟨.hbm, 128, rfl⟩
abbrev main_v91 : Ref sig .tc := ⟨.hbm, 129, rfl⟩
abbrev main_v92 : Ref sig .tc := ⟨.hbm, 130, rfl⟩
abbrev main_c_18 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg7_0 : Ref sig .tc := ⟨.vmem, 53, rfl⟩
abbrev cc5_stg8_0 : Ref sig .tc := ⟨.vmem, 54, rfl⟩
abbrev cc5_stg8_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem5_0 : DmaSem sig := 40
abbrev cc4_sem5_1 : DmaSem sig := 41
abbrev cc4_sem6_0 : DmaSem sig := 42
abbrev cc4_sem6_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem7_0 : DmaSem sig := 53
abbrev cc5_sem8_0 : DmaSem sig := 54
abbrev cc5_sem8_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S3000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S3000x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S16x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64x2 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x2 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S3000x2 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S_S50000 : S_.BroadcastsInDim S50000 (![] : Fin 0 → Fin S50000.rank)
  bcast_S300000_S300000x1_0 : S300000.BroadcastsInDim S300000x1 (![0] : Fin 1 → Fin S300000x1.rank)
  shapeCasts_S50000_S50000x1 : S50000.ShapeCasts S50000x1
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  packedbf16_S2000x256_S2000x256_0_0 : (Rect.unit (s := S2000x256) ![0, 0] S2000x256.size inb_S2000x256_S2000x256_0_0).PackedRows (EltTy.packing .bf16)
  bcast_S300000x1_S300000x256_0_1 : S300000x1.BroadcastsInDim S300000x256 (![0, 1] : Fin 2 → Fin S300000x256.rank)
  bcast_S_S50000x256 : S_.BroadcastsInDim S50000x256 (![] : Fin 0 → Fin S50000x256.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  slices_S528x128_S256x128_0_0 : S528x128.Slices ![0, 0] S256x128
  slices_S528x128_S256x128_256_0 : S528x128.Slices ![256, 0] S256x128
  slices_S528x128_S16x128_512_0 : S528x128.Slices ![512, 0] S16x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S2000x128_S2000x128_0_0 : (Rect.unit (s := S2000x128) ![0, 0] S2000x128.size inb_S2000x128_S2000x128_0_0).PackedRows (EltTy.packing .bf16)
  shapeCasts_S128_S1x128 : S128.ShapeCasts S1x128
  shapeCasts_S64_S1x64 : S64.ShapeCasts S1x64
  shapeCasts_S2_S1x2 : S2.ShapeCasts S1x2
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  inb_S3000x16_S3000x16_0_0 : ∀ a, (![0, 0] : Fin 2 → Nat) a + S3000x16.size a ≤ S3000x16.size a
  h_S3000x16 : 0 < S3000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3000x64 : S1x64.Broadcasts S3000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S3000x2 : S1x2.Broadcasts S3000x2
  inb_S3000x2_S3000x2_0_0 : ∀ a, (![0, 0] : Fin 2 → Nat) a + S3000x2.size a ≤ S3000x2.size a
  h_S3000x2 : 0 < S3000x2.numel
  scatter_S50000_S300000x1_S300000_n_0_0_1_wf : ScatterDims.WF S50000 S300000x1 S300000 [] [0] [0] 1
  gather_S50000_S300000x1_S300000_n_0_n_n_0_1_1_wf : GatherDims.WF S50000 S300000x1 S300000 [] [0] [] [0] [] 1 ![1]
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S2000x256_S256x128_S2000x128_1_0_0_1_n_n_wf : DotDims.WF S2000x256 S256x128 S2000x128 [1] [0] [0] [1] [] []
  gather_S50000x128_S300000x1_S300000x128_1_0_n_n_0_1_1128_wf : GatherDims.WF S50000x128 S300000x1 S300000x128 [1] [0] [] [0] [] 1 ![1, 128]
  dot_S3000x16_S16x128_S3000x128_1_0_0_1_n_n_wf : DotDims.WF S3000x16 S16x128 S3000x128 [1] [0] [0] [1] [] []
  dot_S3000x128_S128x64_S3000x64_1_0_0_1_n_n_wf : DotDims.WF S3000x128 S128x64 S3000x64 [1] [0] [0] [1] [] []
  dot_S3000x64_S64x2_S3000x2_1_0_0_1_n_n_wf : DotDims.WF S3000x64 S64x2 S3000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .bf16 = 32 ∨ (Rect.block (s := S50000x256) S2000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .bf16 = 32 ∨ (Rect.block (s := S50000x256) S2000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .bf16 = 32 ∨ (Rect.block (s := S50000x256) S2000x256.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .bf16 = 32 ∨ (Rect.block (s := S50000x256) S2000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .bf16 = 32 ∨ (Rect.block (s := S50000x256) S2000x256.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .bf16 = 32 ∨ (Rect.block (s := S50000x256) S2000x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x128.size a ≤ S256x128.size a
  hwx4_4 : ∀ i : grid4.Coords, EltTy.bits .f32 = 32 ∨ (Rect.block (s := S256x128) S256x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .bf16 = 32 ∨ (Rect.block (s := S50000x128) S2000x128.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .bf16 = 32 ∨ (Rect.block (s := S50000x128) S2000x128.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S3000x128.size a ≤ S300000x128.size a
  hwx5_0 : ∀ i : grid5.Coords, EltTy.bits .f32 = 32 ∨ (Rect.block (s := S300000x128) S3000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S3000x16.size a ≤ S300000x16.size a
  hwx5_1 : ∀ i : grid5.Coords, EltTy.bits .f32 = 32 ∨ (Rect.block (s := S300000x16) S3000x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S16x128.size a ≤ S16x128.size a
  hwx5_2 : ∀ i : grid5.Coords, EltTy.bits .f32 = 32 ∨ (Rect.block (s := S16x128) S16x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x64.size a ≤ S128x64.size a
  hwx5_4 : ∀ i : grid5.Coords, EltTy.bits .f32 = 32 ∨ (Rect.block (s := S128x64) S128x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64x2.size a ≤ S64x2.size a
  hwx5_6 : ∀ i : grid5.Coords, EltTy.bits .f32 = 32 ∨ (Rect.block (s := S64x2) S64x2.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x2.size a ≤ S1x2.size a
  hwx5_7 : ∀ i : grid5.Coords, EltTy.bits .f32 = 32 ∨ (Rect.block (s := S1x2) S1x2.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S3000x2.size a ≤ S300000x2.size a
  hwx5_8 : ∀ i : grid5.Coords, EltTy.bits .f32 = 32 ∨ (Rect.block (s := S300000x2) S3000x2.size (cc5_transform_8 i) (hinb5_8 i)).WholeWords (EltTy.packing .f32)

variable [Facts₀]

def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def gather_S50000_S300000x1_S300000_n_0_n_n_0_1_1 : GatherDims S50000 S300000x1 S300000 where
  offsetDims := []
  collapsedSliceDims := [0]
  operandBatchingDims := []
  startIndicesBatchingDims := []
  startIndexMap := [0]
  indexVectorDim := 1
  sliceSizes := ![1]
  wf := gather_S50000_S300000x1_S300000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def dot_S3000x16_S16x128_S3000x128_1_0_0_1_n_n : DotDims S3000x16 S16x128 S3000x128 where
  lhsContracting := [1]
  rhsContracting := [0]
  lhsNonContracting := [0]
  rhsNonContracting := [1]
  lhsBatch := []
  rhsBatch := []
  wf := dot_S3000x16_S16x128_S3000x128_1_0_0_1_n_n_wf
def dot_S3000x128_S128x64_S3000x64_1_0_0_1_n_n : DotDims S3000x128 S128x64 S3000x64 where
  lhsContracting := [1]
  rhsContracting := [0]
  lhsNonContracting := [0]
  rhsNonContracting := [1]
  lhsBatch := []
  rhsBatch := []
  wf := dot_S3000x128_S128x64_S3000x64_1_0_0_1_n_n_wf
def dot_S3000x64_S64x2_S3000x2_1_0_0_1_n_n : DotDims S3000x64 S64x2 S3000x2 where
  lhsContracting := [1]
  rhsContracting := [0]
  lhsNonContracting := [0]
  rhsNonContracting := [1]
  lhsBatch := []
  rhsBatch := []
  wf := dot_S3000x64_S64x2_S3000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v78) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v28) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v79) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v80) S256x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82_0) S2000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v82_1) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v99) S3000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg2) S3000x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v81) S16x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg13) S128x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v101) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg15) S64x2.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v102) S1x2.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v103) S3000x2.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x300000 : Shape := ⟨2, ![2, 300000]⟩
abbrev S300000x16 : Shape := ⟨2, ![300000, 16]⟩
abbrev S128x256 : Shape := ⟨2, ![128, 256]⟩
abbrev S256 : Shape := ⟨1, ![256]⟩
abbrev S256x256 : Shape := ⟨2, ![256, 256]⟩
abbrev S528x128 : Shape := ⟨2, ![528, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x300000 : Shape := ⟨2, ![1, 300000]⟩
abbrev S300000 : Shape := ⟨1, ![300000]⟩
abbrev S_ : Shape := ⟨0, ![]⟩
abbrev S50000 : Shape := ⟨1, ![50000]⟩
abbrev S300000x1 : Shape := ⟨2, ![300000, 1]⟩
abbrev S50000x256 : Shape := ⟨2, ![50000, 256]⟩
abbrev S1x256 : Shape := ⟨2, ![1, 256]⟩
abbrev S300000x256 : Shape := ⟨2, ![300000, 256]⟩
abbrev S50000x1 : Shape := ⟨2, ![50000, 1]⟩
abbrev S300000x528 : Shape := ⟨2, ![300000, 528]⟩
abbrev S300000x128 : Shape := ⟨2, ![300000, 128]⟩
abbrev S1x128 : Shape := ⟨2, ![1, 128]⟩
abbrev S300000x64 : Shape := ⟨2, ![300000, 64]⟩
abbrev S1x64 : Shape := ⟨2, ![1, 64]⟩
abbrev S300000x2 : Shape := ⟨2, ![300000, 2]⟩
abbrev S1x2 : Shape := ⟨2, ![1, 2]⟩

abbrev nBuf : Space → Nat
  | .hbm => 178
  | .vmem => 0
  | .smem => 0
  | _ => 0

abbrev hbmTy0_0 (i : Nat) : BufTy := match i % 128 with
  | 0 => ⟨S50000x128, .f32⟩
  | 1 => ⟨S2x300000, .i32⟩
  | 2 => ⟨S300000x16, .f32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S528x128, .f32⟩
  | 12 => ⟨S128, .f32⟩
  | 13 => ⟨S128x64, .f32⟩
  | 14 => ⟨S64, .f32⟩
  | 15 => ⟨S64x2, .f32⟩
  | 16 => ⟨S2, .f32⟩
  | 17 => ⟨S1x300000, .i32⟩
  | 18 => ⟨S300000, .i32⟩
  | 19 => ⟨S1x300000, .i32⟩
  | 20 => ⟨S300000, .i32⟩
  | 21 => ⟨S_, .f32⟩
  | 22 => ⟨S300000, .f32⟩
  | 23 => ⟨S_, .f32⟩
  | 24 => ⟨S50000, .f32⟩
  | 25 => ⟨S300000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S300000, .i32⟩
  | 33 => ⟨S300000, .i1⟩
  | 34 => ⟨S_, .i32⟩
  | 35 => ⟨S300000, .i32⟩
  | 36 => ⟨S300000, .i32⟩
  | 37 => ⟨S300000, .i32⟩
  | 38 => ⟨S300000x1, .i32⟩
  | 39 => ⟨S300000, .f32⟩
  | 40 => ⟨S_, .i32⟩
  | 41 => ⟨S300000, .i32⟩
  | 42 => ⟨S300000, .i1⟩
  | 43 => ⟨S_, .i32⟩
  | 44 => ⟨S300000, .i32⟩
  | 45 => ⟨S300000, .i32⟩
  | 46 => ⟨S300000, .i32⟩
  | 47 => ⟨S300000x1, .i32⟩
  | 48 => ⟨S300000, .f32⟩
  | 49 => ⟨S300000, .f32⟩
  | 50 => ⟨S_, .f32⟩
  | 51 => ⟨S50000, .f32⟩
  | 52 => ⟨S50000, .f32⟩
  | 53 => ⟨S50000x256, .f32⟩
  | 54 => ⟨S1x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S50000x256, .f32⟩
  | 61 => ⟨S1x256, .f32⟩
  | 62 => ⟨S50000x256, .f32⟩
  | 63 => ⟨S50000x256, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x256, .f32⟩
  | 73 => ⟨S300000x1, .f32⟩
  | 74 => ⟨S300000x256, .f32⟩
  | 75 => ⟨S300000x256, .f32⟩
  | 76 => ⟨S_, .f32⟩
  | 77 => ⟨S50000x256, .f32⟩
  | 78 => ⟨S300000x1, .i32⟩
  | 79 => ⟨S50000x256, .f32⟩
  | 80 => ⟨S50000x1, .f32⟩
  | 81 => ⟨S50000x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S_, .i32⟩
  | 92 => ⟨S300000, .i32⟩
  | 93 => ⟨S300000, .i1⟩
  | 94 => ⟨S_, .i32⟩
  | 95 => ⟨S300000, .i32⟩
  | 96 => ⟨S300000, .i32⟩
  | 97 => ⟨S300000, .i32⟩
  | 98 => ⟨S300000x1, .i32⟩
  | 99 => ⟨S300000x256, .f32⟩
  | 100 => ⟨S300000x1, .f32⟩
  | 101 => ⟨S300000x256, .f32⟩
  | 102 => ⟨S300000x256, .f32⟩
  | 103 => ⟨S_, .f32⟩
  | 104 => ⟨S50000x256, .f32⟩
  | 105 => ⟨S300000x1, .i32⟩
  | 106 => ⟨S50000x256, .f32⟩
  | 107 => ⟨S50000x1, .f32⟩
  | 108 => ⟨S50000x256, .f32⟩
  | 109 => ⟨S50000x256, .f32⟩
  | 110 => ⟨S50000x256, .f32⟩
  | 111 => ⟨S_, .f32⟩
  | 112 => ⟨S50000x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S_, .i32⟩
  | 119 => ⟨S300000, .i32⟩
  | 120 => ⟨S300000, .i1⟩
  | 121 => ⟨S_, .i32⟩
  | 122 => ⟨S300000, .i32⟩
  | 123 => ⟨S300000, .i32⟩
  | 124 => ⟨S300000, .i32⟩
  | 125 => ⟨S300000x1, .i32⟩
  | 126 => ⟨S300000x256, .f32⟩
  | 127 => ⟨S300000x1, .f32⟩
  | _ => ⟨S50000x128, .f32⟩

abbrev hbmTy0_1 (i : Nat) : BufTy := match i % 128 with
  | 0 => ⟨S300000x256, .f32⟩
  | 1 => ⟨S300000x256, .f32⟩
  | 2 => ⟨S_, .f32⟩
  | 3 => ⟨S50000x256, .f32⟩
  | 4 => ⟨S300000x1, .i32⟩
  | 5 => ⟨S50000x256, .f32⟩
  | 6 => ⟨S50000x1, .f32⟩
  | 7 => ⟨S50000x256, .f32⟩
  | 8 => ⟨S50000x256, .f32⟩
  | 9 => ⟨S50000x256, .f32⟩
  | 10 => ⟨S_, .f32⟩
  | 11 => ⟨S50000x256, .f32⟩
  | 12 => ⟨S50000x256, .f32⟩
  | 13 => ⟨S_, .i32⟩
  | 14 => ⟨S300000, .i32⟩
  | 15 => ⟨S300000, .i1⟩
  | 16 => ⟨S_, .i32⟩
  | 17 => ⟨S300000, .i32⟩
  | 18 => ⟨S300000, .i32⟩
  | 19 => ⟨S300000, .i32⟩
  | 20 => ⟨S300000x1, .i32⟩
  | 21 => ⟨S300000x256, .f32⟩
  | 22 => ⟨S_, .i32⟩
  | 23 => ⟨S300000, .i32⟩
  | 24 => ⟨S300000, .i1⟩
  | 25 => ⟨S_, .i32⟩
  | 26 => ⟨S300000, .i32⟩
  | 27 => ⟨S300000, .i32⟩
  | 28 => ⟨S300000, .i32⟩
  | 29 => ⟨S300000x1, .i32⟩
  | 30 => ⟨S300000x256, .f32⟩
  | 31 => ⟨S300000x528, .f32⟩
  | 32 => ⟨S300000x128, .f32⟩
  | 33 => ⟨S1x128, .f32⟩
  | 34 => ⟨S300000x128, .f32⟩
  | 35 => ⟨S300000x128, .f32⟩
  | 36 => ⟨S_, .f32⟩
  | 37 => ⟨S300000x128, .f32⟩
  | 38 => ⟨S300000x128, .f32⟩
  | 39 => ⟨S300000x64, .f32⟩
  | 40 => ⟨S1x64, .f32⟩
  | 41 => ⟨S300000x64, .f32⟩
  | 42 => ⟨S300000x64, .f32⟩
  | 43 => ⟨S_, .f32⟩
  | 44 => ⟨S300000x64, .f32⟩
  | 45 => ⟨S300000x64, .f32⟩
  | 46 => ⟨S300000x2, .f32⟩
  | 47 => ⟨S1x2, .f32⟩
  | 48 => ⟨S300000x2, .f32⟩
  | 49 => ⟨S300000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call0_cst : Ref sig .tc := ⟨.hbm, 57, rfl⟩
abbrev main_call0_v0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_6 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_cst : Ref sig .tc := ⟨.hbm, 84, rfl⟩
abbrev main_call1_v0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_9 : Ref sig .tc := ⟨.hbm, 91, rfl⟩
abbrev main_v59 : Ref sig .tc := ⟨.hbm, 92, rfl⟩
abbrev main_v60 : Ref sig .tc := ⟨.hbm, 93, rfl⟩
abbrev main_c_10 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_11 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_call2_cst : Ref sig .tc := ⟨.hbm, 111, rfl⟩
abbrev main_call2_v0 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_12 : Ref sig .tc := ⟨.hbm, 118, rfl⟩
abbrev main_v81 : Ref sig .tc := ⟨.hbm, 119, rfl⟩
abbrev main_v82 : Ref sig .tc := ⟨.hbm, 120, rfl⟩
abbrev main_c_13 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_14 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_call3_cst : Ref sig .tc := ⟨.hbm, 138, rfl⟩
abbrev main_call3_v0 : Ref sig .tc := ⟨.hbm, 139, rfl⟩
abbrev main_v98 : Ref sig .tc := ⟨.hbm, 140, rfl⟩
abbrev main_c_15 : Ref sig .tc := ⟨.hbm, 141, rfl⟩
abbrev main_v99 : Ref sig .tc := ⟨.hbm, 142, rfl⟩
abbrev main_v100 : Ref sig .tc := ⟨.hbm, 143, rfl⟩
abbrev main_c_16 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_17 : Ref sig .tc := ⟨.hbm, 150, rfl⟩
abbrev main_v106 : Ref sig .tc := ⟨.hbm, 151, rfl⟩
abbrev main_v107 : Ref sig .tc := ⟨.hbm, 152, rfl⟩
abbrev main_c_18 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_call4_cst : Ref sig .tc := ⟨.hbm, 164, rfl⟩
abbrev main_call4_v0 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_call5_cst : Ref sig .tc := ⟨.hbm, 171, rfl⟩
abbrev main_call5_v0 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S_S50000 : S_.BroadcastsInDim S50000 (![] : Fin 0 → Fin S50000.rank)
  bcast_S300000_S300000x1_0 : S300000.BroadcastsInDim S300000x1 (![0] : Fin 1 → Fin S300000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S300000x1_S300000x256_0_1 : S300000x1.BroadcastsInDim S300000x256 (![0, 1] : Fin 2 → Fin S300000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S300000x256_S300000x256_S300000x16_S300000x528_d1 : Shape.Concatenates [S300000x256, S300000x256, S300000x16] S300000x528 1
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  bcast_S_S300000x128 : S_.BroadcastsInDim S300000x128 (![] : Fin 0 → Fin S300000x128.rank)
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  bcast_S_S300000x64 : S_.BroadcastsInDim S300000x64 (![] : Fin 0 → Fin S300000x64.rank)
  bcast_S2_S1x2_1 : S2.BroadcastsInDim S1x2 (![1] : Fin 1 → Fin S1x2.rank)
  bcast_S1x2_S300000x2_0_1 : S1x2.BroadcastsInDim S300000x2 (![0, 1] : Fin 2 → Fin S300000x2.rank)
  scatter_S50000_S300000x1_S300000_n_0_0_1_wf : ScatterDims.WF S50000 S300000x1 S300000 [] [0] [0] 1
  gather_S50000_S300000x1_S300000_n_0_n_n_0_1_1_wf : GatherDims.WF S50000 S300000x1 S300000 [] [0] [] [0] [] 1 ![1]
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S300000x528_S528x128_S300000x128_1_0_0_1_n_n_wf : DotDims.WF S300000x528 S528x128 S300000x128 [1] [0] [0] [1] [] []
  dot_S300000x128_S128x64_S300000x64_1_0_0_1_n_n_wf : DotDims.WF S300000x128 S128x64 S300000x64 [1] [0] [0] [1] [] []
  dot_S300000x64_S64x2_S300000x2_1_0_0_1_n_n_wf : DotDims.WF S300000x64 S64x2 S300000x2 [1] [0] [0] [1] [] []

variable [Facts₀]

def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def gather_S50000_S300000x1_S300000_n_0_n_n_0_1_1 : GatherDims S50000 S300000x1 S300000 where
  offsetDims := []
  collapsedSliceDims := [0]
  operandBatchingDims := []
  startIndicesBatchingDims := []
  startIndexMap := [0]
  indexVectorDim := 1
  sliceSizes := ![1]
  wf := gather_S50000_S300000x1_S300000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S300000x528_S528x128_S300000x128_1_0_0_1_n_n : DotDims S300000x528 S528x128 S300000x128 where
  lhsContracting := [1]
  rhsContracting := [0]
  lhsNonContracting := [0]
  rhsNonContracting := [1]
  lhsBatch := []
  rhsBatch := []
  wf := dot_S300000x528_S528x128_S300000x128_1_0_0_1_n_n_wf
def dot_S300000x128_S128x64_S300000x64_1_0_0_1_n_n : DotDims S300000x128 S128x64 S300000x64 where
  lhsContracting := [1]
  rhsContracting := [0]
  lhsNonContracting := [0]
  rhsNonContracting := [1]
  lhsBatch := []
  rhsBatch := []
  wf := dot_S300000x128_S128x64_S300000x64_1_0_0_1_n_n_wf
def dot_S300000x64_S64x2_S300000x2_1_0_0_1_n_n : DotDims S300000x64 S64x2 S300000x2 where
  lhsContracting := [1]
  rhsContracting := [0]
  lhsNonContracting := [0]
  rhsNonContracting := [1]
  lhsBatch := []
  rhsBatch := []
  wf := dot_S300000x64_S64x2_S300000x2_1_0_0_1_n_n_wf

class Facts : Prop extends Facts₀ where

variable [Facts]
-- ==== Proof.KernelRun.lean ====
/- The run of @main with the result buffer read: every weakly fair execution of @main on the TensorCores terminates,
   nothing faulting, and in every final state the result buffer holds what the last region's write-backs leave in it
   (the fold of boundary contents at its last boundary), the argument arrays as launched. -/
import proofs.«132875_j15685220565562_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- From any memory with zero counters, every weakly fair execution of @main on the TensorCores terminates, nothing
    faulting; in every final state the result buffer `main_v103` holds the last boundary's contents `W12` of it, and
    every argument array is as launched. The final thread state holds every unscoped buffer at `W12`; the result
    buffer is one of them, and each argument walks back through the fold to the launch memory. -/
theorem run : θ_run defs (onTc (τ := τ) (main (F := F))) ⟨m, fun _ => 0, ρ⟩ (fun r => ∀ c : Dev nD,
      r.2.mem ((c.tc : Thread nD τ).loc main_v103) = W12 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v103 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c)⟩)

end Cert.KernelIdeal.KRun

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Region0.lean ====
/-
  Region 0 (the node encoder) as ONE function of the arrays it finds: row r, column q of its output array is
  max (∑ k, X (r, k) · W (k, q) + b (0, q), 0): every grid point t writes rows 2000·t … 2000·t + 1999, the points'
  blocks tile the 50000 rows, and inside a block the body is a matrix product into a zero accumulator, a row
  broadcast added, and a maximum with zero; a change of float format is the identity on the extended reals.
-/
import proofs.«132875_j15685220565562_2_alg».proof.Proof.Gen.KernelIdeal.Frame
import proofs.«132875_j15685220565562_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- relu (X · W + b), index by index. -/
def G (a0 : S50000x128.Idx → EReal) (a1 : S128x256.Idx → EReal) (a2 : S1x256.Idx → EReal) : S50000x256.Idx → EReal :=
  fun i => max ((∑ k : Fin 128, a0 (ix2 (i 0) k) * a1 (ix2 k (i 1))) + a2 (ix2 (0 : Fin 1) (i 1))) (Ideal.ofBits .f32 0x00000000#32)

/-- The body's value at row p, column q of its block. -/
theorem pay_apply (x0 : Vec Ideal S2000x128 .f32) (x1 : Vec Ideal S128x256 .f32) (x2 : Vec Ideal S1x256 .f32)
    (p : Fin 2000) (q : Fin 256) :
    k0_pay1 (F := Ideal) x0 x1 x2 (ix2 p q)
      = max ((∑ k : Fin 128, x0 (ix2 p k) * x1 (ix2 k q)) + x2 (ix2 (0 : Fin 1) q)) (Ideal.ofBits .f32 0x00000000#32) := by
  unfold k0_pay1
  simp only [maximumf_apply, addf_apply, broadcast_apply, shapeCast_self]
  rw [broadcastTo_1b_ab_apply]
  refine congrArg₂ max (congrArg₂ (· + ·) ?_ rfl) rfl
  exact Cert.Lib.matmul_zero_apply dot_S2000x128_S128x256_S2000x256_1_0_0_1_n_n.wf none _ _ p q

/-! ## From blocks to the array -/

theorem hz : (![0, 0] : Fin 2 → Nat) = fun _ => 0 := funext fun a => by fin_cases a <;> rfl

/-- The printed index maps over the grid: the row-blocked windows sit at block row t, the whole ones at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of `G` of the arrays the region finds. -/
theorem flushed_eq (c : Dev nD) (t : Fin cfg0.N) :
    (dat0 (F := Ideal) V c).flushed 3 t = ((cfg0.win 3).blk t).view.read (Elt Ideal)
      (G (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x256) hz, View.ld_unit_zero (S := S1x256) hz]
  obtain ⟨e0, e1, e2, e3, e4, e5, e6, e7⟩ := idx_facts t
  funext j
  obtain ⟨p, q, rfl⟩ : ∃ (p : Fin 2000) (q : Fin 256), j = ix2 p q := ⟨j 0, j 1, eq_ix2 j⟩
  refine (pay_apply (iblk0 V c 0 t) (iblk0 V c 1 t) (iblk0 V c 2 t) p q).trans ?_
  have e_0 : ∀ k : Fin 128, iblk0 V c 0 t (ix2 p k)
      = V c (Pipeline.arrRef spec0 0) (ix2 ((((cfg0.win 3).blk t).view.emb (ix2 p q)) 0) k) := fun k => by
    show V c (Pipeline.arrRef spec0 0) (((cfg0.win 0).blk t).view.emb (ix2 p k)) = _
    refine congrArg _ (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  have e_1 : ∀ k : Fin 128, iblk0 V c 1 t (ix2 k q)
      = V c (Pipeline.arrRef spec0 1) (ix2 k ((((cfg0.win 3).blk t).view.emb (ix2 p q)) 1)) := fun k => by
    show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 256 + 1 * q.val = win0_3.index t (1 : Fin 2) * 256 + 1 * q.val; omega
  have e_2 : iblk0 V c 2 t (ix2 (0 : Fin 1) q)
      = V c (Pipeline.arrRef spec0 2) (ix2 (0 : Fin 1) ((((cfg0.win 3).blk t).view.emb (ix2 p q)) 1)) := by
    show V c (Pipeline.arrRef spec0 2) (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega
  show _ = G _ _ _ (((cfg0.win 3).blk t).view.emb (ix2 p q))
  unfold G
  simp only [e_0, e_1, e_2]

/-- An index of the array is in point t's block iff each coordinate is in the block's range on its axis. -/
theorem mem_blk (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v30).slice (win0_3.rect t)).set ↔ _
  rw [View.set_slice_whole, Rect.mem_set_unit]
  exact Iff.rfl

/-- Row r lies in the block of point r / 2000. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have ht : (i 0).val / 2000 < 25 := by omega
  refine ⟨⟨(i 0).val / 2000, ht⟩, flush0_3 _, ?_⟩
  rw [mem_blk]
  obtain ⟨-, -, -, -, -, -, e6, e7⟩ := idx_facts ⟨(i 0).val / 2000, ht⟩
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, ht⟩ (1 : Fin 2) * 256 ≤ (i 1).val
      ∧ (i 1).val < win0_3.index ⟨(i 0).val / 2000, ht⟩ (1 : Fin 2) * 256 + 256
    rw [e7]; omega

/-- The output array after the region. -/
theorem final (c : Dev nD) : (dat0 (F := Ideal) V c).arrAt 3 cfg0.N
    = G (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.Region0

end
-- ==== Proof.Region1.lean ====
/-
  Region 1 (the first layer's linear map) as ONE function of the arrays it finds: row r, column q of its output array
  is ∑ k, X (r, k) · W (k, q) + b (0, q): every grid point t writes rows 2000·t … 2000·t + 1999, the points' blocks
  tile the 50000 rows, and inside a block the body is a matrix product into a zero accumulator with a row broadcast
  added; a change of float format is the identity on the extended reals.
-/
import proofs.«132875_j15685220565562_2_alg».proof.Proof.Gen.KernelIdeal.Frame
import proofs.«132875_j15685220565562_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- X · W + b, index by index. -/
def G (a0 : S50000x256.Idx → EReal) (a1 : S256x256.Idx → EReal) (a2 : S1x256.Idx → EReal) : S50000x256.Idx → EReal :=
  fun i => (∑ k : Fin 256, a0 (ix2 (i 0) k) * a1 (ix2 k (i 1))) + a2 (ix2 (0 : Fin 1) (i 1))

/-- The body's value at row p, column q of its block. -/
theorem pay_apply (x0 : Vec Ideal S2000x256 .f32) (x1 : Vec Ideal S256x256 .f32) (x2 : Vec Ideal S1x256 .f32)
    (p : Fin 2000) (q : Fin 256) :
    k1_pay1 (F := Ideal) x0 x1 x2 (ix2 p q)
      = (∑ k : Fin 256, x0 (ix2 p k) * x1 (ix2 k q)) + x2 (ix2 (0 : Fin 1) q) := by
  unfold k1_pay1
  simp only [truncf_apply, addf_apply, shapeCast_self]
  rw [broadcastTo_1b_ab_apply]
  refine congrArg₂ (· + ·) ?_ rfl
  exact Cert.Lib.matmul_zero_apply dot_S2000x256_S256x256_S2000x256_1_0_0_1_n_n.wf none _ _ p q

/-! ## From blocks to the array -/

theorem hz : (![0, 0] : Fin 2 → Nat) = fun _ => 0 := funext fun a => by fin_cases a <;> rfl

/-- The printed index maps over the grid: the row-blocked windows sit at block row t, the whole ones at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of `G` of the arrays the region finds. -/
theorem flushed_eq (c : Dev nD) (t : Fin cfg1.N) :
    (dat1 (F := Ideal) V c).flushed 3 t = ((cfg1.win 3).blk t).view.read (Elt Ideal)
      (G (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S2000x256) hz, View.ld_unit_zero (S := S256x256) hz, View.ld_unit_zero (S := S1x256) hz]
  obtain ⟨e0, e1, e2, e3, e4, e5, e6, e7⟩ := idx_facts t
  funext j
  obtain ⟨p, q, rfl⟩ : ∃ (p : Fin 2000) (q : Fin 256), j = ix2 p q := ⟨j 0, j 1, eq_ix2 j⟩
  refine (pay_apply (iblk1 V c 0 t) (iblk1 V c 1 t) (iblk1 V c 2 t) p q).trans ?_
  have e_0 : ∀ k : Fin 256, iblk1 V c 0 t (ix2 p k)
      = V c (Pipeline.arrRef spec1 0) (ix2 ((((cfg1.win 3).blk t).view.emb (ix2 p q)) 0) k) := fun k => by
    show V c (Pipeline.arrRef spec1 0) (((cfg1.win 0).blk t).view.emb (ix2 p k)) = _
    refine congrArg _ (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 256 + 1 * k.val = k.val; omega
  have e_1 : ∀ k : Fin 256, iblk1 V c 1 t (ix2 k q)
      = V c (Pipeline.arrRef spec1 1) (ix2 k ((((cfg1.win 3).blk t).view.emb (ix2 p q)) 1)) := fun k => by
    show V c (Pipeline.arrRef spec1 1) (((cfg1.win 1).blk t).view.emb (ix2 k q)) = _
    refine congrArg _ (funext fun a => Fin.ext ?_)
    match a with
    | ⟨0, _⟩ => show win1_1.index t (0 : Fin 2) * 256 + 1 * k.val = k.val; omega
    | ⟨1, _⟩ => show win1_1.index t (1 : Fin 2) * 256 + 1 * q.val = win1_3.index t (1 : Fin 2) * 256 + 1 * q.val; omega
  have e_2 : iblk1 V c 2 t (ix2 (0 : Fin 1) q)
      = V c (Pipeline.arrRef spec1 2) (ix2 (0 : Fin 1) ((((cfg1.win 3).blk t).view.emb (ix2 p q)) 1)) := by
    show V c (Pipeline.arrRef spec1 2) (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * q.val = win1_3.index t (1 : Fin 2) * 256 + 1 * q.val; omega
  show _ = G _ _ _ (((cfg1.win 3).blk t).view.emb (ix2 p q))
  unfold G
  simp only [e_0, e_1, e_2]

/-- An index of the array is in point t's block iff each coordinate is in the block's range on its axis. -/
theorem mem_blk (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v32).slice (win1_3.rect t)).set ↔ _
  rw [View.set_slice_whole, Rect.mem_set_unit]
  exact Iff.rfl

/-- Row r lies in the block of point r / 2000. -/
theorem cover (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have ht : (i 0).val / 2000 < 25 := by omega
  refine ⟨⟨(i 0).val / 2000, ht⟩, flush1_3 _, ?_⟩
  rw [mem_blk]
  obtain ⟨-, -, -, -, -, -, e6, e7⟩ := idx_facts ⟨(i 0).val / 2000, ht⟩
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ (1 : Fin 2) * 256 ≤ (i 1).val
      ∧ (i 1).val < win1_3.index ⟨(i 0).val / 2000, ht⟩ (1 : Fin 2) * 256 + 256
    rw [e7]; omega

/-- The output array after the region. -/
theorem final (c : Dev nD) : (dat1 (F := Ideal) V c).arrAt 3 cfg1.N
    = G (V c (Pipeline.arrRef spec1 0)) (V c (Pipeline.arrRef spec1 1)) (V c (Pipeline.arrRef spec1 2)) :=
  (dat1 V c).arrAt_eq_of_cover 3 _ (fun t _ => flushed_eq V c t) cover

end Cert.KernelIdeal.Region1

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Region2.lean ====
/-
  Region 2 (a layer's self-loop step fused with the next linear map) as ONE function of the arrays it finds: with
  x (r, k) = max (A (r, k) + H (r, k) · d (r, 0), 0), row r, column q of its output array is ∑ k, x (r, k) · W (k, q) + b (0, q).
  Every grid point t writes rows 2000·t … 2000·t + 1999 and the points' blocks tile the 50000 rows; inside a block the
  body is pointwise up to x, then a matrix product into a zero accumulator with a row broadcast added; a change of
  float format is the identity on the extended reals.
-/
import proofs.«132875_j15685220565562_2_alg».proof.Proof.Gen.KernelIdeal.Frame
import proofs.«132875_j15685220565562_2_alg».proof.Proof.LibPlainDot
import proofs.«132875_j15685220565562_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- (relu (A + H · d)) · W + b, index by index. -/
def G (a0 : S50000x256.Idx → EReal) (a1 : S50000x256.Idx → EReal) (a2 : S50000x1.Idx → EReal) (a3 : S256x256.Idx → EReal)
    (a4 : S1x256.Idx → EReal) : S50000x256.Idx → EReal :=
  fun i => (∑ k : Fin 256, max (a0 (ix2 (i 0) k) + a1 (ix2 (i 0) k) * a2 (ix2 (i 0) (0 : Fin 1))) (Ideal.ofBits .f32 0x00000000#32) * a3 (ix2 k (i 1)))
    + a4 (ix2 (0 : Fin 1) (i 1))

/-- The body's value at row p, column q of its block. -/
theorem pay_apply (x0 : Vec Ideal S2000x256 .f32) (x1 : Vec Ideal S2000x256 .bf16) (x2 : Vec Ideal S2000x1 .f32)
    (x3 : Vec Ideal S256x256 .f32) (x4 : Vec Ideal S1x256 .f32) (p : Fin 2000) (q : Fin 256) :
    k2_pay1 (F := Ideal) x0 x1 x2 x3 x4 (ix2 p q)
      = (∑ k : Fin 256, max (x0 (ix2 p k) + x1 (ix2 p k) * x2 (ix2 p (0 : Fin 1))) (Ideal.ofBits .f32 0x00000000#32) * x3 (ix2 k q))
        + x4 (ix2 (0 : Fin 1) q) := by
  unfold k2_pay1
  simp only [truncf_apply, addf_apply, shapeCast_self]
  rw [broadcastTo_1b_ab_apply]
  refine congrArg₂ (· + ·) ?_ rfl
  refine (Cert.Lib.matmul_zero_apply dot_S2000x256_S256x256_S2000x256_1_0_0_1_n_n.wf none _ _ p q).trans ?_
  refine Finset.sum_congr rfl fun k _ => congrArg₂ (· * ·) ?_ rfl
  simp only [truncf_apply, maximumf_apply, addf_apply, mulf_apply, extf_apply, broadcast_apply]
  rw [Cert.Lib.broadcastTo_a1_ab_apply]
  rfl

/-! ## From blocks to the array -/

theorem hz : (![0, 0] : Fin 2 → Nat) = fun _ => 0 := funext fun a => by fin_cases a <;> rfl

/-- The printed index maps over the grid: the row-blocked windows sit at block row t, the whole ones at the origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

set_option maxHeartbeats 1000000 in
/-- What point t writes back is block t of `G` of the arrays the region finds. -/
theorem flushed_eq (c : Dev nD) (t : Fin cfg2.N) :
    (dat2 (F := Ideal) V c).flushed 5 t = ((cfg2.win 5).blk t).view.read (Elt Ideal)
      (G (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S2000x256) hz, View.ld_unit_zero (S := S2000x1) hz, View.ld_unit_zero (S := S256x256) hz,
    View.ld_unit_zero (S := S1x256) hz]
  obtain ⟨e0, e1, e2, e3, e4, e5, e6, e7, e8, e9, e10, e11⟩ := idx_facts t
  funext j
  obtain ⟨p, q, rfl⟩ : ∃ (p : Fin 2000) (q : Fin 256), j = ix2 p q := ⟨j 0, j 1, eq_ix2 j⟩
  refine (pay_apply (iblk2 V c 0 t) (iblk2 V c 1 t) (iblk2 V c 2 t) (iblk2 V c 3 t) (iblk2 V c 4 t) p q).trans ?_
  have e_0 : ∀ k : Fin 256, iblk2 V c 0 t (ix2 p k)
      = V c (Pipeline.arrRef spec2 0) (ix2 ((((cfg2.win 5).blk t).view.emb (ix2 p q)) 0) k) := fun k => by
    show V c (Pipeline.arrRef spec2 0) (((cfg2.win 0).blk t).view.emb (ix2 p k)) = _
    refine congrArg _ (funext fun a => Fin.ext ?_)
    match a with
    | ⟨0, _⟩ => show win2_0.index t (0 : Fin 2) * 2000 + 1 * p.val = win2_5.index t (0 : Fin 2) * 2000 + 1 * p.val; omega
    | ⟨1, _⟩ => show win2_0.index t (1 : Fin 2) * 256 + 1 * k.val = k.val; omega
  have e_1 : ∀ k : Fin 256, iblk2 V c 1 t (ix2 p k)
      = V c (Pipeline.arrRef spec2 1) (ix2 ((((cfg2.win 5).blk t).view.emb (ix2 p q)) 0) k) := fun k => by
    show V c (Pipeline.arrRef spec2 1) (((cfg2.win 1).blk t).view.emb (ix2 p k)) = _
    refine congrArg _ (funext fun a => Fin.ext ?_)
    match a with
    | ⟨0, _⟩ => show win2_1.index t (0 : Fin 2) * 2000 + 1 * p.val = win2_5.index t (0 : Fin 2) * 2000 + 1 * p.val; omega
    | ⟨1, _⟩ => show win2_1.index t (1 : Fin 2) * 256 + 1 * k.val = k.val; omega
  have e_2 : iblk2 V c 2 t (ix2 p (0 : Fin 1))
      = V c (Pipeline.arrRef spec2 2) (ix2 ((((cfg2.win 5).blk t).view.emb (ix2 p q)) 0) (0 : Fin 1)) := by
    show V c (Pipeline.arrRef spec2 2) (((cfg2.win 2).blk t).view.emb (ix2 p (0 : Fin 1))) = _
    refine congrArg _ (funext fun a => Fin.ext ?_)
    match a with
    | ⟨0, _⟩ => show win2_2.index t (0 : Fin 2) * 2000 + 1 * p.val = win2_5.index t (0 : Fin 2) * 2000 + 1 * p.val; omega
    | ⟨1, _⟩ => show win2_2.index t (1 : Fin 2) * 1 + 1 * 0 = 0; omega
  have e_3 : ∀ k : Fin 256, iblk2 V c 3 t (ix2 k q)
      = V c (Pipeline.arrRef spec2 3) (ix2 k ((((cfg2.win 5).blk t).view.emb (ix2 p q)) 1)) := fun k => by
    show V c (Pipeline.arrRef spec2 3) (((cfg2.win 3).blk t).view.emb (ix2 k q)) = _
    refine congrArg _ (funext fun a => Fin.ext ?_)
    match a with
    | ⟨0, _⟩ => show win2_3.index t (0 : Fin 2) * 256 + 1 * k.val = k.val; omega
    | ⟨1, _⟩ => show win2_3.index t (1 : Fin 2) * 256 + 1 * q.val = win2_5.index t (1 : Fin 2) * 256 + 1 * q.val; omega
  have e_4 : iblk2 V c 4 t (ix2 (0 : Fin 1) q)
      = V c (Pipeline.arrRef spec2 4) (ix2 (0 : Fin 1) ((((cfg2.win 5).blk t).view.emb (ix2 p q)) 1)) := by
    show V c (Pipeline.arrRef spec2 4) (((cfg2.win 4).blk t).view.emb (ix2 (0 : Fin 1) q)) = _
    refine congrArg _ (funext fun a => Fin.ext ?_)
    match a with
    | ⟨0, _⟩ => show win2_4.index t (0 : Fin 2) * 1 + 1 * 0 = 0; omega
    | ⟨1, _⟩ => show win2_4.index t (1 : Fin 2) * 256 + 1 * q.val = win2_5.index t (1 : Fin 2) * 256 + 1 * q.val; omega
  show _ = G _ _ _ _ _ (((cfg2.win 5).blk t).view.emb (ix2 p q))
  unfold G
  simp only [e_0, e_1, e_2, e_3, e_4]

/-- An index of the array is in point t's block iff each coordinate is in the block's range on its axis. -/
theorem mem_blk (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v48).slice (win2_5.rect t)).set ↔ _
  rw [View.set_slice_whole, Rect.mem_set_unit]
  exact Iff.rfl

/-- Row r lies in the block of point r / 2000. -/
theorem cover (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  have ht : (i 0).val / 2000 < 25 := by omega
  refine ⟨⟨(i 0).val / 2000, ht⟩, flush2_5 _, ?_⟩
  rw [mem_blk]
  obtain ⟨-, -, -, -, -, -, -, -, -, -, e10, e11⟩ := idx_facts ⟨(i 0).val / 2000, ht⟩
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e10]; show (i 0).val / 2000 * 2000 ≤ (i 0).val ∧ (i 0).val < (i 0).val / 2000 * 2000 + 2000; omega
  | ⟨1, _⟩ =>
    show win2_5.index ⟨(i 0).val / 2000, ht⟩ (1 : Fin 2) * 256 ≤ (i 1).val
      ∧ (i 1).val < win2_5.index ⟨(i 0).val / 2000, ht⟩ (1 : Fin 2) * 256 + 256
    rw [e11]; omega

/-- The output array after the region. -/
theorem final (c : Dev nD) : (dat2 (F := Ideal) V c).arrAt 5 cfg2.N
    = G (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 _ (fun t _ => flushed_eq V c t) cover

end Cert.KernelIdeal.Region2

end
-- ==== Proof.Region3.lean ====
/-
  Region 3 (a layer's self-loop step fused with the next linear map) as ONE function of the arrays it finds: with
  x (r, k) = max (A (r, k) + H (r, k) · d (r, 0), 0), row r, column q of its output array is ∑ k, x (r, k) · W (k, q) + b (0, q).
  Every grid point t writes rows 2000·t … 2000·t + 1999 and the points' blocks tile the 50000 rows; inside a block the
  body is pointwise up to x, then a matrix product into a zero accumulator with a row broadcast added; a change of
  float format is the identity on the extended reals.
-/
import proofs.«132875_j15685220565562_2_alg».proof.Proof.Gen.KernelIdeal.Frame
import proofs.«132875_j15685220565562_2_alg».proof.Proof.LibPlainDot
import proofs.«132875_j15685220565562_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- (relu (A + H · d)) · W + b, index by index. -/
def G (a0 : S50000x256.Idx → EReal) (a1 : S50000x256.Idx → EReal) (a2 : S50000x1.Idx → EReal) (a3 : S256x256.Idx → EReal)
    (a4 : S1x256.Idx → EReal) : S50000x256.Idx → EReal :=
  fun i => (∑ k : Fin 256, max (a0 (ix2 (i 0) k) + a1 (ix2 (i 0) k) * a2 (ix2 (i 0) (0 : Fin 1))) (Ideal.ofBits .f32 0x00000000#32) * a3 (ix2 k (i 1)))
    + a4 (ix2 (0 : Fin 1) (i 1))

/-- The body's value at row p, column q of its block. -/
theorem pay_apply (x0 : Vec Ideal S2000x256 .f32) (x1 : Vec Ideal S2000x256 .bf16) (x2 : Vec Ideal S2000x1 .f32)
    (x3 : Vec Ideal S256x256 .f32) (x4 : Vec Ideal S1x256 .f32) (p : Fin 2000) (q : Fin 256) :
    k3_pay1 (F := Ideal) x0 x1 x2 x3 x4 (ix2 p q)
      = (∑ k : Fin 256, max (x0 (ix2 p k) + x1 (ix2 p k) * x2 (ix2 p (0 : Fin 1))) (Ideal.ofBits .f32 0x00000000#32) * x3 (ix2 k q))
        + x4 (ix2 (0 : Fin 1) q) := by
  unfold k3_pay1
  simp only [truncf_apply, addf_apply, shapeCast_self]
  rw [broadcastTo_1b_ab_apply]
  refine congrArg₂ (· + ·) ?_ rfl
  refine (Cert.Lib.matmul_zero_apply dot_S2000x256_S256x256_S2000x256_1_0_0_1_n_n.wf none _ _ p q).trans ?_
  refine Finset.sum_congr rfl fun k _ => congrArg₂ (· * ·) ?_ rfl
  simp only [truncf_apply, maximumf_apply, addf_apply, mulf_apply, extf_apply, broadcast_apply]
  rw [Cert.Lib.broadcastTo_a1_ab_apply]
  rfl

/-! ## From blocks to the array -/

theorem hz : (![0, 0] : Fin 2 → Nat) = fun _ => 0 := funext fun a => by fin_cases a <;> rfl

/-- The printed index maps over the grid: the row-blocked windows sit at block row t, the whole ones at the origin. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

set_option maxHeartbeats 1000000 in
/-- What point t writes back is block t of `G` of the arrays the region finds. -/
theorem flushed_eq (c : Dev nD) (t : Fin cfg3.N) :
    (dat3 (F := Ideal) V c).flushed 5 t = ((cfg3.win 5).blk t).view.read (Elt Ideal)
      (G (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S2000x256) hz, View.ld_unit_zero (S := S2000x1) hz, View.ld_unit_zero (S := S256x256) hz,
    View.ld_unit_zero (S := S1x256) hz]
  obtain ⟨e0, e1, e2, e3, e4, e5, e6, e7, e8, e9, e10, e11⟩ := idx_facts t
  funext j
  obtain ⟨p, q, rfl⟩ : ∃ (p : Fin 2000) (q : Fin 256), j = ix2 p q := ⟨j 0, j 1, eq_ix2 j⟩
  refine (pay_apply (iblk3 V c 0 t) (iblk3 V c 1 t) (iblk3 V c 2 t) (iblk3 V c 3 t) (iblk3 V c 4 t) p q).trans ?_
  have e_0 : ∀ k : Fin 256, iblk3 V c 0 t (ix2 p k)
      = V c (Pipeline.arrRef spec3 0) (ix2 ((((cfg3.win 5).blk t).view.emb (ix2 p q)) 0) k) := fun k => by
    show V c (Pipeline.arrRef spec3 0) (((cfg3.win 0).blk t).view.emb (ix2 p k)) = _
    refine congrArg _ (funext fun a => Fin.ext ?_)
    match a with
    | ⟨0, _⟩ => show win3_0.index t (0 : Fin 2) * 2000 + 1 * p.val = win3_5.index t (0 : Fin 2) * 2000 + 1 * p.val; omega
    | ⟨1, _⟩ => show win3_0.index t (1 : Fin 2) * 256 + 1 * k.val = k.val; omega
  have e_1 : ∀ k : Fin 256, iblk3 V c 1 t (ix2 p k)
      = V c (Pipeline.arrRef spec3 1) (ix2 ((((cfg3.win 5).blk t).view.emb (ix2 p q)) 0) k) := fun k => by
    show V c (Pipeline.arrRef spec3 1) (((cfg3.win 1).blk t).view.emb (ix2 p k)) = _
    refine congrArg _ (funext fun a => Fin.ext ?_)
    match a with
    | ⟨0, _⟩ => show win3_1.index t (0 : Fin 2) * 2000 + 1 * p.val = win3_5.index t (0 : Fin 2) * 2000 + 1 * p.val; omega
    | ⟨1, _⟩ => show win3_1.index t (1 : Fin 2) * 256 + 1 * k.val = k.val; omega
  have e_2 : iblk3 V c 2 t (ix2 p (0 : Fin 1))
      = V c (Pipeline.arrRef spec3 2) (ix2 ((((cfg3.win 5).blk t).view.emb (ix2 p q)) 0) (0 : Fin 1)) := by
    show V c (Pipeline.arrRef spec3 2) (((cfg3.win 2).blk t).view.emb (ix2 p (0 : Fin 1))) = _
    refine congrArg _ (funext fun a => Fin.ext ?_)
    match a with
    | ⟨0, _⟩ => show win3_2.index t (0 : Fin 2) * 2000 + 1 * p.val = win3_5.index t (0 : Fin 2) * 2000 + 1 * p.val; omega
    | ⟨1, _⟩ => show win3_2.index t (1 : Fin 2) * 1 + 1 * 0 = 0; omega
  have e_3 : ∀ k : Fin 256, iblk3 V c 3 t (ix2 k q)
      = V c (Pipeline.arrRef spec3 3) (ix2 k ((((cfg3.win 5).blk t).view.emb (ix2 p q)) 1)) := fun k => by
    show V c (Pipeline.arrRef spec3 3) (((cfg3.win 3).blk t).view.emb (ix2 k q)) = _
    refine congrArg _ (funext fun a => Fin.ext ?_)
    match a with
    | ⟨0, _⟩ => show win3_3.index t (0 : Fin 2) * 256 + 1 * k.val = k.val; omega
    | ⟨1, _⟩ => show win3_3.index t (1 : Fin 2) * 256 + 1 * q.val = win3_5.index t (1 : Fin 2) * 256 + 1 * q.val; omega
  have e_4 : iblk3 V c 4 t (ix2 (0 : Fin 1) q)
      = V c (Pipeline.arrRef spec3 4) (ix2 (0 : Fin 1) ((((cfg3.win 5).blk t).view.emb (ix2 p q)) 1)) := by
    show V c (Pipeline.arrRef spec3 4) (((cfg3.win 4).blk t).view.emb (ix2 (0 : Fin 1) q)) = _
    refine congrArg _ (funext fun a => Fin.ext ?_)
    match a with
    | ⟨0, _⟩ => show win3_4.index t (0 : Fin 2) * 1 + 1 * 0 = 0; omega
    | ⟨1, _⟩ => show win3_4.index t (1 : Fin 2) * 256 + 1 * q.val = win3_5.index t (1 : Fin 2) * 256 + 1 * q.val; omega
  show _ = G _ _ _ _ _ (((cfg3.win 5).blk t).view.emb (ix2 p q))
  unfold G
  simp only [e_0, e_1, e_2, e_3, e_4]

/-- An index of the array is in point t's block iff each coordinate is in the block's range on its axis. -/
theorem mem_blk (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v64).slice (win3_5.rect t)).set ↔ _
  rw [View.set_slice_whole, Rect.mem_set_unit]
  exact Iff.rfl

/-- Row r lies in the block of point r / 2000. -/
theorem cover (i : S50000x256.Idx) : ∃ t : Fin cfg3.N, (cfg3.win 5).flush t = true ∧ i ∈ ((cfg3.win 5).blk t).view.set := by
  have hi0 : (i 0).val < 50000 := (i 0).isLt
  have hi1 : (i 1).val < 256 := (i 1).isLt
  have ht : (i 0).val / 2000 < 25 := by omega
  refine ⟨⟨(i 0).val / 2000, ht⟩, flush3_5 _, ?_⟩
  rw [mem_blk]
  obtain ⟨-, -, -, -, -, -, -, -, -, -, e10, e11⟩ := idx_facts ⟨(i 0).val / 2000, ht⟩
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    rw [e10]; show (i 0).val / 2000 * 2000 ≤ (i 0).val ∧ (i 0).val < (i 0).val / 2000 * 2000 + 2000; omega
  | ⟨1, _⟩ =>
    show win3_5.index ⟨(i 0).val / 2000, ht⟩ (1 : Fin 2) * 256 ≤ (i 1).val
      ∧ (i 1).val < win3_5.index ⟨(i 0).val / 2000, ht⟩ (1 : Fin 2) * 256 + 256
    rw [e11]; omega

/-- The output array after the region. -/
theorem final (c : Dev nD) : (dat3 (F := Ideal) V c).arrAt 5 cfg3.N
    = G (V c (Pipeline.arrRef spec3 0)) (V c (Pipeline.arrRef spec3 1)) (V c (Pipeline.arrRef spec3 2))
        (V c (Pipeline.arrRef spec3 3)) (V c (Pipeline.arrRef spec3 4)) :=
  (dat3 V c).arrAt_eq_of_cover 5 _ (fun t _ => flushed_eq V c t) cover

end Cert.KernelIdeal.Region3

end
-- ==== Proof.Region4.lean ====
/-
  Region 4 (the last layer's self-loop step fused with the two node projections of the classifier) as functions of
  the arrays it finds: with x (r, k) = max (A (r, k) + H (r, k) · d (r, 0), 0), row r, column q of each output array is
  ∑ k, x (r, k) · P (k, q), P the output's own block of weights. Every grid point t writes rows 2000·t … 2000·t + 1999
  of both outputs and the points' blocks tile the 50000 rows; a change of float format is the identity on the
  extended reals.
-/
import proofs.«132875_j15685220565562_2_alg».proof.Proof.Gen.KernelIdeal.Frame
import proofs.«132875_j15685220565562_2_alg».proof.Proof.LibPlainDot
import proofs.«132875_j15685220565562_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- (relu (A + H · d)) · P, index by index. -/
def G (a0 : S50000x256.Idx → EReal) (a1 : S50000x256.Idx → EReal) (a2 : S50000x1.Idx → EReal) (a3 : S256x128.Idx → EReal) :
    S50000x128.Idx → EReal :=
  fun i => ∑ k : Fin 256, max (a0 (ix2 (i 0) k) + a1 (ix2 (i 0) k) * a2 (ix2 (i 0) (0 : Fin 1))) (Ideal.ofBits .f32 0x00000000#32) * a3 (ix2 k (i 1))

/-- The first output's body value at row p, column q of its block. -/
theorem pay2_apply (x0 : Vec Ideal S2000x256 .f32) (x1 : Vec Ideal S2000x256 .bf16) (x2 : Vec Ideal S2000x1 .f32)
    (x3 : Vec Ideal S256x128 .f32) (p : Fin 2000) (q : Fin 128) :
    k4_pay2 (F := Ideal) x0 x1 x2 x3 (ix2 p q)
      = ∑ k : Fin 256, max (x0 (ix2 p k) + x1 (ix2 p k) * x2 (ix2 p (0 : Fin 1))) (Ideal.ofBits .f32 0x00000000#32) * x3 (ix2 k q) := by
  unfold k4_pay2
  simp only [truncf_apply]
  refine (Cert.Lib.matmul_zero_apply dot_S2000x256_S256x128_S2000x128_1_0_0_1_n_n.wf none _ _ p q).trans ?_
  refine Finset.sum_congr rfl fun k _ => congrArg₂ (· * ·) ?_ ?_
  · unfold k4_pay1
    simp only [truncf_apply, maximumf_apply, addf_apply, mulf_apply, extf_apply, broadcast_apply, shapeCast_self]
    rw [Cert.Lib.broadcastTo_a1_ab_apply]
    rfl
  · simp only [truncf_apply, shapeCast_self]

/-- The second output's body value at row p, column q of its block. -/
theorem pay3_apply (x0 : Vec Ideal S2000x256 .f32) (x1 : Vec Ideal S2000x256 .bf16) (x2 : Vec Ideal S2000x1 .f32)
    (x3 : Vec Ideal S256x128 .f32) (p : Fin 2000) (q : Fin 128) :
    k4_pay3 (F := Ideal) x0 x1 x2 x3 (ix2 p q)
      = ∑ k : Fin 256, max (x0 (ix2 p k) + x1 (ix2 p k) * x2 (ix2 p (0 : Fin 1))) (Ideal.ofBits .f32 0x00000000#32) * x3 (ix2 k q) := by
  unfold k4_pay3
  simp only [truncf_apply]
  refine (Cert.Lib.matmul_zero_apply dot_S2000x256_S256x128_S2000x128_1_0_0_1_n_n.wf none _ _ p q).trans ?_
  refine Finset.sum_congr rfl fun k _ => congrArg₂ (· * ·) ?_ ?_
  · unfold k4_pay1
    simp only [truncf_apply, maximumf_apply, addf_apply, mulf_apply, extf_apply, broadcast_apply, shapeCast_self]
    rw [Cert.Lib.broadcastTo_a1_ab_apply]
    rfl
  · simp only [truncf_apply, shapeCast_self]

/-! ## From blocks to the arrays -/

theorem hz : (![0, 0] : Fin 2 → Nat) = fun _ => 0 := funext fun a => by fin_cases a <;> rfl

/-- The printed index maps over the grid: the row-blocked windows sit at block row t, the whole ones at the origin. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

variable (V : (c : Dev nD) → (b : Ref sig .tc) → Buf (Elt Ideal) ((c : Thread nD τ).loc b))

/-! ## Output window 5 (the projection by the first block of weights) -/

set_option maxHeartbeats 1000000 in
/-- What point t writes back is block t of `G` of the arrays the region finds. -/
theorem flushed_eq5 (c : Dev nD) (t : Fin cfg4.N) :
    (dat4 (F := Ideal) V c).flushed 5 t = ((cfg4.win 5).blk t).view.read (Elt Ideal)
      (G (V c (Pipeline.arrRef spec4 0)) (V c (Pipeline.arrRef spec4 1)) (V c (Pipeline.arrRef spec4 2))
        (V c (Pipeline.arrRef spec4 3))) := by
  show (cfg4.win 5).cut (grid4.coords t) ((dat4 V c).after 5 t) = _
  rw [after4_5]
  unfold out4_5
  rw [View.canon_unit_zero hz]
  simp only [View.ld_unit_zero (S := S2000x256) hz, View.ld_unit_zero (S := S2000x1) hz, View.ld_unit_zero (S := S256x128) hz]
  obtain ⟨e0, e1, e2, e3, e4, e5, e6, e7, e8, e9, e10, e11, e12, e13⟩ := idx_facts t
  funext j
  obtain ⟨p, q, rfl⟩ : ∃ (p : Fin 2000) (q : Fin 128), j = ix2 p q := ⟨j 0, j 1, eq_ix2 j⟩
  refine (pay2_apply (iblk4 V c 0 t) (iblk4 V c 1 t) (iblk4 V c 2 t) (iblk4 V c 3 t) p q).trans ?_
  have e_0 : ∀ k : Fin 256, iblk4 V c 0 t (ix2 p k)
      = V c (Pipeline.arrRef spec4 0) (ix2 ((((cfg4.win 5).blk t).view.emb (ix2 p q)) 0) k) := fun k => by
    show V c (Pipeline.arrRef spec4 0) (((cfg4.win 0).blk t).view.emb (ix2 p k)) = _
    refine congrArg (V c (Pipeline.arrRef spec4 0)) (funext fun a => Fin.ext ?_)
    match a with
    | ⟨0, _⟩ => show win4_0.index t (0 : Fin 2) * 2000 + 1 * p.val = win4_5.index t (0 : Fin 2) * 2000 + 1 * p.val; omega
    | ⟨1, _⟩ => show win4_0.index t (1 : Fin 2) * 256 + 1 * k.val = k.val; omega
  have e_1 : ∀ k : Fin 256, iblk4 V c 1 t (ix2 p k)
      = V c (Pipeline.arrRef spec4 1) (ix2 ((((cfg4.win 5).blk t).view.emb (ix2 p q)) 0) k) := fun k => by
    show V c (Pipeline.arrRef spec4 1) (((cfg4.win 1).blk t).view.emb (ix2 p k)) = _
    refine congrArg (V c (Pipeline.arrRef spec4 1)) (funext fun a => Fin.ext ?_)
    match a with
    | ⟨0, _⟩ => show win4_1.index t (0 : Fin 2) * 2000 + 1 * p.val = win4_5.index t (0 : Fin 2) * 2000 + 1 * p.val; omega
    | ⟨1, _⟩ => show win4_1.index t (1 : Fin 2) * 256 + 1 * k.val = k.val; omega
  have e_2 : iblk4 V c 2 t (ix2 p (0 : Fin 1))
      = V c (Pipeline.arrRef spec4 2) (ix2 ((((cfg4.win 5).blk t).view.emb (ix2 p q)) 0) (0 : Fin 1)) := by
    show V c (Pipeline.arrRef spec4 2) (((cfg4.win 2).blk t).view.emb (ix2 p (0 : Fin 1))) = _
    refine congrArg (V c (Pipeline.arrRef spec4 2)) (funext fun a => Fin.ext ?_)
    match a with
    | ⟨0, _⟩ => show win4_2.index t (0 : Fin 2) * 2000 + 1 * p.val = win4_5.index t (0 : Fin 2) * 2000 + 1 * p.val; omega
    | ⟨1, _⟩ => show win4_2.index t (1 : Fin 2) * 1 + 1 * 0 = 0; omega
  have e_3 : ∀ k : Fin 256, iblk4 V c 3 t (ix2 k q)
      = V c (Pipeline.arrRef spec4 3) (ix2 k ((((cfg4.win 5).blk t).view.emb (ix2 p q)) 1)) := fun k => by
    show V c (Pipeline.arrRef spec4 3) (((cfg4.win 3).blk t).view.emb (ix2 k q)) = _
    refine congrArg (V c (Pipeline.arrRef spec4 3)) (funext fun a => Fin.ext ?_)
    match a with
    | ⟨0, _⟩ => show win4_3.index t (0 : Fin 2) * 256 + 1 * k.val = k.val; omega
    | ⟨1, _⟩ => show win4_3.index t (1 : Fin 2) * 128 + 1 * q.val = win4_5.index t (1 : Fin 2) * 128 + 1 * q.val; omega
  show _ = G _ _ _ _ (((cfg4.win 5).blk t).view.emb (ix2 p q))
  unfold G
  simp only [e_0, e_1, e_2, e_3]

/-- An index of the array is in point t's block iff each coordinate is in the block's range on its axis. -/
theorem mem_blk5 (t : Fin cfg4.N) (i : S50000x128.Idx) :
    i ∈ ((cfg4.win 5).blk t).view.set ↔ ∀ a : Fin 2, win4_5.index t a * S2000x128.size a ≤ (i a).val
      ∧ (i a).val < win4_5.index t a * S2000x128.size a + S2000x128.size a := by
  show i ∈ ((View.whole main_v82_0).slice (win4_5.rect t)).set ↔ _
  rw [View.set_slice_whole, Rect.mem_set_unit]
  exact Iff.rfl

/-- Row r lies in the block of point r / 2000. -/
theorem cover5 (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  have ht : (i 0).val / 2000 < 25 := by omega
  refine ⟨⟨(i 0).val / 2000, ht⟩, flush4_5 _, ?_⟩
  rw [mem_blk5]
  obtain ⟨-, -, -, -, -, -, -, -, -, -, e10, e11, e12, e13⟩ := idx_facts ⟨(i 0).val / 2000, ht⟩
  intro a
  match a with
  | ⟨0, _⟩ =>
    show win4_5.index ⟨(i 0).val / 2000, ht⟩ (0 : Fin 2) * 2000 ≤ (i 0).val
      ∧ (i 0).val < win4_5.index ⟨(i 0).val / 2000, ht⟩ (0 : Fin 2) * 2000 + 2000
    rw [e10]; show (i 0).val / 2000 * 2000 ≤ (i 0).val ∧ (i 0).val < (i 0).val / 2000 * 2000 + 2000; omega
  | ⟨1, _⟩ =>
    show win4_5.index ⟨(i 0).val / 2000, ht⟩ (1 : Fin 2) * 128 ≤ (i 1).val
      ∧ (i 1).val < win4_5.index ⟨(i 0).val / 2000, ht⟩ (1 : Fin 2) * 128 + 128
    rw [e11]; omega

/-- The output array after the region. -/
theorem final5 (c : Dev nD) : (dat4 (F := Ideal) V c).arrAt 5 cfg4.N
    = G (V c (Pipeline.arrRef spec4 0)) (V c (Pipeline.arrRef spec4 1)) (V c (Pipeline.arrRef spec4 2))
        (V c (Pipeline.arrRef spec4 3)) :=
  (dat4 V c).arrAt_eq_of_cover 5 _ (fun t _ => flushed_eq5 V c t) cover5

/-! ## Output window 6 (the projection by the second block of weights) -/

set_option maxHeartbeats 1000000 in
/-- What point t writes back is block t of `G` of the arrays the region finds. -/
theorem flushed_eq6 (c : Dev nD) (t : Fin cfg4.N) :
    (dat4 (F := Ideal) V c).flushed 6 t = ((cfg4.win 6).blk t).view.read (Elt Ideal)
      (G (V c (Pipeline.arrRef spec4 0)) (V c (Pipeline.arrRef spec4 1)) (V c (Pipeline.arrRef spec4 2))
        (V c (Pipeline.arrRef spec4 4))) := by
  show (cfg4.win 6).cut (grid4.coords t) ((dat4 V c).after 6 t) = _
  rw [after4_6]
  unfold out4_6
  rw [View.canon_unit_zero hz]
  simp only [View.ld_unit_zero (S := S2000x256) hz, View.ld_unit_zero (S := S2000x1) hz, View.ld_unit_zero (S := S256x128) hz]
  obtain ⟨e0, e1, e2, e3, e4, e5, e6, e7, e8, e9, e10, e11, e12, e13⟩ := idx_facts t
  funext j
  obtain ⟨p, q, rfl⟩ : ∃ (p : Fin 2000) (q : Fin 128), j = ix2 p q := ⟨j 0, j 1, eq_ix2 j⟩
  refine (pay3_apply (iblk4 V c 0 t) (iblk4 V c 1 t) (iblk4 V c 2 t) (iblk4 V c 4 t) p q).trans ?_
  have e_0 : ∀ k : Fin 256, iblk4 V c 0 t (ix2 p k)
      = V c (Pipeline.arrRef spec4 0) (ix2 ((((cfg4.win 6).blk t).view.emb (ix2 p q)) 0) k) := fun k => by
    show V c (Pipeline.arrRef spec4 0) (((cfg4.win 0).blk t).view.emb (ix2 p k)) = _
    refine congrArg (V c (Pipeline.arrRef spec4 0)) (funext fun a => Fin.ext ?_)
    match a with
    | ⟨0, _⟩ => show win4_0.index t (0 : Fin 2) * 2000 + 1 * p.val = win4_6.index t (0 : Fin 2) * 2000 + 1 * p.val; omega
    | ⟨1, _⟩ => show win4_0.index t (1 : Fin 2) * 256 + 1 * k.val = k.val; omega
  have e_1 : ∀ k : Fin 256, iblk4 V c 1 t (ix2 p k)
      = V c (Pipeline.arrRef spec4 1) (ix2 ((((cfg4.win 6).blk t).view.emb (ix2 p q)) 0) k) := fun k => by
    show V c (Pipeline.arrRef spec4 1) (((cfg4.win 1).blk t).view.emb (ix2 p k)) = _
    refine congrArg (V c (Pipeline.arrRef spec4 1)) (funext fun a => Fin.ext ?_)
    match a with
    | ⟨0, _⟩ => show win4_1.index t (0 : Fin 2) * 2000 + 1 * p.val = win4_6.index t (0 : Fin 2) * 2000 + 1 * p.val; omega
    | ⟨1, _⟩ => show win4_1.index t (1 : Fin 2) * 256 + 1 * k.val = k.val; omega
  have e_2 : iblk4 V c 2 t (ix2 p (0 : Fin 1))
      = V c (Pipeline.arrRef spec4 2) (ix2 ((((cfg4.win 6).blk t).view.emb (ix2 p q)) 0) (0 : Fin 1)) := by
    show V c (Pipeline.arrRef spec4 2) (((cfg4.win 2).blk t).view.emb (ix2 p (0 : Fin 1))) = _
    refine congrArg (V c (Pipeline.arrRef spec4 2)) (funext fun a => Fin.ext ?_)
    match a with
    | ⟨0, _⟩ => show win4_2.index t (0 : Fin 2) * 2000 + 1 * p.val = win4_6.index t (0 : Fin 2) * 2000 + 1 * p.val; omega
    | ⟨1, _⟩ => show win4_2.index t (1 : Fin 2) * 1 + 1 * 0 = 0; omega
  have e_3 : ∀ k : Fin 256, iblk4 V c 4 t (ix2 k q)
      = V c (Pipeline.arrRef spec4 4) (ix2 k ((((cfg4.win 6).blk t).view.emb (ix2 p q)) 1)) := fun k => by
    show V c (Pipeline.arrRef spec4 4) (((cfg4.win 4).blk t).view.emb (ix2 k q)) = _
    refine congrArg (V c (Pipeline.arrRef spec4 4)) (funext fun a => Fin.ext ?_)
    match a with
    | ⟨0, _⟩ => show win4_4.index t (0 : Fin 2) * 256 + 1 * k.val = k.val; omega
    | ⟨1, _⟩ => show win4_4.index t (1 : Fin 2) * 128 + 1 * q.val = win4_6.index t (1 : Fin 2) * 128 + 1 * q.val; omega
  show _ = G _ _ _ _ (((cfg4.win 6).blk t).view.emb (ix2 p q))
  unfold G
  simp only [e_0, e_1, e_2, e_3]

/-- An index of the array is in point t's block iff each coordinate is in the block's range on its axis. -/
theorem mem_blk6 (t : Fin cfg4.N) (i : S50000x128.Idx) :
    i ∈ ((cfg4.win 6).blk t).view.set ↔ ∀ a : Fin 2, win4_6.index t a * S2000x128.size a ≤ (i a).val
      ∧ (i a).val < win4_6.index t a * S2000x128.size a + S2000x128.size a := by
  show i ∈ ((View.whole main_v82_1).slice (win4_6.rect t)).set ↔ _
  rw [View.set_slice_whole, Rect.mem_set_unit]
  exact Iff.rfl

/-- Row r lies in the block of point r / 2000. -/
theorem cover6 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  have ht : (i 0).val / 2000 < 25 := by omega
  refine ⟨⟨(i 0).val / 2000, ht⟩, flush4_6 _, ?_⟩
  rw [mem_blk6]
  obtain ⟨-, -, -, -, -, -, -, -, -, -, e10, e11, e12, e13⟩ := idx_facts ⟨(i 0).val / 2000, ht⟩
  intro a
  match a with
  | ⟨0, _⟩ =>
    show win4_6.index ⟨(i 0).val / 2000, ht⟩ (0 : Fin 2) * 2000 ≤ (i 0).val
      ∧ (i 0).val < win4_6.index ⟨(i 0).val / 2000, ht⟩ (0 : Fin 2) * 2000 + 2000
    rw [e12]; show (i 0).val / 2000 * 2000 ≤ (i 0).val ∧ (i 0).val < (i 0).val / 2000 * 2000 + 2000; omega
  | ⟨1, _⟩ =>
    show win4_6.index ⟨(i 0).val / 2000, ht⟩ (1 : Fin 2) * 128 ≤ (i 1).val
      ∧ (i 1).val < win4_6.index ⟨(i 0).val / 2000, ht⟩ (1 : Fin 2) * 128 + 128
    rw [e13]; omega

/-- The output array after the region. -/
theorem final6 (c : Dev nD) : (dat4 (F := Ideal) V c).arrAt 6 cfg4.N
    = G (V c (Pipeline.arrRef spec4 0)) (V c (Pipeline.arrRef spec4 1)) (V c (Pipeline.arrRef spec4 2))
        (V c (Pipeline.arrRef spec4 4)) :=
  (dat4 V c).arrAt_eq_of_cover 6 _ (fun t _ => flushed_eq6 V c t) cover6

end Cert.KernelIdeal.Region4

end
-- ==== Proof.Region5.lean ====
/-
  Region 5 (the edge classifier) as ONE function of the arrays it finds. For edge e:
    h0 (k1) = max (∑ k0, A (e, k0) · Wa (k0, k1) + S (e, k1) + b0 (0, k1), 0)
    h1 (k2) = max (∑ k1, h0 (k1) · W1 (k1, k2) + b1 (0, k2), 0)
    out (e, q) = ∑ k2, h1 (k2) · W2 (k2, q) + b2 (0, q).
  Every grid point t writes rows 3000·t … 3000·t + 2999 and the points' blocks tile the 300000 rows; inside a block
  the body is three matrix products into zero accumulators with row broadcasts added and two maxima with zero; a
  change of float format is the identity on the extended reals.
-/
import proofs.«132875_j15685220565562_2_alg».proof.Proof.Gen.KernelIdeal.Frame
import proofs.«132875_j15685220565562_2_alg».proof.Proof.LibPlainDot
import proofs.«132875_j15685220565562_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The three-layer classifier, index by index. -/
def G (a0 : S300000x128.Idx → EReal) (a1 : S300000x16.Idx → EReal) (a2 : S16x128.Idx → EReal) (a3 : S1x128.Idx → EReal)
    (a4 : S128x64.Idx → EReal) (a5 : S1x64.Idx → EReal) (a6 : S64x2.Idx → EReal) (a7 : S1x2.Idx → EReal) : S300000x2.Idx → EReal :=
  fun i => (∑ k2 : Fin 64,
      max ((∑ k1 : Fin 128,
          max (((∑ k0 : Fin 16, a1 (ix2 (i 0) k0) * a2 (ix2 k0 k1)) + a0 (ix2 (i 0) k1)) + a3 (ix2 (0 : Fin 1) k1)) (Ideal.ofBits .f32 0x00000000#32)
            * a4 (ix2 k1 k2)) + a5 (ix2 (0 : Fin 1) k2)) (Ideal.ofBits .f32 0x00000000#32)
        * a6 (ix2 k2 (i 1))) + a7 (ix2 (0 : Fin 1) (i 1))

/-- The body's value at row p, column q of its block. -/
theorem pay_apply (x0 : Vec Ideal S3000x128 .f32) (x1 : Vec Ideal S3000x16 .f32) (x2 : Vec Ideal S16x128 .f32)
    (x3 : Vec Ideal S1x128 .f32) (x4 : Vec Ideal S128x64 .f32) (x5 : Vec Ideal S1x64 .f32) (x6 : Vec Ideal S64x2 .f32)
    (x7 : Vec Ideal S1x2 .f32) (p : Fin 3000) (q : Fin 2) :
    k5_pay1 (F := Ideal) x0 x1 x2 x3 x4 x5 x6 x7 (ix2 p q)
      = (∑ k2 : Fin 64,
          max ((∑ k1 : Fin 128,
              max (((∑ k0 : Fin 16, x1 (ix2 p k0) * x2 (ix2 k0 k1)) + x0 (ix2 p k1)) + x3 (ix2 (0 : Fin 1) k1)) (Ideal.ofBits .f32 0x00000000#32)
                * x4 (ix2 k1 k2)) + x5 (ix2 (0 : Fin 1) k2)) (Ideal.ofBits .f32 0x00000000#32)
            * x6 (ix2 k2 q)) + x7 (ix2 (0 : Fin 1) q) := by
  unfold k5_pay1
  simp only [addf_apply, shapeCast_self]
  rw [broadcastTo_1b_ab_apply]
  refine congrArg₂ (· + ·) ?_ rfl
  refine (Cert.Lib.matmul_zero_apply dot_S3000x64_S64x2_S3000x2_1_0_0_1_n_n.wf none _ _ p q).trans ?_
  refine Finset.sum_congr rfl fun k2 _ => congrArg₂ (· * ·) ?_ rfl
  simp only [truncf_apply, maximumf_apply, addf_apply, broadcast_apply]
  rw [broadcastTo_1b_ab_apply]
  refine congrArg₂ max (congrArg₂ (· + ·) ?_ rfl) rfl
  refine (Cert.Lib.matmul_zero_apply dot_S3000x128_S128x64_S3000x64_1_0_0_1_n_n.wf none _ _ p k2).trans ?_
  refine Finset.sum_congr rfl fun k1 _ => congrArg₂ (· * ·) ?_ rfl
  simp only [truncf_apply, maximumf_apply, addf_apply, broadcast_apply]
  rw [broadcastTo_1b_ab_apply]
  refine congrArg₂ max (congrArg₂ (· + ·) (congrArg₂ (· + ·) ?_ rfl) rfl) rfl
  exact Cert.Lib.matmul_zero_apply dot_S3000x16_S16x128_S3000x128_1_0_0_1_n_n.wf none _ _ p k1

/-! ## From blocks to the array -/

theorem hz : (![0, 0] : Fin 2 → Nat) = fun _ => 0 := funext fun a => by fin_cases a <;> rfl

/-- The printed index maps over the grid: the row-blocked windows sit at block row t, the whole ones at the origin. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

variable (V : (c : Dev nD) → (b : Ref sig .tc) → Buf (Elt Ideal) ((c : Thread nD τ).loc b))

set_option maxHeartbeats 2000000 in
/-- What point t writes back is block t of `G` of the arrays the region finds. -/
theorem flushed_eq (c : Dev nD) (t : Fin cfg5.N) :
    (dat5 (F := Ideal) V c).flushed 8 t = ((cfg5.win 8).blk t).view.read (Elt Ideal)
      (G (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (V c (Pipeline.arrRef spec5 6)) (V c (Pipeline.arrRef spec5 7))) := by
  show (cfg5.win 8).cut (grid5.coords t) ((dat5 V c).after 8 t) = _
  rw [after5_8]
  unfold out5_8
  rw [View.canon_unit_zero hz]
  simp only [View.ld_unit_zero (S := S3000x128) hz, View.ld_unit_zero (S := S3000x16) hz, View.ld_unit_zero (S := S16x128) hz,
    View.ld_unit_zero (S := S1x128) hz, View.ld_unit_zero (S := S128x64) hz, View.ld_unit_zero (S := S1x64) hz,
    View.ld_unit_zero (S := S64x2) hz, View.ld_unit_zero (S := S1x2) hz]
  obtain ⟨e0, e1, e2, e3, e4, e5, e6, e7, e8, e9, e10, e11, e12, e13, e14, e15, e16, e17⟩ := idx_facts t
  funext j
  obtain ⟨p, q, rfl⟩ : ∃ (p : Fin 3000) (q : Fin 2), j = ix2 p q := ⟨j 0, j 1, eq_ix2 j⟩
  refine (pay_apply (iblk5 V c 0 t) (iblk5 V c 1 t) (iblk5 V c 2 t) (iblk5 V c 3 t) (iblk5 V c 4 t) (iblk5 V c 5 t)
    (iblk5 V c 6 t) (iblk5 V c 7 t) p q).trans ?_
  have e_0 : ∀ k1 : Fin 128, iblk5 V c 0 t (ix2 p k1)
      = V c (Pipeline.arrRef spec5 0) (ix2 ((((cfg5.win 8).blk t).view.emb (ix2 p q)) 0) k1) := fun k1 => by
    show V c (Pipeline.arrRef spec5 0) (((cfg5.win 0).blk t).view.emb (ix2 p k1)) = _
    refine congrArg (V c (Pipeline.arrRef spec5 0)) (funext fun a => Fin.ext ?_)
    match a with
    | ⟨0, _⟩ => show win5_0.index t (0 : Fin 2) * 3000 + 1 * p.val = win5_8.index t (0 : Fin 2) * 3000 + 1 * p.val; omega
    | ⟨1, _⟩ => show win5_0.index t (1 : Fin 2) * 128 + 1 * k1.val = k1.val; omega
  have e_1 : ∀ k0 : Fin 16, iblk5 V c 1 t (ix2 p k0)
      = V c (Pipeline.arrRef spec5 1) (ix2 ((((cfg5.win 8).blk t).view.emb (ix2 p q)) 0) k0) := fun k0 => by
    show V c (Pipeline.arrRef spec5 1) (((cfg5.win 1).blk t).view.emb (ix2 p k0)) = _
    refine congrArg (V c (Pipeline.arrRef spec5 1)) (funext fun a => Fin.ext ?_)
    match a with
    | ⟨0, _⟩ => show win5_1.index t (0 : Fin 2) * 3000 + 1 * p.val = win5_8.index t (0 : Fin 2) * 3000 + 1 * p.val; omega
    | ⟨1, _⟩ => show win5_1.index t (1 : Fin 2) * 16 + 1 * k0.val = k0.val; omega
  have e_2 : ∀ (k0 : Fin 16) (k1 : Fin 128), iblk5 V c 2 t (ix2 k0 k1)
      = V c (Pipeline.arrRef spec5 2) (ix2 k0 k1) := fun k0 k1 => by
    show V c (Pipeline.arrRef spec5 2) (((cfg5.win 2).blk t).view.emb (ix2 k0 k1)) = _
    refine congrArg (V c (Pipeline.arrRef spec5 2)) (funext fun a => Fin.ext ?_)
    match a with
    | ⟨0, _⟩ => show win5_2.index t (0 : Fin 2) * 16 + 1 * k0.val = k0.val; omega
    | ⟨1, _⟩ => show win5_2.index t (1 : Fin 2) * 128 + 1 * k1.val = k1.val; omega
  have e_3 : ∀ k1 : Fin 128, iblk5 V c 3 t (ix2 (0 : Fin 1) k1)
      = V c (Pipeline.arrRef spec5 3) (ix2 (0 : Fin 1) k1) := fun k1 => by
    show V c (Pipeline.arrRef spec5 3) (((cfg5.win 3).blk t).view.emb (ix2 (0 : Fin 1) k1)) = _
    refine congrArg (V c (Pipeline.arrRef spec5 3)) (funext fun a => Fin.ext ?_)
    match a with
    | ⟨0, _⟩ => show win5_3.index t (0 : Fin 2) * 1 + 1 * 0 = 0; omega
    | ⟨1, _⟩ => show win5_3.index t (1 : Fin 2) * 128 + 1 * k1.val = k1.val; omega
  have e_4 : ∀ (k1 : Fin 128) (k2 : Fin 64), iblk5 V c 4 t (ix2 k1 k2)
      = V c (Pipeline.arrRef spec5 4) (ix2 k1 k2) := fun k1 k2 => by
    show V c (Pipeline.arrRef spec5 4) (((cfg5.win 4).blk t).view.emb (ix2 k1 k2)) = _
    refine congrArg (V c (Pipeline.arrRef spec5 4)) (funext fun a => Fin.ext ?_)
    match a with
    | ⟨0, _⟩ => show win5_4.index t (0 : Fin 2) * 128 + 1 * k1.val = k1.val; omega
    | ⟨1, _⟩ => show win5_4.index t (1 : Fin 2) * 64 + 1 * k2.val = k2.val; omega
  have e_5 : ∀ k2 : Fin 64, iblk5 V c 5 t (ix2 (0 : Fin 1) k2)
      = V c (Pipeline.arrRef spec5 5) (ix2 (0 : Fin 1) k2) := fun k2 => by
    show V c (Pipeline.arrRef spec5 5) (((cfg5.win 5).blk t).view.emb (ix2 (0 : Fin 1) k2)) = _
    refine congrArg (V c (Pipeline.arrRef spec5 5)) (funext fun a => Fin.ext ?_)
    match a with
    | ⟨0, _⟩ => show win5_5.index t (0 : Fin 2) * 1 + 1 * 0 = 0; omega
    | ⟨1, _⟩ => show win5_5.index t (1 : Fin 2) * 64 + 1 * k2.val = k2.val; omega
  have e_6 : ∀ k2 : Fin 64, iblk5 V c 6 t (ix2 k2 q)
      = V c (Pipeline.arrRef spec5 6) (ix2 k2 ((((cfg5.win 8).blk t).view.emb (ix2 p q)) 1)) := fun k2 => by
    show V c (Pipeline.arrRef spec5 6) (((cfg5.win 6).blk t).view.emb (ix2 k2 q)) = _
    refine congrArg (V c (Pipeline.arrRef spec5 6)) (funext fun a => Fin.ext ?_)
    match a with
    | ⟨0, _⟩ => show win5_6.index t (0 : Fin 2) * 64 + 1 * k2.val = k2.val; omega
    | ⟨1, _⟩ => show win5_6.index t (1 : Fin 2) * 2 + 1 * q.val = win5_8.index t (1 : Fin 2) * 2 + 1 * q.val; omega
  have e_7 : iblk5 V c 7 t (ix2 (0 : Fin 1) q)
      = V c (Pipeline.arrRef spec5 7) (ix2 (0 : Fin 1) ((((cfg5.win 8).blk t).view.emb (ix2 p q)) 1)) := by
    show V c (Pipeline.arrRef spec5 7) (((cfg5.win 7).blk t).view.emb (ix2 (0 : Fin 1) q)) = _
    refine congrArg (V c (Pipeline.arrRef spec5 7)) (funext fun a => Fin.ext ?_)
    match a with
    | ⟨0, _⟩ => show win5_7.index t (0 : Fin 2) * 1 + 1 * 0 = 0; omega
    | ⟨1, _⟩ => show win5_7.index t (1 : Fin 2) * 2 + 1 * q.val = win5_8.index t (1 : Fin 2) * 2 + 1 * q.val; omega
  show _ = G _ _ _ _ _ _ _ _ (((cfg5.win 8).blk t).view.emb (ix2 p q))
  unfold G
  simp only [e_0, e_1, e_2, e_3, e_4, e_5, e_6, e_7]

/-- An index of the array is in point t's block iff each coordinate is in the block's range on its axis. -/
theorem mem_blk (t : Fin cfg5.N) (i : S300000x2.Idx) :
    i ∈ ((cfg5.win 8).blk t).view.set ↔ ∀ a : Fin 2, win5_8.index t a * S3000x2.size a ≤ (i a).val
      ∧ (i a).val < win5_8.index t a * S3000x2.size a + S3000x2.size a := by
  show i ∈ ((View.whole main_v103).slice (win5_8.rect t)).set ↔ _
  rw [View.set_slice_whole, Rect.mem_set_unit]
  exact Iff.rfl

/-- Row r lies in the block of point r / 3000. -/
theorem cover (i : S300000x2.Idx) : ∃ t : Fin cfg5.N, (cfg5.win 8).flush t = true ∧ i ∈ ((cfg5.win 8).blk t).view.set := by
  have hi0 : (i 0).val < 300000 := (i 0).isLt
  have hi1 : (i 1).val < 2 := (i 1).isLt
  have ht : (i 0).val / 3000 < 100 := by omega
  refine ⟨⟨(i 0).val / 3000, ht⟩, flush5_8 _, ?_⟩
  rw [mem_blk]
  obtain ⟨-, -, -, -, -, -, -, -, -, -, -, -, -, -, -, -, e16, e17⟩ := idx_facts ⟨(i 0).val / 3000, ht⟩
  intro a
  match a with
  | ⟨0, _⟩ =>
    show win5_8.index ⟨(i 0).val / 3000, ht⟩ (0 : Fin 2) * 3000 ≤ (i 0).val
      ∧ (i 0).val < win5_8.index ⟨(i 0).val / 3000, ht⟩ (0 : Fin 2) * 3000 + 3000
    rw [e16]; show (i 0).val / 3000 * 3000 ≤ (i 0).val ∧ (i 0).val < (i 0).val / 3000 * 3000 + 3000; omega
  | ⟨1, _⟩ =>
    show win5_8.index ⟨(i 0).val / 3000, ht⟩ (1 : Fin 2) * 2 ≤ (i 1).val
      ∧ (i 1).val < win5_8.index ⟨(i 0).val / 3000, ht⟩ (1 : Fin 2) * 2 + 2
    rw [e17]; omega

/-- The output array after the region. -/
theorem final (c : Dev nD) : (dat5 (F := Ideal) V c).arrAt 8 cfg5.N
    = G (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (V c (Pipeline.arrRef spec5 6)) (V c (Pipeline.arrRef spec5 7)) :=
  (dat5 V c).arrAt_eq_of_cover 8 _ (fun t _ => flushed_eq V c t) cover

end Cert.KernelIdeal.Region5

end
-- ==== Proof.KernelHost.lean ====
/- What every region of @main finds in its input arrays, and what the result buffer holds: each in terms of the
   launch memory at the arguments, the earlier regions' output arrays, and the host operations between the regions,
   spelled with the operations the program is printed with. -/
import proofs.«132875_j15685220565562_2_alg».proof.Proof.Gen.KernelIdeal.Frame
import Idealize.ShloMosaic.Lib.StableHlo.Run
import Idealize.ShloMosaic.PureOps.Ideal

set_option maxRecDepth 16384

noncomputable section

namespace Cert.KernelIdeal.KHost

open Idealize.ShloMosaic Idealize.ShloMosaic.TcCoe Idealize.ShloMosaic.Tactic
open Idealize.SL Idealize.SL.RA Idealize.SL.BI
open Idealize.SL.Sem
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)
open Cert.KernelIdeal.Gen

variable (m : (ℓ : Loc nD τ sig) → Buf (Elt Ideal) ℓ) (ρ : Dev nD → PrngReg)

/-! ## The host terms of @main, as functions of the arrays they read

The host operations between the regions compute, from the edge list `ei` (argument 1, two rows of 300000 node
indices) and the regions' output arrays, the arrays the next region reads. Each term below is spelled with the
operations the program is printed with, so that a buffer's contents at a region's entry is one of them by
computation. -/

/-- The contents of a host array of shape `S` and element type `e`, at the idealized floats. -/
abbrev C (S : Shape) (e : EltTy) : Type := (⟨S, e⟩ : BufTy).Contents (Elt Ideal)

/-- A reshape: the same elements, in row-major order, at the shape `T`. -/
def rsh {S : Shape} {e : EltTy} (T : Shape) (x : C S e) (h : S.ShapeCasts T) : C T e := fun i => shapeCast T x h i
/-- A reshape read at an index. -/
theorem rsh_apply {S : Shape} {e : EltTy} (T : Shape) (x : C S e) (h : S.ShapeCasts T) (i : (⟨T, e⟩ : BufTy).Idx) :
    rsh T x h i = shapeCast T x h i := rfl

/-- Row 0 of the edge list: each edge's source node. -/
def src (ei : C S2x300000 .i32) : C S300000 .i32 :=
  rsh S300000 (extractStridedSlice S1x300000 ![0, 0] ei slices_S2x300000_S1x300000_0_0) shapeCasts_S1x300000_S300000
/-- Row 1 of the edge list: each edge's destination node. -/
def dst (ei : C S2x300000 .i32) : C S300000 .i32 :=
  rsh S300000 (extractStridedSlice S1x300000 ![1, 0] ei slices_S2x300000_S1x300000_1_0) shapeCasts_S1x300000_S300000
/-- A node index counted from the end when negative: `x + 50000` where `x < 0`, else `x`. -/
def wrap (x : C S300000 .i32) : C S300000 .i32 :=
  select (cmpi .slt x (broadcastInDim S300000 ![] bcast_S_S300000 (constantI S_ 32 0#32)))
    (addi x (broadcastInDim S300000 ![] bcast_S_S300000 (constantI S_ 32 50000#32))) x
/-- The sources, wrapped: the indices every gather by source reads at. -/
def srcN (ei : C S2x300000 .i32) : C S300000 .i32 := wrap (src ei)
/-- The destinations, wrapped: the indices every gather by destination reads at. -/
def dstN (ei : C S2x300000 .i32) : C S300000 .i32 := wrap (dst ei)
/-- A vector of 300000 entries as a column: the index operand of a gather or scatter, or a per-edge factor. -/
def col {e : EltTy} (x : C S300000 e) : C S300000x1 e := broadcastInDim S300000x1 ![0] bcast_S300000_S300000x1_0 x
/-- Each node's degree plus one: one, plus the sum over the edges into it of one. -/
def deg (ei : C S2x300000 .i32) : C S50000 .f32 :=
  addf (F := Ideal) (φ := .f32) (broadcastInDim S50000 ![] bcast_S_S50000 (constant (F := Ideal) S_ .f32 0x3F800000#32))
    (Host.scatterAdd scatter_S50000_S300000x1_S300000_n_0_0_1
      (broadcastInDim S50000 ![] bcast_S_S50000 (constant (F := Ideal) S_ .f32 0x00000000#32))
      (col (dst ei))
      (broadcastInDim S300000 ![] bcast_S_S300000 (constant (F := Ideal) S_ .f32 0x3F800000#32)))
/-- The reciprocal square root of `deg`. -/
def dinv (ei : C S2x300000 .i32) : C S50000 .f32 := Host.rsqrt (F := Ideal) (φ := .f32) (deg ei)
/-- Each edge's weight: `dinv` at its source times `dinv` at its destination. -/
def normE (ei : C S2x300000 .i32) : C S300000 .f32 :=
  mulf (F := Ideal) (φ := .f32) (Host.gather gather_S50000_S300000x1_S300000_n_0_n_n_0_1_1 (dinv ei) (col (srcN ei)))
    (Host.gather gather_S50000_S300000x1_S300000_n_0_n_n_0_1_1 (dinv ei) (col (dstN ei)))
/-- One over `deg`, as a column. -/
def invDegCol (ei : C S2x300000 .i32) : C S50000x1 .f32 :=
  rsh S50000x1 (Host.divf (F := Ideal) (φ := .f32) (broadcastInDim S50000 ![] bcast_S_S50000 (constant (F := Ideal) S_ .f32 0x3F800000#32)) (deg ei))
    shapeCasts_S50000_S50000x1
/-- The weighted aggregation of node features `h` over the edges: into each edge's destination row, the sum of
    `h`'s row at the edge's source, widened, times the edge's weight. -/
def agg (h : C S50000x256 .bf16) (ei : C S2x300000 .i32) : C S50000x256 .f32 :=
  Host.scatterAdd scatter_S50000x256_S300000x1_S300000x256_1_0_0_1
    (broadcastInDim S50000x256 ![] bcast_S_S50000x256 (constant (F := Ideal) S_ .f32 0x00000000#32))
    (col (dst ei))
    (mulf (F := Ideal) (φ := .f32) (extf (F := Ideal) (φ := .bf16) .f32 (Host.gather gather_S50000x256_S300000x1_S300000x256_1_0_n_n_0_1_1256 h (col (srcN ei))) bitsLt_bf16_f32)
      (broadcastInDim S300000x256 ![0, 1] bcast_S300000x1_S300000x256_0_1 (col (normE ei))))
/-- Per edge, the source's row of `xs` plus the destination's row of `xd`, both widened. -/
def esum (xs xd : C S50000x128 .bf16) (ei : C S2x300000 .i32) : C S300000x128 .f32 :=
  addf (F := Ideal) (φ := .f32) (extf (F := Ideal) (φ := .bf16) .f32 (Host.gather gather_S50000x128_S300000x1_S300000x128_1_0_n_n_0_1_1128 xs (col (srcN ei))) bitsLt_bf16_f32)
    (extf (F := Ideal) (φ := .bf16) .f32 (Host.gather gather_S50000x128_S300000x1_S300000x128_1_0_n_n_0_1_1128 xd (col (dstN ei))) bitsLt_bf16_f32)

/-! ## The buffers at each boundary of the run

The run's boundary contents `W0 … W12` fold the launch memory through the host stretches (`StableHlo.after`) and the
regions (each region's arrays at what its write-backs leave, the rest as entered). A buffer is followed from the
operation that writes it to the boundary where it is read. -/

/-! ### The arguments, as launched, at the boundaries where they are read: no host operation writes one and no region's output window is one -/

theorem W0_arg0 (c : Dev nD) : W0 (F := Ideal) m ρ c (Proc.devRef .tc main_arg0) = m ((c : Thread nD τ).loc main_arg0) := rfl
theorem W1_arg0 (c : Dev nD) : W1 (F := Ideal) m ρ c (Proc.devRef .tc main_arg0) = m ((c : Thread nD τ).loc main_arg0) :=
  (StableHlo.after_of_forall_not_mem (b := Proc.devRef .tc main_arg0) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg0 m ρ c)
theorem W0_arg3 (c : Dev nD) : W0 (F := Ideal) m ρ c (Proc.devRef .tc main_arg3) = m ((c : Thread nD τ).loc main_arg3) := rfl
theorem W1_arg3 (c : Dev nD) : W1 (F := Ideal) m ρ c (Proc.devRef .tc main_arg3) = m ((c : Thread nD τ).loc main_arg3) :=
  (StableHlo.after_of_forall_not_mem (b := Proc.devRef .tc main_arg3) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg3 m ρ c)
theorem W0_arg5 (c : Dev nD) : W0 (F := Ideal) m ρ c (Proc.devRef .tc main_arg5) = m ((c : Thread nD τ).loc main_arg5) := rfl
theorem W1_arg5 (c : Dev nD) : W1 (F := Ideal) m ρ c (Proc.devRef .tc main_arg5) = m ((c : Thread nD τ).loc main_arg5) :=
  (StableHlo.after_of_forall_not_mem (b := Proc.devRef .tc main_arg5) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg5 m ρ c)
theorem W2_arg5 (c : Dev nD) : W2 (F := Ideal) m ρ c (Proc.devRef .tc main_arg5) = m ((c : Thread nD τ).loc main_arg5) :=
  (W2_of_ne m ρ c main_arg5 (by decide)).trans (W1_arg5 m ρ c)
theorem W3_arg5 (c : Dev nD) : W3 (F := Ideal) m ρ c (Proc.devRef .tc main_arg5) = m ((c : Thread nD τ).loc main_arg5) :=
  (StableHlo.after_of_forall_not_mem (b := Proc.devRef .tc main_arg5) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg5 m ρ c)
theorem W0_arg6 (c : Dev nD) : W0 (F := Ideal) m ρ c (Proc.devRef .tc main_arg6) = m ((c : Thread nD τ).loc main_arg6) := rfl
theorem W1_arg6 (c : Dev nD) : W1 (F := Ideal) m ρ c (Proc.devRef .tc main_arg6) = m ((c : Thread nD τ).loc main_arg6) :=
  (StableHlo.after_of_forall_not_mem (b := Proc.devRef .tc main_arg6) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg6 m ρ c)
theorem W2_arg6 (c : Dev nD) : W2 (F := Ideal) m ρ c (Proc.devRef .tc main_arg6) = m ((c : Thread nD τ).loc main_arg6) :=
  (W2_of_ne m ρ c main_arg6 (by decide)).trans (W1_arg6 m ρ c)
theorem W0_arg7 (c : Dev nD) : W0 (F := Ideal) m ρ c (Proc.devRef .tc main_arg7) = m ((c : Thread nD τ).loc main_arg7) := rfl
theorem W1_arg7 (c : Dev nD) : W1 (F := Ideal) m ρ c (Proc.devRef .tc main_arg7) = m ((c : Thread nD τ).loc main_arg7) :=
  (StableHlo.after_of_forall_not_mem (b := Proc.devRef .tc main_arg7) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg7 m ρ c)
theorem W2_arg7 (c : Dev nD) : W2 (F := Ideal) m ρ c (Proc.devRef .tc main_arg7) = m ((c : Thread nD τ).loc main_arg7) :=
  (W2_of_ne m ρ c main_arg7 (by decide)).trans (W1_arg7 m ρ c)
theorem W3_arg7 (c : Dev nD) : W3 (F := Ideal) m ρ c (Proc.devRef .tc main_arg7) = m ((c : Thread nD τ).loc main_arg7) :=
  (StableHlo.after_of_forall_not_mem (b := Proc.devRef .tc main_arg7) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg7 m ρ c)
theorem W4_arg7 (c : Dev nD) : W4 (F := Ideal) m ρ c (Proc.devRef .tc main_arg7) = m ((c : Thread nD τ).loc main_arg7) :=
  (W4_of_ne m ρ c main_arg7 (by decide)).trans (W3_arg7 m ρ c)
theorem W5_arg7 (c : Dev nD) : W5 (F := Ideal) m ρ c (Proc.devRef .tc main_arg7) = m ((c : Thread nD τ).loc main_arg7) :=
  (StableHlo.after_of_forall_not_mem (b := Proc.devRef .tc main_arg7) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg7 m ρ c)
theorem W0_arg8 (c : Dev nD) : W0 (F := Ideal) m ρ c (Proc.devRef .tc main_arg8) = m ((c : Thread nD τ).loc main_arg8) := rfl
theorem W1_arg8 (c : Dev nD) : W1 (F := Ideal) m ρ c (Proc.devRef .tc main_arg8) = m ((c : Thread nD τ).loc main_arg8) :=
  (StableHlo.after_of_forall_not_mem (b := Proc.devRef .tc main_arg8) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg8 m ρ c)
theorem W2_arg8 (c : Dev nD) : W2 (F := Ideal) m ρ c (Proc.devRef .tc main_arg8) = m ((c : Thread nD τ).loc main_arg8) :=
  (W2_of_ne m ρ c main_arg8 (by decide)).trans (W1_arg8 m ρ c)
theorem W3_arg8 (c : Dev nD) : W3 (F := Ideal) m ρ c (Proc.devRef .tc main_arg8) = m ((c : Thread nD τ).loc main_arg8) :=
  (StableHlo.after_of_forall_not_mem (b := Proc.devRef .tc main_arg8) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg8 m ρ c)
theorem W4_arg8 (c : Dev nD) : W4 (F := Ideal) m ρ c (Proc.devRef .tc main_arg8) = m ((c : Thread nD τ).loc main_arg8) :=
  (W4_of_ne m ρ c main_arg8 (by decide)).trans (W3_arg8 m ρ c)
theorem W0_arg9 (c : Dev nD) : W0 (F := Ideal) m ρ c (Proc.devRef .tc main_arg9) = m ((c : Thread nD τ).loc main_arg9) := rfl
theorem W1_arg9 (c : Dev nD) : W1 (F := Ideal) m ρ c (Proc.devRef .tc main_arg9) = m ((c : Thread nD τ).loc main_arg9) :=
  (StableHlo.after_of_forall_not_mem (b := Proc.devRef .tc main_arg9) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg9 m ρ c)
theorem W2_arg9 (c : Dev nD) : W2 (F := Ideal) m ρ c (Proc.devRef .tc main_arg9) = m ((c : Thread nD τ).loc main_arg9) :=
  (W2_of_ne m ρ c main_arg9 (by decide)).trans (W1_arg9 m ρ c)
theorem W3_arg9 (c : Dev nD) : W3 (F := Ideal) m ρ c (Proc.devRef .tc main_arg9) = m ((c : Thread nD τ).loc main_arg9) :=
  (StableHlo.after_of_forall_not_mem (b := Proc.devRef .tc main_arg9) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg9 m ρ c)
theorem W4_arg9 (c : Dev nD) : W4 (F := Ideal) m ρ c (Proc.devRef .tc main_arg9) = m ((c : Thread nD τ).loc main_arg9) :=
  (W4_of_ne m ρ c main_arg9 (by decide)).trans (W3_arg9 m ρ c)
theorem W5_arg9 (c : Dev nD) : W5 (F := Ideal) m ρ c (Proc.devRef .tc main_arg9) = m ((c : Thread nD τ).loc main_arg9) :=
  (StableHlo.after_of_forall_not_mem (b := Proc.devRef .tc main_arg9) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg9 m ρ c)
theorem W6_arg9 (c : Dev nD) : W6 (F := Ideal) m ρ c (Proc.devRef .tc main_arg9) = m ((c : Thread nD τ).loc main_arg9) :=
  (W6_of_ne m ρ c main_arg9 (by decide)).trans (W5_arg9 m ρ c)
theorem W7_arg9 (c : Dev nD) : W7 (F := Ideal) m ρ c (Proc.devRef .tc main_arg9) = m ((c : Thread nD τ).loc main_arg9) :=
  (StableHlo.after_of_forall_not_mem (b := Proc.devRef .tc main_arg9) hostOps3 (W6 m ρ c) (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg9 m ρ c)
theorem W0_arg10 (c : Dev nD) : W0 (F := Ideal) m ρ c (Proc.devRef .tc main_arg10) = m ((c : Thread nD τ).loc main_arg10) := rfl
theorem W1_arg10 (c : Dev nD) : W1 (F := Ideal) m ρ c (Proc.devRef .tc main_arg10) = m ((c : Thread nD τ).loc main_arg10) :=
  (StableHlo.after_of_forall_not_mem (b := Proc.devRef .tc main_arg10) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg10 m ρ c)
theorem W2_arg10 (c : Dev nD) : W2 (F := Ideal) m ρ c (Proc.devRef .tc main_arg10) = m ((c : Thread nD τ).loc main_arg10) :=
  (W2_of_ne m ρ c main_arg10 (by decide)).trans (W1_arg10 m ρ c)
theorem W3_arg10 (c : Dev nD) : W3 (F := Ideal) m ρ c (Proc.devRef .tc main_arg10) = m ((c : Thread nD τ).loc main_arg10) :=
  (StableHlo.after_of_forall_not_mem (b := Proc.devRef .tc main_arg10) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg10 m ρ c)
theorem W4_arg10 (c : Dev nD) : W4 (F := Ideal) m ρ c (Proc.devRef .tc main_arg10) = m ((c : Thread nD τ).loc main_arg10) :=
  (W4_of_ne m ρ c main_arg10 (by decide)).trans (W3_arg10 m ρ c)
theorem W5_arg10 (c : Dev nD) : W5 (F := Ideal) m ρ c (Proc.devRef .tc main_arg10) = m ((c : Thread nD τ).loc main_arg10) :=
  (StableHlo.after_of_forall_not_mem (b := Proc.devRef .tc main_arg10) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg10 m ρ c)
theorem W6_arg10 (c : Dev nD) : W6 (F := Ideal) m ρ c (Proc.devRef .tc main_arg10) = m ((c : Thread nD τ).loc main_arg10) :=
  (W6_of_ne m ρ c main_arg10 (by decide)).trans (W5_arg10 m ρ c)
theorem W0_arg11 (c : Dev nD) : W0 (F := Ideal) m ρ c (Proc.devRef .tc main_arg11) = m ((c : Thread nD τ).loc main_arg11) := rfl
theorem W1_arg11 (c : Dev nD) : W1 (F := Ideal) m ρ c (Proc.devRef .tc main_arg11) = m ((c : Thread nD τ).loc main_arg11) :=
  (StableHlo.after_of_forall_not_mem (b := Proc.devRef .tc main_arg11) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg11 m ρ c)
theorem W2_arg11 (c : Dev nD) : W2 (F := Ideal) m ρ c (Proc.devRef .tc main_arg11) = m ((c : Thread nD τ).loc main_arg11) :=
  (W2_of_ne m ρ c main_arg11 (by decide)).trans (W1_arg11 m ρ c)
theorem W3_arg11 (c : Dev nD) : W3 (F := Ideal) m ρ c (Proc.devRef .tc main_arg11) = m ((c : Thread nD τ).loc main_arg11) :=
  (StableHlo.after_of_forall_not_mem (b := Proc.devRef .tc main_arg11) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg11 m ρ c)
theorem W4_arg11 (c : Dev nD) : W4 (F := Ideal) m ρ c (Proc.devRef .tc main_arg11) = m ((c : Thread nD τ).loc main_arg11) :=
  (W4_of_ne m ρ c main_arg11 (by decide)).trans (W3_arg11 m ρ c)
theorem W5_arg11 (c : Dev nD) : W5 (F := Ideal) m ρ c (Proc.devRef .tc main_arg11) = m ((c : Thread nD τ).loc main_arg11) :=
  (StableHlo.after_of_forall_not_mem (b := Proc.devRef .tc main_arg11) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg11 m ρ c)
theorem W6_arg11 (c : Dev nD) : W6 (F := Ideal) m ρ c (Proc.devRef .tc main_arg11) = m ((c : Thread nD τ).loc main_arg11) :=
  (W6_of_ne m ρ c main_arg11 (by decide)).trans (W5_arg11 m ρ c)
theorem W7_arg11 (c : Dev nD) : W7 (F := Ideal) m ρ c (Proc.devRef .tc main_arg11) = m ((c : Thread nD τ).loc main_arg11) :=
  (StableHlo.after_of_forall_not_mem (b := Proc.devRef .tc main_arg11) hostOps3 (W6 m ρ c) (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg11 m ρ c)
theorem W8_arg11 (c : Dev nD) : W8 (F := Ideal) m ρ c (Proc.devRef .tc main_arg11) = m ((c : Thread nD τ).loc main_arg11) :=
  (W8_of_ne m ρ c main_arg11 (by decide)).trans (W7_arg11 m ρ c)
theorem W0_arg2 (c : Dev nD) : W0 (F := Ideal) m ρ c (Proc.devRef .tc main_arg2) = m ((c : Thread nD τ).loc main_arg2) := rfl
theorem W1_arg2 (c : Dev nD) : W1 (F := Ideal) m ρ c (Proc.devRef .tc main_arg2) = m ((c : Thread nD τ).loc main_arg2) :=
  (StableHlo.after_of_forall_not_mem (b := Proc.devRef .tc main_arg2) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg2 m ρ c)
theorem W2_arg2 (c : Dev nD) : W2 (F := Ideal) m ρ c (Proc.devRef .tc main_arg2) = m ((c : Thread nD τ).loc main_arg2) :=
  (W2_of_ne m ρ c main_arg2 (by decide)).trans (W1_arg2 m ρ c)
theorem W3_arg2 (c : Dev nD) : W3 (F := Ideal) m ρ c (Proc.devRef .tc main_arg2) = m ((c : Thread nD τ).loc main_arg2) :=
  (StableHlo.after_of_forall_not_mem (b := Proc.devRef .tc main_arg2) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg2 m ρ c)
theorem W4_arg2 (c : Dev nD) : W4 (F := Ideal) m ρ c (Proc.devRef .tc main_arg2) = m ((c : Thread nD τ).loc main_arg2) :=
  (W4_of_ne m ρ c main_arg2 (by decide)).trans (W3_arg2 m ρ c)
theorem W5_arg2 (c : Dev nD) : W5 (F := Ideal) m ρ c (Proc.devRef .tc main_arg2) = m ((c : Thread nD τ).loc main_arg2) :=
  (StableHlo.after_of_forall_not_mem (b := Proc.devRef .tc main_arg2) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg2 m ρ c)
theorem W6_arg2 (c : Dev nD) : W6 (F := Ideal) m ρ c (Proc.devRef .tc main_arg2) = m ((c : Thread nD τ).loc main_arg2) :=
  (W6_of_ne m ρ c main_arg2 (by decide)).trans (W5_arg2 m ρ c)
theorem W7_arg2 (c : Dev nD) : W7 (F := Ideal) m ρ c (Proc.devRef .tc main_arg2) = m ((c : Thread nD τ).loc main_arg2) :=
  (StableHlo.after_of_forall_not_mem (b := Proc.devRef .tc main_arg2) hostOps3 (W6 m ρ c) (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg2 m ρ c)
theorem W8_arg2 (c : Dev nD) : W8 (F := Ideal) m ρ c (Proc.devRef .tc main_arg2) = m ((c : Thread nD τ).loc main_arg2) :=
  (W8_of_ne m ρ c main_arg2 (by decide)).trans (W7_arg2 m ρ c)
theorem W9_arg2 (c : Dev nD) : W9 (F := Ideal) m ρ c (Proc.devRef .tc main_arg2) = m ((c : Thread nD τ).loc main_arg2) :=
  (StableHlo.after_of_forall_not_mem (b := Proc.devRef .tc main_arg2) hostOps4 (W8 m ρ c) (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_arg2 m ρ c)
theorem W10_arg2 (c : Dev nD) : W10 (F := Ideal) m ρ c (Proc.devRef .tc main_arg2) = m ((c : Thread nD τ).loc main_arg2) :=
  (W10_of_ne m ρ c main_arg2 (by decide)).trans (W9_arg2 m ρ c)
theorem W11_arg2 (c : Dev nD) : W11 (F := Ideal) m ρ c (Proc.devRef .tc main_arg2) = m ((c : Thread nD τ).loc main_arg2) :=
  (StableHlo.after_of_forall_not_mem (b := Proc.devRef .tc main_arg2) hostOps5 (W10 m ρ c) (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W10_arg2 m ρ c)
theorem W0_arg13 (c : Dev nD) : W0 (F := Ideal) m ρ c (Proc.devRef .tc main_arg13) = m ((c : Thread nD τ).loc main_arg13) := rfl
theorem W1_arg13 (c : Dev nD) : W1 (F := Ideal) m ρ c (Proc.devRef .tc main_arg13) = m ((c : Thread nD τ).loc main_arg13) :=
  (StableHlo.after_of_forall_not_mem (b := Proc.devRef .tc main_arg13) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg13 m ρ c)
theorem W2_arg13 (c : Dev nD) : W2 (F := Ideal) m ρ c (Proc.devRef .tc main_arg13) = m ((c : Thread nD τ).loc main_arg13) :=
  (W2_of_ne m ρ c main_arg13 (by decide)).trans (W1_arg13 m ρ c)
theorem W3_arg13 (c : Dev nD) : W3 (F := Ideal) m ρ c (Proc.devRef .tc main_arg13) = m ((c : Thread nD τ).loc main_arg13) :=
  (StableHlo.after_of_forall_not_mem (b := Proc.devRef .tc main_arg13) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg13 m ρ c)
theorem W4_arg13 (c : Dev nD) : W4 (F := Ideal) m ρ c (Proc.devRef .tc main_arg13) = m ((c : Thread nD τ).loc main_arg13) :=
  (W4_of_ne m ρ c main_arg13 (by decide)).trans (W3_arg13 m ρ c)
theorem W5_arg13 (c : Dev nD) : W5 (F := Ideal) m ρ c (Proc.devRef .tc main_arg13) = m ((c : Thread nD τ).loc main_arg13) :=
  (StableHlo.after_of_forall_not_mem (b := Proc.devRef .tc main_arg13) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg13 m ρ c)
theorem W6_arg13 (c : Dev nD) : W6 (F := Ideal) m ρ c (Proc.devRef .tc main_arg13) = m ((c : Thread nD τ).loc main_arg13) :=
  (W6_of_ne m ρ c main_arg13 (by decide)).trans (W5_arg13 m ρ c)
theorem W7_arg13 (c : Dev nD) : W7 (F := Ideal) m ρ c (Proc.devRef .tc main_arg13) = m ((c : Thread nD τ).loc main_arg13) :=
  (StableHlo.after_of_forall_not_mem (b := Proc.devRef .tc main_arg13) hostOps3 (W6 m ρ c) (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg13 m ρ c)
theorem W8_arg13 (c : Dev nD) : W8 (F := Ideal) m ρ c (Proc.devRef .tc main_arg13) = m ((c : Thread nD τ).loc main_arg13) :=
  (W8_of_ne m ρ c main_arg13 (by decide)).trans (W7_arg13 m ρ c)
theorem W9_arg13 (c : Dev nD) : W9 (F := Ideal) m ρ c (Proc.devRef .tc main_arg13) = m ((c : Thread nD τ).loc main_arg13) :=
  (StableHlo.after_of_forall_not_mem (b := Proc.devRef .tc main_arg13) hostOps4 (W8 m ρ c) (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_arg13 m ρ c)
theorem W10_arg13 (c : Dev nD) : W10 (F := Ideal) m ρ c (Proc.devRef .tc main_arg13) = m ((c : Thread nD τ).loc main_arg13) :=
  (W10_of_ne m ρ c main_arg13 (by decide)).trans (W9_arg13 m ρ c)
theorem W11_arg13 (c : Dev nD) : W11 (F := Ideal) m ρ c (Proc.devRef .tc main_arg13) = m ((c : Thread nD τ).loc main_arg13) :=
  (StableHlo.after_of_forall_not_mem (b := Proc.devRef .tc main_arg13) hostOps5 (W10 m ρ c) (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W10_arg13 m ρ c)
theorem W0_arg15 (c : Dev nD) : W0 (F := Ideal) m ρ c (Proc.devRef .tc main_arg15) = m ((c : Thread nD τ).loc main_arg15) := rfl
theorem W1_arg15 (c : Dev nD) : W1 (F := Ideal) m ρ c (Proc.devRef .tc main_arg15) = m ((c : Thread nD τ).loc main_arg15) :=
  (StableHlo.after_of_forall_not_mem (b := Proc.devRef .tc main_arg15) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg15 m ρ c)
theorem W2_arg15 (c : Dev nD) : W2 (F := Ideal) m ρ c (Proc.devRef .tc main_arg15) = m ((c : Thread nD τ).loc main_arg15) :=
  (W2_of_ne m ρ c main_arg15 (by decide)).trans (W1_arg15 m ρ c)
theorem W3_arg15 (c : Dev nD) : W3 (F := Ideal) m ρ c (Proc.devRef .tc main_arg15) = m ((c : Thread nD τ).loc main_arg15) :=
  (StableHlo.after_of_forall_not_mem (b := Proc.devRef .tc main_arg15) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg15 m ρ c)
theorem W4_arg15 (c : Dev nD) : W4 (F := Ideal) m ρ c (Proc.devRef .tc main_arg15) = m ((c : Thread nD τ).loc main_arg15) :=
  (W4_of_ne m ρ c main_arg15 (by decide)).trans (W3_arg15 m ρ c)
theorem W5_arg15 (c : Dev nD) : W5 (F := Ideal) m ρ c (Proc.devRef .tc main_arg15) = m ((c : Thread nD τ).loc main_arg15) :=
  (StableHlo.after_of_forall_not_mem (b := Proc.devRef .tc main_arg15) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg15 m ρ c)
theorem W6_arg15 (c : Dev nD) : W6 (F := Ideal) m ρ c (Proc.devRef .tc main_arg15) = m ((c : Thread nD τ).loc main_arg15) :=
  (W6_of_ne m ρ c main_arg15 (by decide)).trans (W5_arg15 m ρ c)
theorem W7_arg15 (c : Dev nD) : W7 (F := Ideal) m ρ c (Proc.devRef .tc main_arg15) = m ((c : Thread nD τ).loc main_arg15) :=
  (StableHlo.after_of_forall_not_mem (b := Proc.devRef .tc main_arg15) hostOps3 (W6 m ρ c) (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg15 m ρ c)
theorem W8_arg15 (c : Dev nD) : W8 (F := Ideal) m ρ c (Proc.devRef .tc main_arg15) = m ((c : Thread nD τ).loc main_arg15) :=
  (W8_of_ne m ρ c main_arg15 (by decide)).trans (W7_arg15 m ρ c)
theorem W9_arg15 (c : Dev nD) : W9 (F := Ideal) m ρ c (Proc.devRef .tc main_arg15) = m ((c : Thread nD τ).loc main_arg15) :=
  (StableHlo.after_of_forall_not_mem (b := Proc.devRef .tc main_arg15) hostOps4 (W8 m ρ c) (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_arg15 m ρ c)
theorem W10_arg15 (c : Dev nD) : W10 (F := Ideal) m ρ c (Proc.devRef .tc main_arg15) = m ((c : Thread nD τ).loc main_arg15) :=
  (W10_of_ne m ρ c main_arg15 (by decide)).trans (W9_arg15 m ρ c)
theorem W11_arg15 (c : Dev nD) : W11 (F := Ideal) m ρ c (Proc.devRef .tc main_arg15) = m ((c : Thread nD τ).loc main_arg15) :=
  (StableHlo.after_of_forall_not_mem (b := Proc.devRef .tc main_arg15) hostOps5 (W10 m ρ c) (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W10_arg15 m ρ c)
theorem W0_arg12 (c : Dev nD) : W0 (F := Ideal) m ρ c (Proc.devRef .tc main_arg12) = m ((c : Thread nD τ).loc main_arg12) := rfl
theorem W1_arg12 (c : Dev nD) : W1 (F := Ideal) m ρ c (Proc.devRef .tc main_arg12) = m ((c : Thread nD τ).loc main_arg12) :=
  (StableHlo.after_of_forall_not_mem (b := Proc.devRef .tc main_arg12) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg12 m ρ c)
theorem W2_arg12 (c : Dev nD) : W2 (F := Ideal) m ρ c (Proc.devRef .tc main_arg12) = m ((c : Thread nD τ).loc main_arg12) :=
  (W2_of_ne m ρ c main_arg12 (by decide)).trans (W1_arg12 m ρ c)
theorem W3_arg12 (c : Dev nD) : W3 (F := Ideal) m ρ c (Proc.devRef .tc main_arg12) = m ((c : Thread nD τ).loc main_arg12) :=
  (StableHlo.after_of_forall_not_mem (b := Proc.devRef .tc main_arg12) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg12 m ρ c)
theorem W4_arg12 (c : Dev nD) : W4 (F := Ideal) m ρ c (Proc.devRef .tc main_arg12) = m ((c : Thread nD τ).loc main_arg12) :=
  (W4_of_ne m ρ c main_arg12 (by decide)).trans (W3_arg12 m ρ c)
theorem W5_arg12 (c : Dev nD) : W5 (F := Ideal) m ρ c (Proc.devRef .tc main_arg12) = m ((c : Thread nD τ).loc main_arg12) :=
  (StableHlo.after_of_forall_not_mem (b := Proc.devRef .tc main_arg12) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg12 m ρ c)
theorem W6_arg12 (c : Dev nD) : W6 (F := Ideal) m ρ c (Proc.devRef .tc main_arg12) = m ((c : Thread nD τ).loc main_arg12) :=
  (W6_of_ne m ρ c main_arg12 (by decide)).trans (W5_arg12 m ρ c)
theorem W7_arg12 (c : Dev nD) : W7 (F := Ideal) m ρ c (Proc.devRef .tc main_arg12) = m ((c : Thread nD τ).loc main_arg12) :=
  (StableHlo.after_of_forall_not_mem (b := Proc.devRef .tc main_arg12) hostOps3 (W6 m ρ c) (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg12 m ρ c)
theorem W8_arg12 (c : Dev nD) : W8 (F := Ideal) m ρ c (Proc.devRef .tc main_arg12) = m ((c : Thread nD τ).loc main_arg12) :=
  (W8_of_ne m ρ c main_arg12 (by decide)).trans (W7_arg12 m ρ c)
theorem W9_arg12 (c : Dev nD) : W9 (F := Ideal) m ρ c (Proc.devRef .tc main_arg12) = m ((c : Thread nD τ).loc main_arg12) :=
  (StableHlo.after_of_forall_not_mem (b := Proc.devRef .tc main_arg12) hostOps4 (W8 m ρ c) (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_arg12 m ρ c)
theorem W10_arg12 (c : Dev nD) : W10 (F := Ideal) m ρ c (Proc.devRef .tc main_arg12) = m ((c : Thread nD τ).loc main_arg12) :=
  (W10_of_ne m ρ c main_arg12 (by decide)).trans (W9_arg12 m ρ c)
theorem W0_arg14 (c : Dev nD) : W0 (F := Ideal) m ρ c (Proc.devRef .tc main_arg14) = m ((c : Thread nD τ).loc main_arg14) := rfl
theorem W1_arg14 (c : Dev nD) : W1 (F := Ideal) m ρ c (Proc.devRef .tc main_arg14) = m ((c : Thread nD τ).loc main_arg14) :=
  (StableHlo.after_of_forall_not_mem (b := Proc.devRef .tc main_arg14) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg14 m ρ c)
theorem W2_arg14 (c : Dev nD) : W2 (F := Ideal) m ρ c (Proc.devRef .tc main_arg14) = m ((c : Thread nD τ).loc main_arg14) :=
  (W2_of_ne m ρ c main_arg14 (by decide)).trans (W1_arg14 m ρ c)
theorem W3_arg14 (c : Dev nD) : W3 (F := Ideal) m ρ c (Proc.devRef .tc main_arg14) = m ((c : Thread nD τ).loc main_arg14) :=
  (StableHlo.after_of_forall_not_mem (b := Proc.devRef .tc main_arg14) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg14 m ρ c)
theorem W4_arg14 (c : Dev nD) : W4 (F := Ideal) m ρ c (Proc.devRef .tc main_arg14) = m ((c : Thread nD τ).loc main_arg14) :=
  (W4_of_ne m ρ c main_arg14 (by decide)).trans (W3_arg14 m ρ c)
theorem W5_arg14 (c : Dev nD) : W5 (F := Ideal) m ρ c (Proc.devRef .tc main_arg14) = m ((c : Thread nD τ).loc main_arg14) :=
  (StableHlo.after_of_forall_not_mem (b := Proc.devRef .tc main_arg14) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg14 m ρ c)
theorem W6_arg14 (c : Dev nD) : W6 (F := Ideal) m ρ c (Proc.devRef .tc main_arg14) = m ((c : Thread nD τ).loc main_arg14) :=
  (W6_of_ne m ρ c main_arg14 (by decide)).trans (W5_arg14 m ρ c)
theorem W7_arg14 (c : Dev nD) : W7 (F := Ideal) m ρ c (Proc.devRef .tc main_arg14) = m ((c : Thread nD τ).loc main_arg14) :=
  (StableHlo.after_of_forall_not_mem (b := Proc.devRef .tc main_arg14) hostOps3 (W6 m ρ c) (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg14 m ρ c)
theorem W8_arg14 (c : Dev nD) : W8 (F := Ideal) m ρ c (Proc.devRef .tc main_arg14) = m ((c : Thread nD τ).loc main_arg14) :=
  (W8_of_ne m ρ c main_arg14 (by decide)).trans (W7_arg14 m ρ c)
theorem W9_arg14 (c : Dev nD) : W9 (F := Ideal) m ρ c (Proc.devRef .tc main_arg14) = m ((c : Thread nD τ).loc main_arg14) :=
  (StableHlo.after_of_forall_not_mem (b := Proc.devRef .tc main_arg14) hostOps4 (W8 m ρ c) (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_arg14 m ρ c)
theorem W10_arg14 (c : Dev nD) : W10 (F := Ideal) m ρ c (Proc.devRef .tc main_arg14) = m ((c : Thread nD τ).loc main_arg14) :=
  (W10_of_ne m ρ c main_arg14 (by decide)).trans (W9_arg14 m ρ c)
theorem W0_arg16 (c : Dev nD) : W0 (F := Ideal) m ρ c (Proc.devRef .tc main_arg16) = m ((c : Thread nD τ).loc main_arg16) := rfl
theorem W1_arg16 (c : Dev nD) : W1 (F := Ideal) m ρ c (Proc.devRef .tc main_arg16) = m ((c : Thread nD τ).loc main_arg16) :=
  (StableHlo.after_of_forall_not_mem (b := Proc.devRef .tc main_arg16) hostOps0 (W0 m ρ c) (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg16 m ρ c)
theorem W2_arg16 (c : Dev nD) : W2 (F := Ideal) m ρ c (Proc.devRef .tc main_arg16) = m ((c : Thread nD τ).loc main_arg16) :=
  (W2_of_ne m ρ c main_arg16 (by decide)).trans (W1_arg16 m ρ c)
theorem W3_arg16 (c : Dev nD) : W3 (F := Ideal) m ρ c (Proc.devRef .tc main_arg16) = m ((c : Thread nD τ).loc main_arg16) :=
  (StableHlo.after_of_forall_not_mem (b := Proc.devRef .tc main_arg16) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg16 m ρ c)
theorem W4_arg16 (c : Dev nD) : W4 (F := Ideal) m ρ c (Proc.devRef .tc main_arg16) = m ((c : Thread nD τ).loc main_arg16) :=
  (W4_of_ne m ρ c main_arg16 (by decide)).trans (W3_arg16 m ρ c)
theorem W5_arg16 (c : Dev nD) : W5 (F := Ideal) m ρ c (Proc.devRef .tc main_arg16) = m ((c : Thread nD τ).loc main_arg16) :=
  (StableHlo.after_of_forall_not_mem (b := Proc.devRef .tc main_arg16) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg16 m ρ c)
theorem W6_arg16 (c : Dev nD) : W6 (F := Ideal) m ρ c (Proc.devRef .tc main_arg16) = m ((c : Thread nD τ).loc main_arg16) :=
  (W6_of_ne m ρ c main_arg16 (by decide)).trans (W5_arg16 m ρ c)
theorem W7_arg16 (c : Dev nD) : W7 (F := Ideal) m ρ c (Proc.devRef .tc main_arg16) = m ((c : Thread nD τ).loc main_arg16) :=
  (StableHlo.after_of_forall_not_mem (b := Proc.devRef .tc main_arg16) hostOps3 (W6 m ρ c) (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg16 m ρ c)
theorem W8_arg16 (c : Dev nD) : W8 (F := Ideal) m ρ c (Proc.devRef .tc main_arg16) = m ((c : Thread nD τ).loc main_arg16) :=
  (W8_of_ne m ρ c main_arg16 (by decide)).trans (W7_arg16 m ρ c)
theorem W9_arg16 (c : Dev nD) : W9 (F := Ideal) m ρ c (Proc.devRef .tc main_arg16) = m ((c : Thread nD τ).loc main_arg16) :=
  (StableHlo.after_of_forall_not_mem (b := Proc.devRef .tc main_arg16) hostOps4 (W8 m ρ c) (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_arg16 m ρ c)
theorem W10_arg16 (c : Dev nD) : W10 (F := Ideal) m ρ c (Proc.devRef .tc main_arg16) = m ((c : Thread nD τ).loc main_arg16) :=
  (W10_of_ne m ρ c main_arg16 (by decide)).trans (W9_arg16 m ρ c)

/-! ### The first stretch: the edge list's rows, the edge weights, the inverse degrees, region 0's bias row -/

set_option maxHeartbeats 4000000 in
theorem W1_v1 (c : Dev nD) : W1 (F := Ideal) m ρ c (Proc.devRef .tc main_v1) = src (m ((c : Thread nD τ).loc main_arg1)) := by
  show StableHlo.after hostOps0 (W0 m ρ c) (Proc.devRef .tc main_v1) = _
  after_results_simp
  rfl
set_option maxHeartbeats 4000000 in
theorem W1_v3 (c : Dev nD) : W1 (F := Ideal) m ρ c (Proc.devRef .tc main_v3) = dst (m ((c : Thread nD τ).loc main_arg1)) := by
  show StableHlo.after hostOps0 (W0 m ρ c) (Proc.devRef .tc main_v3) = _
  after_results_simp
  rfl
set_option maxHeartbeats 4000000 in
theorem W1_v25 (c : Dev nD) : W1 (F := Ideal) m ρ c (Proc.devRef .tc main_v25) = normE (m ((c : Thread nD τ).loc main_arg1)) := by
  show StableHlo.after hostOps0 (W0 m ρ c) (Proc.devRef .tc main_v25) = _
  after_results_simp
  rfl
set_option maxHeartbeats 4000000 in
theorem W1_v28 (c : Dev nD) : W1 (F := Ideal) m ρ c (Proc.devRef .tc main_v28) = invDegCol (m ((c : Thread nD τ).loc main_arg1)) := by
  show StableHlo.after hostOps0 (W0 m ρ c) (Proc.devRef .tc main_v28) = _
  after_results_simp
  rfl
set_option maxHeartbeats 4000000 in
theorem W1_v29 (c : Dev nD) : W1 (F := Ideal) m ρ c (Proc.devRef .tc main_v29) = rsh S1x256 (m ((c : Thread nD τ).loc main_arg4)) shapeCasts_S256_S1x256 := by
  show StableHlo.after hostOps0 (W0 m ρ c) (Proc.devRef .tc main_v29) = _
  after_results_simp
  rfl

/-! ### These are written once: every later stretch and region leaves them (a region reads the inverse degrees through an input window) -/

theorem W2_v1 (c : Dev nD) : W2 (F := Ideal) m ρ c (Proc.devRef .tc main_v1) = src (m ((c : Thread nD τ).loc main_arg1)) :=
  (W2_of_ne m ρ c main_v1 (by decide)).trans (W1_v1 m ρ c)
theorem W3_v1 (c : Dev nD) : W3 (F := Ideal) m ρ c (Proc.devRef .tc main_v1) = src (m ((c : Thread nD τ).loc main_arg1)) :=
  (StableHlo.after_of_forall_not_mem (b := Proc.devRef .tc main_v1) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v1 m ρ c)
theorem W4_v1 (c : Dev nD) : W4 (F := Ideal) m ρ c (Proc.devRef .tc main_v1) = src (m ((c : Thread nD τ).loc main_arg1)) :=
  (W4_of_ne m ρ c main_v1 (by decide)).trans (W3_v1 m ρ c)
theorem W5_v1 (c : Dev nD) : W5 (F := Ideal) m ρ c (Proc.devRef .tc main_v1) = src (m ((c : Thread nD τ).loc main_arg1)) :=
  (StableHlo.after_of_forall_not_mem (b := Proc.devRef .tc main_v1) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v1 m ρ c)
theorem W6_v1 (c : Dev nD) : W6 (F := Ideal) m ρ c (Proc.devRef .tc main_v1) = src (m ((c : Thread nD τ).loc main_arg1)) :=
  (W6_of_ne m ρ c main_v1 (by decide)).trans (W5_v1 m ρ c)
theorem W7_v1 (c : Dev nD) : W7 (F := Ideal) m ρ c (Proc.devRef .tc main_v1) = src (m ((c : Thread nD τ).loc main_arg1)) :=
  (StableHlo.after_of_forall_not_mem (b := Proc.devRef .tc main_v1) hostOps3 (W6 m ρ c) (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_v1 m ρ c)
theorem W8_v1 (c : Dev nD) : W8 (F := Ideal) m ρ c (Proc.devRef .tc main_v1) = src (m ((c : Thread nD τ).loc main_arg1)) :=
  (W8_of_ne m ρ c main_v1 (by decide)).trans (W7_v1 m ρ c)
theorem W9_v1 (c : Dev nD) : W9 (F := Ideal) m ρ c (Proc.devRef .tc main_v1) = src (m ((c : Thread nD τ).loc main_arg1)) :=
  (StableHlo.after_of_forall_not_mem (b := Proc.devRef .tc main_v1) hostOps4 (W8 m ρ c) (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_v1 m ρ c)
theorem W10_v1 (c : Dev nD) : W10 (F := Ideal) m ρ c (Proc.devRef .tc main_v1) = src (m ((c : Thread nD τ).loc main_arg1)) :=
  (W10_of_ne m ρ c main_v1 (by decide)).trans (W9_v1 m ρ c)
theorem W2_v3 (c : Dev nD) : W2 (F := Ideal) m ρ c (Proc.devRef .tc main_v3) = dst (m ((c : Thread nD τ).loc main_arg1)) :=
  (W2_of_ne m ρ c main_v3 (by decide)).trans (W1_v3 m ρ c)
theorem W3_v3 (c : Dev nD) : W3 (F := Ideal) m ρ c (Proc.devRef .tc main_v3) = dst (m ((c : Thread nD τ).loc main_arg1)) :=
  (StableHlo.after_of_forall_not_mem (b := Proc.devRef .tc main_v3) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v3 m ρ c)
theorem W4_v3 (c : Dev nD) : W4 (F := Ideal) m ρ c (Proc.devRef .tc main_v3) = dst (m ((c : Thread nD τ).loc main_arg1)) :=
  (W4_of_ne m ρ c main_v3 (by decide)).trans (W3_v3 m ρ c)
theorem W5_v3 (c : Dev nD) : W5 (F := Ideal) m ρ c (Proc.devRef .tc main_v3) = dst (m ((c : Thread nD τ).loc main_arg1)) :=
  (StableHlo.after_of_forall_not_mem (b := Proc.devRef .tc main_v3) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v3 m ρ c)
theorem W6_v3 (c : Dev nD) : W6 (F := Ideal) m ρ c (Proc.devRef .tc main_v3) = dst (m ((c : Thread nD τ).loc main_arg1)) :=
  (W6_of_ne m ρ c main_v3 (by decide)).trans (W5_v3 m ρ c)
theorem W7_v3 (c : Dev nD) : W7 (F := Ideal) m ρ c (Proc.devRef .tc main_v3) = dst (m ((c : Thread nD τ).loc main_arg1)) :=
  (StableHlo.after_of_forall_not_mem (b := Proc.devRef .tc main_v3) hostOps3 (W6 m ρ c) (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_v3 m ρ c)
theorem W8_v3 (c : Dev nD) : W8 (F := Ideal) m ρ c (Proc.devRef .tc main_v3) = dst (m ((c : Thread nD τ).loc main_arg1)) :=
  (W8_of_ne m ρ c main_v3 (by decide)).trans (W7_v3 m ρ c)
theorem W9_v3 (c : Dev nD) : W9 (F := Ideal) m ρ c (Proc.devRef .tc main_v3) = dst (m ((c : Thread nD τ).loc main_arg1)) :=
  (StableHlo.after_of_forall_not_mem (b := Proc.devRef .tc main_v3) hostOps4 (W8 m ρ c) (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_v3 m ρ c)
theorem W10_v3 (c : Dev nD) : W10 (F := Ideal) m ρ c (Proc.devRef .tc main_v3) = dst (m ((c : Thread nD τ).loc main_arg1)) :=
  (W10_of_ne m ρ c main_v3 (by decide)).trans (W9_v3 m ρ c)
theorem W2_v25 (c : Dev nD) : W2 (F := Ideal) m ρ c (Proc.devRef .tc main_v25) = normE (m ((c : Thread nD τ).loc main_arg1)) :=
  (W2_of_ne m ρ c main_v25 (by decide)).trans (W1_v25 m ρ c)
theorem W3_v25 (c : Dev nD) : W3 (F := Ideal) m ρ c (Proc.devRef .tc main_v25) = normE (m ((c : Thread nD τ).loc main_arg1)) :=
  (StableHlo.after_of_forall_not_mem (b := Proc.devRef .tc main_v25) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v25 m ρ c)
theorem W4_v25 (c : Dev nD) : W4 (F := Ideal) m ρ c (Proc.devRef .tc main_v25) = normE (m ((c : Thread nD τ).loc main_arg1)) :=
  (W4_of_ne m ρ c main_v25 (by decide)).trans (W3_v25 m ρ c)
theorem W5_v25 (c : Dev nD) : W5 (F := Ideal) m ρ c (Proc.devRef .tc main_v25) = normE (m ((c : Thread nD τ).loc main_arg1)) :=
  (StableHlo.after_of_forall_not_mem (b := Proc.devRef .tc main_v25) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v25 m ρ c)
theorem W6_v25 (c : Dev nD) : W6 (F := Ideal) m ρ c (Proc.devRef .tc main_v25) = normE (m ((c : Thread nD τ).loc main_arg1)) :=
  (W6_of_ne m ρ c main_v25 (by decide)).trans (W5_v25 m ρ c)
theorem W7_v25 (c : Dev nD) : W7 (F := Ideal) m ρ c (Proc.devRef .tc main_v25) = normE (m ((c : Thread nD τ).loc main_arg1)) :=
  (StableHlo.after_of_forall_not_mem (b := Proc.devRef .tc main_v25) hostOps3 (W6 m ρ c) (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_v25 m ρ c)
theorem W8_v25 (c : Dev nD) : W8 (F := Ideal) m ρ c (Proc.devRef .tc main_v25) = normE (m ((c : Thread nD τ).loc main_arg1)) :=
  (W8_of_ne m ρ c main_v25 (by decide)).trans (W7_v25 m ρ c)
theorem W2_v28 (c : Dev nD) : W2 (F := Ideal) m ρ c (Proc.devRef .tc main_v28) = invDegCol (m ((c : Thread nD τ).loc main_arg1)) :=
  (W2_of_ne m ρ c main_v28 (by decide)).trans (W1_v28 m ρ c)
theorem W3_v28 (c : Dev nD) : W3 (F := Ideal) m ρ c (Proc.devRef .tc main_v28) = invDegCol (m ((c : Thread nD τ).loc main_arg1)) :=
  (StableHlo.after_of_forall_not_mem (b := Proc.devRef .tc main_v28) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v28 m ρ c)
theorem W4_v28 (c : Dev nD) : W4 (F := Ideal) m ρ c (Proc.devRef .tc main_v28) = invDegCol (m ((c : Thread nD τ).loc main_arg1)) :=
  (W4_of_ne m ρ c main_v28 (by decide)).trans (W3_v28 m ρ c)
theorem W5_v28 (c : Dev nD) : W5 (F := Ideal) m ρ c (Proc.devRef .tc main_v28) = invDegCol (m ((c : Thread nD τ).loc main_arg1)) :=
  (StableHlo.after_of_forall_not_mem (b := Proc.devRef .tc main_v28) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v28 m ρ c)
theorem W6_v28 (c : Dev nD) : W6 (F := Ideal) m ρ c (Proc.devRef .tc main_v28) = invDegCol (m ((c : Thread nD τ).loc main_arg1)) :=
  ((W6_arr m ρ c 2).trans (((dat2 (V5 m ρ) c).arrAt_in 2 rfl _).trans (A_eq2 (V5 m ρ) c 2))).trans (W5_v28 m ρ c)
theorem W7_v28 (c : Dev nD) : W7 (F := Ideal) m ρ c (Proc.devRef .tc main_v28) = invDegCol (m ((c : Thread nD τ).loc main_arg1)) :=
  (StableHlo.after_of_forall_not_mem (b := Proc.devRef .tc main_v28) hostOps3 (W6 m ρ c) (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_v28 m ρ c)
theorem W8_v28 (c : Dev nD) : W8 (F := Ideal) m ρ c (Proc.devRef .tc main_v28) = invDegCol (m ((c : Thread nD τ).loc main_arg1)) :=
  ((W8_arr m ρ c 2).trans (((dat3 (V7 m ρ) c).arrAt_in 2 rfl _).trans (A_eq3 (V7 m ρ) c 2))).trans (W7_v28 m ρ c)
theorem W9_v28 (c : Dev nD) : W9 (F := Ideal) m ρ c (Proc.devRef .tc main_v28) = invDegCol (m ((c : Thread nD τ).loc main_arg1)) :=
  (StableHlo.after_of_forall_not_mem (b := Proc.devRef .tc main_v28) hostOps4 (W8 m ρ c) (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_v28 m ρ c)

/-! ### Region 0's output, and region 1's entry -/

theorem W2_v30 (c : Dev nD) : W2 (F := Ideal) m ρ c (Proc.devRef .tc main_v30) = (dat0 (V1 m ρ) c).arrAt 3 cfg0.N :=
  W2_arr m ρ c 3
theorem W3_v30 (c : Dev nD) : W3 (F := Ideal) m ρ c (Proc.devRef .tc main_v30) = (dat0 (V1 m ρ) c).arrAt 3 cfg0.N :=
  (StableHlo.after_of_forall_not_mem (b := Proc.devRef .tc main_v30) hostOps1 (W2 m ρ c) (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v30 m ρ c)
set_option maxHeartbeats 4000000 in
theorem W3_v31 (c : Dev nD) : W3 (F := Ideal) m ρ c (Proc.devRef .tc main_v31) = rsh S1x256 (m ((c : Thread nD τ).loc main_arg6)) shapeCasts_S256_S1x256 := by
  show StableHlo.after hostOps1 (W2 m ρ c) (Proc.devRef .tc main_v31) = _
  after_results_simp
  rw [W2_arg6 m ρ c]
  rfl

/-! ### Region 1's output, and region 2's entry -/

theorem W4_v32 (c : Dev nD) : W4 (F := Ideal) m ρ c (Proc.devRef .tc main_v32) = (dat1 (V3 m ρ) c).arrAt 3 cfg1.N :=
  W4_arr m ρ c 3
theorem W5_v32 (c : Dev nD) : W5 (F := Ideal) m ρ c (Proc.devRef .tc main_v32) = (dat1 (V3 m ρ) c).arrAt 3 cfg1.N :=
  (StableHlo.after_of_forall_not_mem (b := Proc.devRef .tc main_v32) hostOps2 (W4 m ρ c) (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v32 m ρ c)
set_option maxHeartbeats 4000000 in
theorem W5_v46 (c : Dev nD) : W5 (F := Ideal) m ρ c (Proc.devRef .tc main_v46) = agg ((dat1 (V3 m ρ) c).arrAt 3 cfg1.N) (m ((c : Thread nD τ).loc main_arg1)) := by
  show StableHlo.after hostOps2 (W4 m ρ c) (Proc.devRef .tc main_v46) = _
  after_results_simp
  rw [W4_v1 m ρ c, W4_v3 m ρ c, W4_v25 m ρ c, W4_v32 m ρ c]
  rfl
set_option maxHeartbeats 4000000 in
theorem W5_v47 (c : Dev nD) : W5 (F := Ideal) m ρ c (Proc.devRef .tc main_v47) = rsh S1x256 (m ((c : Thread nD τ).loc main_arg8)) shapeCasts_S256_S1x256 := by
  show StableHlo.after hostOps2 (W4 m ρ c) (Proc.devRef .tc main_v47) = _
  after_results_simp
  rw [W4_arg8 m ρ c]
  rfl

/-! ### Region 2's output, and region 3's entry -/

theorem W6_v48 (c : Dev nD) : W6 (F := Ideal) m ρ c (Proc.devRef .tc main_v48) = (dat2 (V5 m ρ) c).arrAt 5 cfg2.N :=
  W6_arr m ρ c 5
theorem W7_v48 (c : Dev nD) : W7 (F := Ideal) m ρ c (Proc.devRef .tc main_v48) = (dat2 (V5 m ρ) c).arrAt 5 cfg2.N :=
  (StableHlo.after_of_forall_not_mem (b := Proc.devRef .tc main_v48) hostOps3 (W6 m ρ c) (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_v48 m ρ c)
set_option maxHeartbeats 4000000 in
theorem W7_v62 (c : Dev nD) : W7 (F := Ideal) m ρ c (Proc.devRef .tc main_v62) = agg ((dat2 (V5 m ρ) c).arrAt 5 cfg2.N) (m ((c : Thread nD τ).loc main_arg1)) := by
  show StableHlo.after hostOps3 (W6 m ρ c) (Proc.devRef .tc main_v62) = _
  after_results_simp
  rw [W6_v1 m ρ c, W6_v3 m ρ c, W6_v25 m ρ c, W6_v48 m ρ c]
  rfl
set_option maxHeartbeats 4000000 in
theorem W7_v63 (c : Dev nD) : W7 (F := Ideal) m ρ c (Proc.devRef .tc main_v63) = rsh S1x256 (m ((c : Thread nD τ).loc main_arg10)) shapeCasts_S256_S1x256 := by
  show StableHlo.after hostOps3 (W6 m ρ c) (Proc.devRef .tc main_v63) = _
  after_results_simp
  rw [W6_arg10 m ρ c]
  rfl

/-! ### Region 3's output, and region 4's entry -/

theorem W8_v64 (c : Dev nD) : W8 (F := Ideal) m ρ c (Proc.devRef .tc main_v64) = (dat3 (V7 m ρ) c).arrAt 5 cfg3.N :=
  W8_arr m ρ c 5
theorem W9_v64 (c : Dev nD) : W9 (F := Ideal) m ρ c (Proc.devRef .tc main_v64) = (dat3 (V7 m ρ) c).arrAt 5 cfg3.N :=
  (StableHlo.after_of_forall_not_mem (b := Proc.devRef .tc main_v64) hostOps4 (W8 m ρ c) (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_v64 m ρ c)
set_option maxHeartbeats 4000000 in
theorem W9_v78 (c : Dev nD) : W9 (F := Ideal) m ρ c (Proc.devRef .tc main_v78) = agg ((dat3 (V7 m ρ) c).arrAt 5 cfg3.N) (m ((c : Thread nD τ).loc main_arg1)) := by
  show StableHlo.after hostOps4 (W8 m ρ c) (Proc.devRef .tc main_v78) = _
  after_results_simp
  rw [W8_v1 m ρ c, W8_v3 m ρ c, W8_v25 m ρ c, W8_v64 m ρ c]
  rfl
set_option maxHeartbeats 4000000 in
theorem W9_v79 (c : Dev nD) : W9 (F := Ideal) m ρ c (Proc.devRef .tc main_v79) = extractStridedSlice S256x128 ![0, 0] (m ((c : Thread nD τ).loc main_arg11)) slices_S528x128_S256x128_0_0 := by
  show StableHlo.after hostOps4 (W8 m ρ c) (Proc.devRef .tc main_v79) = _
  after_results_simp
  rw [W8_arg11 m ρ c]
set_option maxHeartbeats 4000000 in
theorem W9_v80 (c : Dev nD) : W9 (F := Ideal) m ρ c (Proc.devRef .tc main_v80) = extractStridedSlice S256x128 ![256, 0] (m ((c : Thread nD τ).loc main_arg11)) slices_S528x128_S256x128_256_0 := by
  show StableHlo.after hostOps4 (W8 m ρ c) (Proc.devRef .tc main_v80) = _
  after_results_simp
  rw [W8_arg11 m ρ c]
set_option maxHeartbeats 4000000 in
theorem W9_v81 (c : Dev nD) : W9 (F := Ideal) m ρ c (Proc.devRef .tc main_v81) = extractStridedSlice S16x128 ![512, 0] (m ((c : Thread nD τ).loc main_arg11)) slices_S528x128_S16x128_512_0 := by
  show StableHlo.after hostOps4 (W8 m ρ c) (Proc.devRef .tc main_v81) = _
  after_results_simp
  rw [W8_arg11 m ρ c]
theorem W10_v81 (c : Dev nD) : W10 (F := Ideal) m ρ c (Proc.devRef .tc main_v81) = extractStridedSlice S16x128 ![512, 0] (m ((c : Thread nD τ).loc main_arg11)) slices_S528x128_S16x128_512_0 :=
  (W10_of_ne m ρ c main_v81 (by decide)).trans (W9_v81 m ρ c)
theorem W11_v81 (c : Dev nD) : W11 (F := Ideal) m ρ c (Proc.devRef .tc main_v81) = extractStridedSlice S16x128 ![512, 0] (m ((c : Thread nD τ).loc main_arg11)) slices_S528x128_S16x128_512_0 :=
  (StableHlo.after_of_forall_not_mem (b := Proc.devRef .tc main_v81) hostOps5 (W10 m ρ c) (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W10_v81 m ρ c)

/-! ### Region 4's outputs, and region 5's entry -/

theorem W10_v82_0 (c : Dev nD) : W10 (F := Ideal) m ρ c (Proc.devRef .tc main_v82_0) = (dat4 (V9 m ρ) c).arrAt 5 cfg4.N :=
  W10_arr m ρ c 5
theorem W10_v82_1 (c : Dev nD) : W10 (F := Ideal) m ρ c (Proc.devRef .tc main_v82_1) = (dat4 (V9 m ρ) c).arrAt 6 cfg4.N :=
  W10_arr m ρ c 6
set_option maxHeartbeats 4000000 in
theorem W11_v99 (c : Dev nD) : W11 (F := Ideal) m ρ c (Proc.devRef .tc main_v99) = esum ((dat4 (V9 m ρ) c).arrAt 5 cfg4.N) ((dat4 (V9 m ρ) c).arrAt 6 cfg4.N) (m ((c : Thread nD τ).loc main_arg1)) := by
  show StableHlo.after hostOps5 (W10 m ρ c) (Proc.devRef .tc main_v99) = _
  after_results_simp
  rw [W10_v1 m ρ c, W10_v3 m ρ c, W10_v82_0 m ρ c, W10_v82_1 m ρ c]
  rfl
set_option maxHeartbeats 4000000 in
theorem W11_v100 (c : Dev nD) : W11 (F := Ideal) m ρ c (Proc.devRef .tc main_v100) = rsh S1x128 (m ((c : Thread nD τ).loc main_arg12)) shapeCasts_S128_S1x128 := by
  show StableHlo.after hostOps5 (W10 m ρ c) (Proc.devRef .tc main_v100) = _
  after_results_simp
  rw [W10_arg12 m ρ c]
  rfl
set_option maxHeartbeats 4000000 in
theorem W11_v101 (c : Dev nD) : W11 (F := Ideal) m ρ c (Proc.devRef .tc main_v101) = rsh S1x64 (m ((c : Thread nD τ).loc main_arg14)) shapeCasts_S64_S1x64 := by
  show StableHlo.after hostOps5 (W10 m ρ c) (Proc.devRef .tc main_v101) = _
  after_results_simp
  rw [W10_arg14 m ρ c]
  rfl
set_option maxHeartbeats 4000000 in
theorem W11_v102 (c : Dev nD) : W11 (F := Ideal) m ρ c (Proc.devRef .tc main_v102) = rsh S1x2 (m ((c : Thread nD τ).loc main_arg16)) shapeCasts_S2_S1x2 := by
  show StableHlo.after hostOps5 (W10 m ρ c) (Proc.devRef .tc main_v102) = _
  after_results_simp
  rw [W10_arg16 m ρ c]
  rfl

/-! ## What each region finds in its input arrays, and the result

Region `r` is entered at the contents `V(2r+1)`; its window `w` reads the array `Pipeline.arrRef spec_r w`. -/

/-! ### Region 0 -/

theorem V1_w0 (c : Dev nD) : V1 (F := Ideal) m ρ c (Pipeline.arrRef spec0 0) = m ((c : Thread nD τ).loc main_arg0) :=
  W1_arg0 m ρ c
theorem V1_w1 (c : Dev nD) : V1 (F := Ideal) m ρ c (Pipeline.arrRef spec0 1) = m ((c : Thread nD τ).loc main_arg3) :=
  W1_arg3 m ρ c
theorem V1_w2 (c : Dev nD) : V1 (F := Ideal) m ρ c (Pipeline.arrRef spec0 2) = rsh S1x256 (m ((c : Thread nD τ).loc main_arg4)) shapeCasts_S256_S1x256 :=
  W1_v29 m ρ c

/-! ### Region 1 -/

theorem V3_w0 (c : Dev nD) : V3 (F := Ideal) m ρ c (Pipeline.arrRef spec1 0) = (dat0 (V1 m ρ) c).arrAt 3 cfg0.N :=
  W3_v30 m ρ c
theorem V3_w1 (c : Dev nD) : V3 (F := Ideal) m ρ c (Pipeline.arrRef spec1 1) = m ((c : Thread nD τ).loc main_arg5) :=
  W3_arg5 m ρ c
theorem V3_w2 (c : Dev nD) : V3 (F := Ideal) m ρ c (Pipeline.arrRef spec1 2) = rsh S1x256 (m ((c : Thread nD τ).loc main_arg6)) shapeCasts_S256_S1x256 :=
  W3_v31 m ρ c

/-! ### Region 2 -/

theorem V5_w0 (c : Dev nD) : V5 (F := Ideal) m ρ c (Pipeline.arrRef spec2 0) = agg ((dat1 (V3 m ρ) c).arrAt 3 cfg1.N) (m ((c : Thread nD τ).loc main_arg1)) :=
  W5_v46 m ρ c
theorem V5_w1 (c : Dev nD) : V5 (F := Ideal) m ρ c (Pipeline.arrRef spec2 1) = (dat1 (V3 m ρ) c).arrAt 3 cfg1.N :=
  W5_v32 m ρ c
theorem V5_w2 (c : Dev nD) : V5 (F := Ideal) m ρ c (Pipeline.arrRef spec2 2) = invDegCol (m ((c : Thread nD τ).loc main_arg1)) :=
  W5_v28 m ρ c
theorem V5_w3 (c : Dev nD) : V5 (F := Ideal) m ρ c (Pipeline.arrRef spec2 3) = m ((c : Thread nD τ).loc main_arg7) :=
  W5_arg7 m ρ c
theorem V5_w4 (c : Dev nD) : V5 (F := Ideal) m ρ c (Pipeline.arrRef spec2 4) = rsh S1x256 (m ((c : Thread nD τ).loc main_arg8)) shapeCasts_S256_S1x256 :=
  W5_v47 m ρ c

/-! ### Region 3 -/

theorem V7_w0 (c : Dev nD) : V7 (F := Ideal) m ρ c (Pipeline.arrRef spec3 0) = agg ((dat2 (V5 m ρ) c).arrAt 5 cfg2.N) (m ((c : Thread nD τ).loc main_arg1)) :=
  W7_v62 m ρ c
theorem V7_w1 (c : Dev nD) : V7 (F := Ideal) m ρ c (Pipeline.arrRef spec3 1) = (dat2 (V5 m ρ) c).arrAt 5 cfg2.N :=
  W7_v48 m ρ c
theorem V7_w2 (c : Dev nD) : V7 (F := Ideal) m ρ c (Pipeline.arrRef spec3 2) = invDegCol (m ((c : Thread nD τ).loc main_arg1)) :=
  W7_v28 m ρ c
theorem V7_w3 (c : Dev nD) : V7 (F := Ideal) m ρ c (Pipeline.arrRef spec3 3) = m ((c : Thread nD τ).loc main_arg9) :=
  W7_arg9 m ρ c
theorem V7_w4 (c : Dev nD) : V7 (F := Ideal) m ρ c (Pipeline.arrRef spec3 4) = rsh S1x256 (m ((c : Thread nD τ).loc main_arg10)) shapeCasts_S256_S1x256 :=
  W7_v63 m ρ c

/-! ### Region 4 -/

theorem V9_w0 (c : Dev nD) : V9 (F := Ideal) m ρ c (Pipeline.arrRef spec4 0) = agg ((dat3 (V7 m ρ) c).arrAt 5 cfg3.N) (m ((c : Thread nD τ).loc main_arg1)) :=
  W9_v78 m ρ c
theorem V9_w1 (c : Dev nD) : V9 (F := Ideal) m ρ c (Pipeline.arrRef spec4 1) = (dat3 (V7 m ρ) c).arrAt 5 cfg3.N :=
  W9_v64 m ρ c
theorem V9_w2 (c : Dev nD) : V9 (F := Ideal) m ρ c (Pipeline.arrRef spec4 2) = invDegCol (m ((c : Thread nD τ).loc main_arg1)) :=
  W9_v28 m ρ c
theorem V9_w3 (c : Dev nD) : V9 (F := Ideal) m ρ c (Pipeline.arrRef spec4 3) = extractStridedSlice S256x128 ![0, 0] (m ((c : Thread nD τ).loc main_arg11)) slices_S528x128_S256x128_0_0 :=
  W9_v79 m ρ c
theorem V9_w4 (c : Dev nD) : V9 (F := Ideal) m ρ c (Pipeline.arrRef spec4 4) = extractStridedSlice S256x128 ![256, 0] (m ((c : Thread nD τ).loc main_arg11)) slices_S528x128_S256x128_256_0 :=
  W9_v80 m ρ c

/-! ### Region 5 -/

theorem V11_w0 (c : Dev nD) : V11 (F := Ideal) m ρ c (Pipeline.arrRef spec5 0) = esum ((dat4 (V9 m ρ) c).arrAt 5 cfg4.N) ((dat4 (V9 m ρ) c).arrAt 6 cfg4.N) (m ((c : Thread nD τ).loc main_arg1)) :=
  W11_v99 m ρ c
theorem V11_w1 (c : Dev nD) : V11 (F := Ideal) m ρ c (Pipeline.arrRef spec5 1) = m ((c : Thread nD τ).loc main_arg2) :=
  W11_arg2 m ρ c
theorem V11_w2 (c : Dev nD) : V11 (F := Ideal) m ρ c (Pipeline.arrRef spec5 2) = extractStridedSlice S16x128 ![512, 0] (m ((c : Thread nD τ).loc main_arg11)) slices_S528x128_S16x128_512_0 :=
  W11_v81 m ρ c
theorem V11_w3 (c : Dev nD) : V11 (F := Ideal) m ρ c (Pipeline.arrRef spec5 3) = rsh S1x128 (m ((c : Thread nD τ).loc main_arg12)) shapeCasts_S128_S1x128 :=
  W11_v100 m ρ c
theorem V11_w4 (c : Dev nD) : V11 (F := Ideal) m ρ c (Pipeline.arrRef spec5 4) = m ((c : Thread nD τ).loc main_arg13) :=
  W11_arg13 m ρ c
theorem V11_w5 (c : Dev nD) : V11 (F := Ideal) m ρ c (Pipeline.arrRef spec5 5) = rsh S1x64 (m ((c : Thread nD τ).loc main_arg14)) shapeCasts_S64_S1x64 :=
  W11_v101 m ρ c
theorem V11_w6 (c : Dev nD) : V11 (F := Ideal) m ρ c (Pipeline.arrRef spec5 6) = m ((c : Thread nD τ).loc main_arg15) :=
  W11_arg15 m ρ c
theorem V11_w7 (c : Dev nD) : V11 (F := Ideal) m ρ c (Pipeline.arrRef spec5 7) = rsh S1x2 (m ((c : Thread nD τ).loc main_arg16)) shapeCasts_S2_S1x2 :=
  W11_v102 m ρ c

/-! ### The result: what region 5's write-backs leave in its output array -/

theorem result (c : Dev nD) : W12 (F := Ideal) m ρ c (Proc.devRef .tc main_v103) = (dat5 (V11 m ρ) c).arrAt 8 cfg5.N :=
  W12_arr m ρ c 8

end Cert.KernelIdeal.KHost
end
-- ==== Proof.KernelValue.lean ====
/-
  The kernel's result as ONE function of its argument arrays: the six regions' functions composed through the
  host operations between them — the encoder; the first linear map; twice the aggregation over the edges followed
  by the self-loop step fused with the next linear map; the aggregation followed by the two node projections; the
  per-edge sum of the gathered projections; the classifier.
-/
import proofs.«132875_j15685220565562_2_alg».proof.Proof.Region0
import proofs.«132875_j15685220565562_2_alg».proof.Proof.Region1
import proofs.«132875_j15685220565562_2_alg».proof.Proof.Region2
import proofs.«132875_j15685220565562_2_alg».proof.Proof.Region3
import proofs.«132875_j15685220565562_2_alg».proof.Proof.Region4
import proofs.«132875_j15685220565562_2_alg».proof.Proof.Region5
import proofs.«132875_j15685220565562_2_alg».proof.Proof.KernelHost

set_option maxRecDepth 16384

noncomputable section

namespace Cert.KernelIdeal.KVal

open Cert.KernelIdeal Cert.KernelIdeal.Gen Cert.KernelIdeal.KHost Idealize.ShloMosaic Idealize.ShloMosaic.TcCoe
open Idealize.SL.Sem

variable (m : (ℓ : Loc nD τ sig) → Buf (Elt Ideal) ℓ) (ρ : Dev nD → PrngReg) (c : Dev nD)

/-- The encoded node features. -/
def x0 : C S50000x256 .f32 :=
  Region0.G (m ((c : Thread nD τ).loc main_arg0)) (m ((c : Thread nD τ).loc main_arg3)) (rsh S1x256 (m ((c : Thread nD τ).loc main_arg4)) shapeCasts_S256_S1x256)
/-- Layer 0's linear map. -/
def h0 : C S50000x256 .bf16 :=
  Region1.G (x0 m c) (m ((c : Thread nD τ).loc main_arg5)) (rsh S1x256 (m ((c : Thread nD τ).loc main_arg6)) shapeCasts_S256_S1x256)
/-- Layer 0's self-loop step and layer 1's linear map. -/
def h1 : C S50000x256 .bf16 :=
  Region2.G (agg (h0 m c) (m ((c : Thread nD τ).loc main_arg1))) (h0 m c) (invDegCol (m ((c : Thread nD τ).loc main_arg1))) (m ((c : Thread nD τ).loc main_arg7)) (rsh S1x256 (m ((c : Thread nD τ).loc main_arg8)) shapeCasts_S256_S1x256)
/-- Layer 1's self-loop step and layer 2's linear map. -/
def h2 : C S50000x256 .bf16 :=
  Region3.G (agg (h1 m c) (m ((c : Thread nD τ).loc main_arg1))) (h1 m c) (invDegCol (m ((c : Thread nD τ).loc main_arg1))) (m ((c : Thread nD τ).loc main_arg9)) (rsh S1x256 (m ((c : Thread nD τ).loc main_arg10)) shapeCasts_S256_S1x256)
/-- Layer 2's self-loop step and the projection by the source block of the classifier's weights. -/
def ps : C S50000x128 .bf16 :=
  Region4.G (agg (h2 m c) (m ((c : Thread nD τ).loc main_arg1))) (h2 m c) (invDegCol (m ((c : Thread nD τ).loc main_arg1)))
    (extractStridedSlice S256x128 ![0, 0] (m ((c : Thread nD τ).loc main_arg11)) slices_S528x128_S256x128_0_0)
/-- The same with the destination block of the weights. -/
def pd : C S50000x128 .bf16 :=
  Region4.G (agg (h2 m c) (m ((c : Thread nD τ).loc main_arg1))) (h2 m c) (invDegCol (m ((c : Thread nD τ).loc main_arg1)))
    (extractStridedSlice S256x128 ![256, 0] (m ((c : Thread nD τ).loc main_arg11)) slices_S528x128_S256x128_256_0)
/-- The logits. -/
def out : C S300000x2 .f32 :=
  Region5.G (esum (ps m c) (pd m c) (m ((c : Thread nD τ).loc main_arg1))) (m ((c : Thread nD τ).loc main_arg2))
    (extractStridedSlice S16x128 ![512, 0] (m ((c : Thread nD τ).loc main_arg11)) slices_S528x128_S16x128_512_0)
    (rsh S1x128 (m ((c : Thread nD τ).loc main_arg12)) shapeCasts_S128_S1x128) (m ((c : Thread nD τ).loc main_arg13)) (rsh S1x64 (m ((c : Thread nD τ).loc main_arg14)) shapeCasts_S64_S1x64) (m ((c : Thread nD τ).loc main_arg15))
    (rsh S1x2 (m ((c : Thread nD τ).loc main_arg16)) shapeCasts_S2_S1x2)

theorem x0_eq : (dat0 (F := Ideal) (V1 m ρ) c).arrAt 3 cfg0.N = x0 m c := by
  rw [Region0.final (V1 m ρ) c, V1_w0 m ρ c, V1_w1 m ρ c, V1_w2 m ρ c]
  rfl

theorem h0_eq : (dat1 (F := Ideal) (V3 m ρ) c).arrAt 3 cfg1.N = h0 m c := by
  rw [Region1.final (V3 m ρ) c, V3_w0 m ρ c, V3_w1 m ρ c, V3_w2 m ρ c, x0_eq m ρ c]
  rfl

theorem h1_eq : (dat2 (F := Ideal) (V5 m ρ) c).arrAt 5 cfg2.N = h1 m c := by
  rw [Region2.final (V5 m ρ) c, V5_w0 m ρ c, V5_w1 m ρ c, V5_w2 m ρ c, V5_w3 m ρ c, V5_w4 m ρ c, h0_eq m ρ c]
  rfl

theorem h2_eq : (dat3 (F := Ideal) (V7 m ρ) c).arrAt 5 cfg3.N = h2 m c := by
  rw [Region3.final (V7 m ρ) c, V7_w0 m ρ c, V7_w1 m ρ c, V7_w2 m ρ c, V7_w3 m ρ c, V7_w4 m ρ c, h1_eq m ρ c]
  rfl

theorem ps_eq : (dat4 (F := Ideal) (V9 m ρ) c).arrAt 5 cfg4.N = ps m c := by
  rw [Region4.final5 (V9 m ρ) c, V9_w0 m ρ c, V9_w1 m ρ c, V9_w2 m ρ c, V9_w3 m ρ c, h2_eq m ρ c]
  rfl

theorem pd_eq : (dat4 (F := Ideal) (V9 m ρ) c).arrAt 6 cfg4.N = pd m c := by
  rw [Region4.final6 (V9 m ρ) c, V9_w0 m ρ c, V9_w1 m ρ c, V9_w2 m ρ c, V9_w4 m ρ c, h2_eq m ρ c]
  rfl

/-- The result buffer after the run. -/
theorem value : W12 (F := Ideal) m ρ c (Proc.devRef .tc main_v103) = out m c := by
  rw [KHost.result m ρ c, Region5.final (V11 m ρ) c, V11_w0 m ρ c, V11_w1 m ρ c, V11_w2 m ρ c, V11_w3 m ρ c,
    V11_w4 m ρ c, V11_w5 m ρ c, V11_w6 m ρ c, V11_w7 m ρ c, ps_eq m ρ c, pd_eq m ρ c]
  rfl

end Cert.KernelIdeal.KVal

end
-- ==== Proof.LibEdgeGatherScatter.lean ====
/-
  Gathers and accumulating scatters keyed by ONE integer per edge, in two layouts. Independent of any program.

  An edge list of length `E` carries, per edge `e`, one integer `idx[e, 0]` (the start indices have shape `[E, 1]`).

  1. GATHER.  Rows of a matrix `x : [N, D]` taken at the edges' integers (`x[idx]`: offset axis 1, collapsed axis 0,
     slices `[1, D]`) give `[E, D]`, whose element `(e, c)` is `x` at row `clampRow idx e` — the integer read signed
     and clamped into `[0, N − 1]`, as the gather clamps every start index — and column `c`.  The same integers taken
     along the MIDDLE axis of `x : [B, N, D]` (`x[:, idx, :]`: offset axes 0 and 2, collapsed axis 1, slices
     `[B, 1, D]`) give `[B, E, D]`, whose element `(b, e, o)` is `x` at `(b, clampRow idx e, o)`.

  2. ACCUMULATING SCATTER over the extended reals.  Updates `[E, D]` added into `x : [N, D]` at the rows the edges'
     integers name (window axis 1, inserted axis 0) leave at `(n, c)` the value `x (n, c)` plus the sum, over the edges
     whose integer, read signed, IS `n`, of the update at `(e, c)`; an edge whose integer is outside `[0, N)` lands
     nowhere.  Updates `[B, E, D]` added into `x : [B, N, D]` along the middle axis (window axes 0 and 2, inserted
     axis 1) leave at `(b, n, o)` the value `x (b, n, o)` plus the sum over the same edges of the update at `(b, e, o)`.
     In both layouts the sum ranges over the SAME set of edges, which is what lets a scatter over a matrix whose rows
     pack `B` blocks of width `O` be compared with the scatter over the unpacked `[B, N, O]` array.
-/
import Idealize.ShloMosaic.Lib.ValueIdx
import Idealize.ShloMosaic.PureOps.Ideal

noncomputable section

namespace Cert.Lib

open Idealize.ShloMosaic Idealize.ShloMosaic.ValueIdx

/-! ## The row an edge's integer selects -/

/-- The row of an `N`-row operand that edge `e` reads: its integer `idx[e, 0]`, signed, clamped into `[0, N − 1]`. -/
def clampRow {E w : Nat} (N : Nat) (hN : 0 < N) (idx : IVec ⟨2, ![E, 1]⟩ w) (e : Fin E) : Fin N :=
  ⟨min (idx (ix2 e (0 : Fin 1))).toInt.toNat (N - 1), by omega⟩

/-! ## Gathers -/

section Gather
variable {α : Type}

/-- The dimension numbers of `x[idx]` for an operand `[N, D]`, start indices `[E, 1]` and result `[E, D]`. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ROWS OF A MATRIX at `(e, c)`: the operand at row `clampRow idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c) = x (ix2 (clampRow N hN idx e) c) := by
  unfold Host.gather
  congr 1
  funext a
  refine Fin.ext ?_
  match a with
  | ⟨0, _⟩ =>
    show (rowGatherDims N D E wf).start (ix2 e c) idx 0 + (rowGatherDims N D E wf).batchCoord (ix2 e c) 0
        + (rowGatherDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
        + (rowGatherDims N D E wf).offCoord (ix2 e c) 1 = _
    rw [GatherDims.batchCoord_eq_zero _ _ _ List.not_mem_nil]
    unfold GatherDims.start
    rw [dif_neg (show ¬ (1 : Fin 2) ∈ ([0] : List (Fin 2)) from by decide)]
    have hk : (1 : Fin 2) ∈ (rowGatherDims N D E wf).sKept :=
      (GatherDims.mem_sKept _ _).mpr ⟨(show ¬ (1 : Fin 2) ∈ ([0] : List (Fin 2)) from by decide), List.not_mem_nil⟩
    unfold GatherDims.offCoord
    rw [dif_pos hk]
    simp only [Nat.zero_add, Nat.add_zero]
    rfl

/-- The dimension numbers of `x[:, idx, :]` for an operand `[B, N, D]`, start indices `[E, 1]` and result
    `[B, E, D]`. -/
abbrev midGatherDims (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ where
  offsetDims := [0, 2]
  collapsedSliceDims := [1]
  operandBatchingDims := []
  startIndicesBatchingDims := []
  startIndexMap := [1]
  indexVectorDim := 1
  sliceSizes := ![B, 1, D]
  wf := wf

/-- THE MIDDLE AXIS OF A RANK-3 ARRAY at `(b, e, o)`: the operand at `(b, clampRow idx e, o)`. -/
theorem gather_mid_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (b : Fin B) (e : Fin E) (o : Fin D) :
    Host.gather (midGatherDims B N D E wf) x idx (ix3 b e o) = x (ix3 b (clampRow N hN idx e) o) := by
  unfold Host.gather
  congr 1
  funext a
  refine Fin.ext ?_
  match a with
  | ⟨0, _⟩ =>
    show (midGatherDims B N D E wf).start (ix3 b e o) idx 0 + (midGatherDims B N D E wf).batchCoord (ix3 b e o) 0
        + (midGatherDims B N D E wf).offCoord (ix3 b e o) 0 = _
    rw [GatherDims.batchCoord_eq_zero _ _ _ List.not_mem_nil]
    unfold GatherDims.start
    rw [dif_neg (show ¬ (0 : Fin 3) ∈ ([1] : List (Fin 3)) from by decide)]
    have hk : (0 : Fin 3) ∈ (midGatherDims B N D E wf).sKept :=
      (GatherDims.mem_sKept _ _).mpr ⟨(show ¬ (0 : Fin 3) ∈ ([1] : List (Fin 3)) from by decide), List.not_mem_nil⟩
    unfold GatherDims.offCoord
    rw [dif_pos hk]
    simp only [Nat.zero_add, Nat.add_zero]
    rfl
  | ⟨1, _⟩ =>
    show (midGatherDims B N D E wf).start (ix3 b e o) idx 1 + (midGatherDims B N D E wf).batchCoord (ix3 b e o) 1
        + (midGatherDims B N D E wf).offCoord (ix3 b e o) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims B N D E wf).startIndexMap from List.mem_singleton.mpr rfl)]
    have hsi : (midGatherDims B N D E wf).siIdx (ix3 b e o) ⟨List.idxOf (1 : Fin 3) (midGatherDims B N D E wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show (midGatherDims B N D E wf).start (ix3 b e o) idx 2 + (midGatherDims B N D E wf).batchCoord (ix3 b e o) 2
        + (midGatherDims B N D E wf).offCoord (ix3 b e o) 2 = _
    rw [GatherDims.batchCoord_eq_zero _ _ _ List.not_mem_nil]
    unfold GatherDims.start
    rw [dif_neg (show ¬ (2 : Fin 3) ∈ ([1] : List (Fin 3)) from by decide)]
    have hk : (2 : Fin 3) ∈ (midGatherDims B N D E wf).sKept :=
      (GatherDims.mem_sKept _ _).mpr ⟨(show ¬ (2 : Fin 3) ∈ ([1] : List (Fin 3)) from by decide), List.not_mem_nil⟩
    unfold GatherDims.offCoord
    rw [dif_pos hk]
    simp only [Nat.zero_add, Nat.add_zero]
    rfl

end Gather

/-! ## Accumulating scatters over the extended reals -/

section Scatter

/-- An operand axis receives a window coordinate exactly when it is not an inserted axis. -/
theorem mem_sKept_iff {s si u : Shape} (d : ScatterDims s si u) (a : Fin s.rank) :
    a ∈ d.sKept ↔ a ∉ d.insertedWindowDims := by
  simp [ScatterDims.sKept, Shape.kept, List.mem_filter, List.mem_finRange]

/-! ### Rows of a matrix -/

/-- The dimension numbers of `x.at[idx].add(upd)` for an operand `[N, D]`, scatter indices `[E, 1]` and updates
    `[E, D]`. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w)

/-- On the row axis the window of update `(e, c)` starts at edge `e`'s integer, read signed, … -/
theorem rowScatter_start0 (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e c) ⟨List.idxOf (0 : Fin 2) (rowScatterDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at zero. -/
theorem rowScatter_start1 (j : (⟨2, ![E, D]⟩ : Shape).Idx) : (rowScatterDims N D E wf).start j idx 1 = 0 := by
  unfold ScatterDims.start
  rw [dif_neg (show ¬ (1 : Fin 2) ∈ ([0] : List (Fin 2)) from by decide)]

/-- The window coordinate is zero on the row axis … -/
theorem rowScatter_window0 (j : (⟨2, ![E, D]⟩ : Shape).Idx) : (rowScatterDims N D E wf).window j 0 = 0 := by
  unfold ScatterDims.window
  rw [dif_neg (fun h => ((mem_sKept_iff _ _).mp h) (List.mem_singleton.mpr rfl))]

/-- … and the update's column on the column axis. -/
theorem rowScatter_window1 (e : Fin E) (c : Fin D) : (rowScatterDims N D E wf).window (ix2 e c) 1 = c.val := by
  have hk : (1 : Fin 2) ∈ (rowScatterDims N D E wf).sKept :=
    (mem_sKept_iff _ _).mpr (show ¬ (1 : Fin 2) ∈ ([0] : List (Fin 2)) from by decide)
  unfold ScatterDims.window
  rw [dif_pos hk]
  rfl

/-- WHERE UPDATE `(e, c)` LANDS: at `(n, c')` exactly when edge `e`'s integer, read signed, is `n` and the columns agree. -/
theorem rowScatter_resultIdx_iff (e : Fin E) (c : Fin D) (n : Fin N) (c' : Fin D) :
    (rowScatterDims N D E wf).resultIdx? (ix2 e c) idx = some (ix2 n c')
      ↔ (idx (ix2 e (0 : Fin 1))).toInt = (n.val : Int) ∧ c = c' := by
  have h0 : (rowScatterDims N D E wf).start (ix2 e c) idx 0 + ((rowScatterDims N D E wf).window (ix2 e c) 0 : Int)
      = (idx (ix2 e (0 : Fin 1))).toInt := by
    rw [rowScatter_start0, rowScatter_window0]; simp
  have h1 : (rowScatterDims N D E wf).start (ix2 e c) idx 1 + ((rowScatterDims N D E wf).window (ix2 e c) 1 : Int)
      = (c.val : Int) := by
    rw [rowScatter_start1, rowScatter_window1]; simp
  constructor
  · intro hs
    unfold ScatterDims.resultIdx? at hs
    split at hs
    · rename_i h
      have hf := Option.some.inj hs
      have e0 : ((rowScatterDims N D E wf).start (ix2 e c) idx 0 + ((rowScatterDims N D E wf).window (ix2 e c) 0 : Int)).toNat
          = n.val := congrArg Fin.val (congrFun hf 0)
      have e1 : ((rowScatterDims N D E wf).start (ix2 e c) idx 1 + ((rowScatterDims N D E wf).window (ix2 e c) 1 : Int)).toNat
          = c'.val := congrArg Fin.val (congrFun hf 1)
      have b0 : 0 ≤ (rowScatterDims N D E wf).start (ix2 e c) idx 0 + ((rowScatterDims N D E wf).window (ix2 e c) 0 : Int) :=
        (h 0).1
      rw [h0] at e0 b0
      rw [h1] at e1
      exact ⟨by omega, Fin.ext (by omega)⟩
    · exact absurd hs (by simp)
  · rintro ⟨hr, rfl⟩
    have hn : n.val < N := n.isLt
    have hc : c.val < D := c.isLt
    have h : ∀ a, 0 ≤ (rowScatterDims N D E wf).start (ix2 e c) idx a + ((rowScatterDims N D E wf).window (ix2 e c) a : Int)
        ∧ (rowScatterDims N D E wf).start (ix2 e c) idx a + ((rowScatterDims N D E wf).window (ix2 e c) a : Int)
          < ((⟨2, ![N, D]⟩ : Shape).size a : Int) := by
      intro a
      match a with
      | ⟨0, _⟩ =>
        show 0 ≤ (rowScatterDims N D E wf).start (ix2 e c) idx 0 + ((rowScatterDims N D E wf).window (ix2 e c) 0 : Int)
          ∧ (rowScatterDims N D E wf).start (ix2 e c) idx 0 + ((rowScatterDims N D E wf).window (ix2 e c) 0 : Int) < (N : Int)
        rw [h0, hr]; omega
      | ⟨1, _⟩ =>
        show 0 ≤ (rowScatterDims N D E wf).start (ix2 e c) idx 1 + ((rowScatterDims N D E wf).window (ix2 e c) 1 : Int)
          ∧ (rowScatterDims N D E wf).start (ix2 e c) idx 1 + ((rowScatterDims N D E wf).window (ix2 e c) 1 : Int) < (D : Int)
        rw [h1]; omega
    unfold ScatterDims.resultIdx?
    rw [dif_pos h]
    refine congrArg some (funext fun a => Fin.ext ?_)
    match a with
    | ⟨0, _⟩ =>
      show ((rowScatterDims N D E wf).start (ix2 e c) idx 0 + ((rowScatterDims N D E wf).window (ix2 e c) 0 : Int)).toNat = n.val
      rw [h0, hr]; omega
    | ⟨1, _⟩ =>
      show ((rowScatterDims N D E wf).start (ix2 e c) idx 1 + ((rowScatterDims N D E wf).window (ix2 e c) 1 : Int)).toNat = c.val
      rw [h1]; omega

/-- ROWS ACCUMULATED INTO A MATRIX at `(n, c)`: the operand there plus the updates `(e, c)` of the edges whose integer
    is `n`. -/
theorem scatterAdd_rows_apply (x : (⟨2, ![N, D]⟩ : Shape).Idx → EReal) (upd : (⟨2, ![E, D]⟩ : Shape).Idx → EReal)
    (n : Fin N) (c : Fin D) :
    Ideal.hostScatterAdd (rowScatterDims N D E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) ?_
  have key : ∀ j : (⟨2, ![E, D]⟩ : Shape).Idx, (rowScatterDims N D E wf).resultIdx? j idx = some (ix2 n c) →
      (idx (ix2 (j 0 : Fin E) (0 : Fin 1))).toInt = (n.val : Int) ∧ ix2 (j 0 : Fin E) c = j := by
    intro j hj
    obtain ⟨e, c', rfl⟩ : ∃ (e : Fin E) (c' : Fin D), j = ix2 e c' := ⟨j 0, j 1, eq_ix2 j⟩
    obtain ⟨hr, rfl⟩ := (rowScatter_resultIdx_iff wf idx e c' n c).mp hj
    exact ⟨hr, rfl⟩
  refine Finset.sum_nbij' (fun j => (j 0 : Fin E)) (fun e => ix2 e c) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowScatter_resultIdx_iff wf idx e c n c).mpr ⟨(Finset.mem_filter.mp he).2, rfl⟩⟩
  · intro j hj
    exact (key j (Finset.mem_filter.mp hj).2).2
  · intro e _
    rfl
  · intro j hj
    exact congrArg upd (key j (Finset.mem_filter.mp hj).2).2.symm

end Rows

/-! ### The middle axis of a rank-3 array -/

/-- The dimension numbers of `x.at[:, idx, :].add(upd)` for an operand `[B, N, D]`, scatter indices `[E, 1]` and
    updates `[B, E, D]`. -/
abbrev midScatterDims (B N D E : Nat)
    (wf : ScatterDims.WF ⟨3, ![B, N, D]⟩ ⟨2, ![E, 1]⟩ ⟨3, ![B, E, D]⟩ [0, 2] [1] [1] 1) :
    ScatterDims ⟨3, ![B, N, D]⟩ ⟨2, ![E, 1]⟩ ⟨3, ![B, E, D]⟩ where
  updateWindowDims := [0, 2]
  insertedWindowDims := [1]
  scatterDimsToOperandDims := [1]
  indexVectorDim := 1
  wf := wf

section Mid
variable {B N D E w : Nat} (wf : ScatterDims.WF ⟨3, ![B, N, D]⟩ ⟨2, ![E, 1]⟩ ⟨3, ![B, E, D]⟩ [0, 2] [1] [1] 1)
  (idx : IVec ⟨2, ![E, 1]⟩ w)

/-- On the middle axis the window of update `(b, e, o)` starts at edge `e`'s integer, read signed, … -/
theorem midScatter_start1 (b : Fin B) (e : Fin E) (o : Fin D) :
    (midScatterDims B N D E wf).start (ix3 b e o) idx 1 = (idx (ix2 e (0 : Fin 1))).toInt := by
  unfold ScatterDims.start
  rw [dif_pos (show (1 : Fin 3) ∈ (midScatterDims B N D E wf).scatterDimsToOperandDims from List.mem_singleton.mpr rfl)]
  have hsi : (midScatterDims B N D E wf).siIdx (ix3 b e o) ⟨List.idxOf (1 : Fin 3) (midScatterDims B N D E wf).scatterDimsToOperandDims,
      List.idxOf_lt_length_iff.2 (List.mem_singleton.mpr rfl)⟩ = ix2 e (0 : Fin 1) := by
    funext b'; refine Fin.ext ?_
    match b' with
    | ⟨0, _⟩ => rfl
    | ⟨1, _⟩ => rfl
  rw [hsi]

/-- … and on the outer axes at zero. -/
theorem midScatter_start0 (j : (⟨3, ![B, E, D]⟩ : Shape).Idx) : (midScatterDims B N D E wf).start j idx 0 = 0 := by
  unfold ScatterDims.start
  rw [dif_neg (show ¬ (0 : Fin 3) ∈ ([1] : List (Fin 3)) from by decide)]
theorem midScatter_start2 (j : (⟨3, ![B, E, D]⟩ : Shape).Idx) : (midScatterDims B N D E wf).start j idx 2 = 0 := by
  unfold ScatterDims.start
  rw [dif_neg (show ¬ (2 : Fin 3) ∈ ([1] : List (Fin 3)) from by decide)]

/-- The window coordinates are the update's outer coordinates, and zero on the middle axis. -/
theorem midScatter_window0 (b : Fin B) (e : Fin E) (o : Fin D) : (midScatterDims B N D E wf).window (ix3 b e o) 0 = b.val := by
  have hk : (0 : Fin 3) ∈ (midScatterDims B N D E wf).sKept :=
    (mem_sKept_iff _ _).mpr (show ¬ (0 : Fin 3) ∈ ([1] : List (Fin 3)) from by decide)
  unfold ScatterDims.window
  rw [dif_pos hk]
  rfl
theorem midScatter_window1 (j : (⟨3, ![B, E, D]⟩ : Shape).Idx) : (midScatterDims B N D E wf).window j 1 = 0 := by
  unfold ScatterDims.window
  rw [dif_neg (fun h => ((mem_sKept_iff _ _).mp h) (List.mem_singleton.mpr rfl))]
theorem midScatter_window2 (b : Fin B) (e : Fin E) (o : Fin D) : (midScatterDims B N D E wf).window (ix3 b e o) 2 = o.val := by
  have hk : (2 : Fin 3) ∈ (midScatterDims B N D E wf).sKept :=
    (mem_sKept_iff _ _).mpr (show ¬ (2 : Fin 3) ∈ ([1] : List (Fin 3)) from by decide)
  unfold ScatterDims.window
  rw [dif_pos hk]
  rfl

/-- WHERE UPDATE `(b, e, o)` LANDS: at `(b', n, o')` exactly when edge `e`'s integer, read signed, is `n` and the outer
    coordinates agree. -/
theorem midScatter_resultIdx_iff (b : Fin B) (e : Fin E) (o : Fin D) (b' : Fin B) (n : Fin N) (o' : Fin D) :
    (midScatterDims B N D E wf).resultIdx? (ix3 b e o) idx = some (ix3 b' n o')
      ↔ (idx (ix2 e (0 : Fin 1))).toInt = (n.val : Int) ∧ b = b' ∧ o = o' := by
  have h0 : (midScatterDims B N D E wf).start (ix3 b e o) idx 0 + ((midScatterDims B N D E wf).window (ix3 b e o) 0 : Int)
      = (b.val : Int) := by
    rw [midScatter_start0, midScatter_window0]; simp
  have h1 : (midScatterDims B N D E wf).start (ix3 b e o) idx 1 + ((midScatterDims B N D E wf).window (ix3 b e o) 1 : Int)
      = (idx (ix2 e (0 : Fin 1))).toInt := by
    rw [midScatter_start1, midScatter_window1]; simp
  have h2 : (midScatterDims B N D E wf).start (ix3 b e o) idx 2 + ((midScatterDims B N D E wf).window (ix3 b e o) 2 : Int)
      = (o.val : Int) := by
    rw [midScatter_start2, midScatter_window2]; simp
  constructor
  · intro hs
    unfold ScatterDims.resultIdx? at hs
    split at hs
    · rename_i h
      have hf := Option.some.inj hs
      have e0 : ((midScatterDims B N D E wf).start (ix3 b e o) idx 0 + ((midScatterDims B N D E wf).window (ix3 b e o) 0 : Int)).toNat
          = b'.val := congrArg Fin.val (congrFun hf 0)
      have e1 : ((midScatterDims B N D E wf).start (ix3 b e o) idx 1 + ((midScatterDims B N D E wf).window (ix3 b e o) 1 : Int)).toNat
          = n.val := congrArg Fin.val (congrFun hf 1)
      have e2 : ((midScatterDims B N D E wf).start (ix3 b e o) idx 2 + ((midScatterDims B N D E wf).window (ix3 b e o) 2 : Int)).toNat
          = o'.val := congrArg Fin.val (congrFun hf 2)
      have b1 : 0 ≤ (midScatterDims B N D E wf).start (ix3 b e o) idx 1 + ((midScatterDims B N D E wf).window (ix3 b e o) 1 : Int) :=
        (h 1).1
      rw [h0] at e0
      rw [h1] at e1 b1
      rw [h2] at e2
      exact ⟨by omega, Fin.ext (by omega), Fin.ext (by omega)⟩
    · exact absurd hs (by simp)
  · rintro ⟨hr, rfl, rfl⟩
    have hb : b.val < B := b.isLt
    have hn : n.val < N := n.isLt
    have ho : o.val < D := o.isLt
    have h : ∀ a, 0 ≤ (midScatterDims B N D E wf).start (ix3 b e o) idx a + ((midScatterDims B N D E wf).window (ix3 b e o) a : Int)
        ∧ (midScatterDims B N D E wf).start (ix3 b e o) idx a + ((midScatterDims B N D E wf).window (ix3 b e o) a : Int)
          < ((⟨3, ![B, N, D]⟩ : Shape).size a : Int) := by
      intro a
      match a with
      | ⟨0, _⟩ =>
        show 0 ≤ (midScatterDims B N D E wf).start (ix3 b e o) idx 0 + ((midScatterDims B N D E wf).window (ix3 b e o) 0 : Int)
          ∧ (midScatterDims B N D E wf).start (ix3 b e o) idx 0 + ((midScatterDims B N D E wf).window (ix3 b e o) 0 : Int) < (B : Int)
        rw [h0]; omega
      | ⟨1, _⟩ =>
        show 0 ≤ (midScatterDims B N D E wf).start (ix3 b e o) idx 1 + ((midScatterDims B N D E wf).window (ix3 b e o) 1 : Int)
          ∧ (midScatterDims B N D E wf).start (ix3 b e o) idx 1 + ((midScatterDims B N D E wf).window (ix3 b e o) 1 : Int) < (N : Int)
        rw [h1, hr]; omega
      | ⟨2, _⟩ =>
        show 0 ≤ (midScatterDims B N D E wf).start (ix3 b e o) idx 2 + ((midScatterDims B N D E wf).window (ix3 b e o) 2 : Int)
          ∧ (midScatterDims B N D E wf).start (ix3 b e o) idx 2 + ((midScatterDims B N D E wf).window (ix3 b e o) 2 : Int) < (D : Int)
        rw [h2]; omega
    unfold ScatterDims.resultIdx?
    rw [dif_pos h]
    refine congrArg some (funext fun a => Fin.ext ?_)
    match a with
    | ⟨0, _⟩ =>
      show ((midScatterDims B N D E wf).start (ix3 b e o) idx 0 + ((midScatterDims B N D E wf).window (ix3 b e o) 0 : Int)).toNat = b.val
      rw [h0]; omega
    | ⟨1, _⟩ =>
      show ((midScatterDims B N D E wf).start (ix3 b e o) idx 1 + ((midScatterDims B N D E wf).window (ix3 b e o) 1 : Int)).toNat = n.val
      rw [h1, hr]; omega
    | ⟨2, _⟩ =>
      show ((midScatterDims B N D E wf).start (ix3 b e o) idx 2 + ((midScatterDims B N D E wf).window (ix3 b e o) 2 : Int)).toNat = o.val
      rw [h2]; omega

/-- THE MIDDLE AXIS ACCUMULATED at `(b, n, o)`: the operand there plus the updates `(b, e, o)` of the edges whose
    integer is `n` — the same edges as in the matrix layout. -/
theorem scatterAdd_mid_apply (x : (⟨3, ![B, N, D]⟩ : Shape).Idx → EReal) (upd : (⟨3, ![B, E, D]⟩ : Shape).Idx → EReal)
    (b : Fin B) (n : Fin N) (o : Fin D) :
    Ideal.hostScatterAdd (midScatterDims B N D E wf) x idx upd (ix3 b n o)
      = x (ix3 b n o) + ∑ e ∈ Finset.univ.filter (fun e : Fin E => (idx (ix2 e (0 : Fin 1))).toInt = (n.val : Int)),
          upd (ix3 b e o) := by
  unfold Ideal.hostScatterAdd
  refine congrArg (x (ix3 b n o) + ·) ?_
  have key : ∀ j : (⟨3, ![B, E, D]⟩ : Shape).Idx, (midScatterDims B N D E wf).resultIdx? j idx = some (ix3 b n o) →
      (idx (ix2 (j 1 : Fin E) (0 : Fin 1))).toInt = (n.val : Int) ∧ ix3 b (j 1 : Fin E) o = j := by
    intro j hj
    obtain ⟨b', e, o', rfl⟩ : ∃ (b' : Fin B) (e : Fin E) (o' : Fin D), j = ix3 b' e o' := ⟨j 0, j 1, j 2, eq_ix3 j⟩
    obtain ⟨hr, rfl, rfl⟩ := (midScatter_resultIdx_iff wf idx b' e o' b n o).mp hj
    exact ⟨hr, rfl⟩
  refine Finset.sum_nbij' (fun j => (j 1 : Fin E)) (fun e => ix3 b e o) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (midScatter_resultIdx_iff wf idx b e o b n o).mpr ⟨(Finset.mem_filter.mp he).2, rfl, rfl⟩⟩
  · intro j hj
    exact (key j (Finset.mem_filter.mp hj).2).2
  · intro e _
    rfl
  · intro j hj
    exact congrArg upd (key j (Finset.mem_filter.mp hj).2).2.symm

end Mid

end Scatter

end Cert.Lib

end
-- ==== Proof.HostForms.lean ====
/-
  The reference's stages as functions of the stage before them, each read at an index over the extended reals:
  a bias broadcast over the rows, a per-row scale broadcast over the columns, the zero of a relu, the encoder
  relu (X · W + b), a layer's linear map X · W + b, its self-loop step relu (A + H · d), and the classifier's
  three layers over the concatenation [g₁ | g₂ | a] — whose product with the weights splits, by the axis of the
  concatenation, into the three products with the weights' row blocks.
-/
import proofs.«132875_j15685220565562_2_alg».proof.ReferenceIdeal
import proofs.«132875_j15685220565562_2_alg».proof.Proof.Gen.ReferenceIdeal
import proofs.«132875_j15685220565562_2_alg».proof.Proof.LibPlainDot
import proofs.«132875_j15685220565562_2_alg».proof.Proof.LibEdgeGatherScatter
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Forms

open Cert.ReferenceIdeal Cert.ReferenceIdeal.Facts₀ Idealize.ShloMosaic Idealize.ShloMosaic.ValueIdx

variable {α : Type}

/-! ## Broadcasts read at an index -/

/-- A bias [D] broadcast to [1, D] and then over N rows reads, at (p, q), the bias at q. -/
theorem bias_apply {N D : ℕ} (h1 : (⟨1, ![D]⟩ : Shape).BroadcastsInDim ⟨2, ![1, D]⟩ ![1])
    (h2 : (⟨2, ![1, D]⟩ : Shape).BroadcastsInDim ⟨2, ![N, D]⟩ ![0, 1])
    (b : (⟨1, ![D]⟩ : Shape).Idx → α) (p : Fin N) (q : Fin D) :
    broadcastInDim ⟨2, ![N, D]⟩ ![0, 1] h2 (broadcastInDim ⟨2, ![1, D]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => show (0 : ℕ) = if (1 : ℕ) = 1 then 0 else p.val; rw [if_pos rfl]
    | ⟨1, _⟩ =>
      show q.val = if D = 1 then 0 else q.val
      split
      · have := q.isLt; omega
      · rfl
  · match a with
    | ⟨0, _⟩ =>
      show q.val = if D = 1 then 0 else q.val
      split
      · have := q.isLt; omega
      · rfl

/-- A per-row value [N] broadcast to [N, 1] and then over D columns reads, at (p, q), the value of row p. -/
theorem col_apply {N D : ℕ} (h1 : (⟨1, ![N]⟩ : Shape).BroadcastsInDim ⟨2, ![N, 1]⟩ ![0])
    (h2 : (⟨2, ![N, 1]⟩ : Shape).BroadcastsInDim ⟨2, ![N, D]⟩ ![0, 1])
    (d : (⟨1, ![N]⟩ : Shape).Idx → α) (p : Fin N) (q : Fin D) :
    broadcastInDim ⟨2, ![N, D]⟩ ![0, 1] h2 (broadcastInDim ⟨2, ![N, 1]⟩ ![0] h1 d) (ix2 p q) = d (ix1 p) := by
  refine (broadcastInDim_apply _ h2 _ (ix2 p q) (ix2 p (0 : Fin 1)) fun a => ?_).trans
    (broadcastInDim_apply _ h1 d (ix2 p (0 : Fin 1)) (ix1 p) fun a => ?_)
  · match a with
    | ⟨0, _⟩ =>
      show p.val = if N = 1 then 0 else p.val
      split
      · have := p.isLt; omega
      · rfl
    | ⟨1, _⟩ => show (0 : ℕ) = if (1 : ℕ) = 1 then 0 else q.val; rw [if_pos rfl]
  · match a with
    | ⟨0, _⟩ =>
      show p.val = if N = 1 then 0 else p.val
      split
      · have := p.isLt; omega
      · rfl

/-- The scalar zero broadcast to any shape reads zero everywhere. -/
theorem zero_apply {t : Shape} (h : S_.BroadcastsInDim t ![]) (i : t.Idx) :
    broadcastInDim t ![] h (constant (F := Ideal) S_ .f32 0x00000000#32) i = Ideal.ofBits .f32 0x00000000#32 :=
  (broadcastInDim_apply _ h _ i ix0 fun a => a.elim0).trans rfl

/-! ## The node stages -/

/-- The encoder: relu (X · W + b). -/
def encH (nf : FVec Ideal S50000x128 .f32) (w : FVec Ideal S128x256 .f32) (b : FVec Ideal S256 .f32) : FVec Ideal S50000x256 .f32 :=
  maximumf (addf (Host.dotGeneral dot_S50000x128_S128x256_S50000x256_1_0_0_1_n_n none nf w)
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

theorem encH_apply (nf : FVec Ideal S50000x128 .f32) (w : FVec Ideal S128x256 .f32) (b : FVec Ideal S256 .f32)
    (p : Fin 50000) (q : Fin 256) :
    encH nf w b (ix2 p q) = max ((∑ k : Fin 128, nf (ix2 p k) * w (ix2 k q)) + b (ix1 q)) (Ideal.ofBits .f32 0x00000000#32) := by
  unfold encH
  rw [maximumf_apply, addf_apply, zero_apply, bias_apply]
  refine congrArg₂ max (congrArg₂ (· + ·) ?_ rfl) rfl
  simp only [Host.dotGeneral]
  exact Cert.Lib.dotGeneral_plain_apply dot_S50000x128_S128x256_S50000x256_1_0_0_1_n_n.wf none _ nf w p q

/-- A layer's linear map: X · W + b. -/
def linH (x : FVec Ideal S50000x256 .f32) (w : FVec Ideal S256x256 .f32) (b : FVec Ideal S256 .f32) : FVec Ideal S50000x256 .f32 :=
  addf (Host.dotGeneral dot_S50000x256_S256x256_S50000x256_1_0_0_1_n_n none x w)
    (broadcastInDim S50000x256 ![0, 1] bcast_S1x256_S50000x256_0_1 (broadcastInDim S1x256 ![1] bcast_S256_S1x256_1 b))

theorem linH_apply (x : FVec Ideal S50000x256 .f32) (w : FVec Ideal S256x256 .f32) (b : FVec Ideal S256 .f32)
    (p : Fin 50000) (q : Fin 256) :
    linH x w b (ix2 p q) = (∑ k : Fin 256, x (ix2 p k) * w (ix2 k q)) + b (ix1 q) := by
  unfold linH
  rw [addf_apply, bias_apply]
  refine congrArg₂ (· + ·) ?_ rfl
  simp only [Host.dotGeneral]
  exact Cert.Lib.dotGeneral_plain_apply dot_S50000x256_S256x256_S50000x256_1_0_0_1_n_n.wf none _ x w p q

/-- A layer's self-loop step: relu (A + H · d), d one value per row. -/
def finH (ag h : FVec Ideal S50000x256 .f32) (d : FVec Ideal S50000 .f32) : FVec Ideal S50000x256 .f32 :=
  maximumf (addf ag (mulf h
      (broadcastInDim S50000x256 ![0, 1] bcast_S50000x1_S50000x256_0_1 (broadcastInDim S50000x1 ![0] bcast_S50000_S50000x1_0 d))))
    (broadcastInDim S50000x256 ![] bcast_S_S50000x256 (constant S_ .f32 0x00000000#32))

theorem finH_apply (ag h : FVec Ideal S50000x256 .f32) (d : FVec Ideal S50000 .f32) (p : Fin 50000) (k : Fin 256) :
    finH ag h d (ix2 p k) = max (ag (ix2 p k) + h (ix2 p k) * d (ix1 p)) (Ideal.ofBits .f32 0x00000000#32) := by
  unfold finH
  rw [maximumf_apply, addf_apply, mulf_apply, zero_apply, col_apply]

/-! ## The classifier -/

/-- A sum over the 528 rows of the first classifier weights, cut at the blocks of the concatenation. -/
theorem sum_split3 {M : Type} [AddCommMonoid M] (f : Fin 528 → M) :
    ∑ k : Fin 528, f k = (∑ k : Fin 256, f ⟨k.val, by have := k.isLt; omega⟩)
      + ((∑ k : Fin 256, f ⟨256 + k.val, by have := k.isLt; omega⟩) + ∑ k : Fin 16, f ⟨512 + k.val, by have := k.isLt; omega⟩) := by
  have h1 : ∑ k : Fin (256 + 272), f k = ∑ i : Fin 256, f (Fin.castAdd 272 i) + ∑ i : Fin 272, f (Fin.natAdd 256 i) :=
    Fin.sum_univ_add (fun k : Fin (256 + 272) => f k)
  have h2 : ∑ i : Fin (256 + 16), f (Fin.natAdd 256 i)
      = ∑ i : Fin 256, f (Fin.natAdd 256 (Fin.castAdd 16 i)) + ∑ i : Fin 16, f (Fin.natAdd 256 (Fin.natAdd 256 i)) :=
    Fin.sum_univ_add (fun i : Fin (256 + 16) => f (Fin.natAdd 256 i))
  refine h1.trans (congrArg₂ (· + ·) (Finset.sum_congr rfl fun k _ => congrArg f (Fin.ext rfl)) (h2.trans ?_))
  refine congrArg₂ (· + ·) (Finset.sum_congr rfl fun k _ => congrArg f (Fin.ext rfl))
    (Finset.sum_congr rfl fun k _ => congrArg f (Fin.ext ?_))
  show 256 + (256 + k.val) = 512 + k.val
  omega

/-- The concatenation [g₁ | g₂ | a] along the columns. -/
def catH (g1 g2 : FVec Ideal S300000x256 .f32) (ea : FVec Ideal S300000x16 .f32) : FVec Ideal S300000x528 .f32 :=
  concatenate S300000x528 1 [⟨S300000x256, g1⟩, ⟨S300000x256, g2⟩, ⟨S300000x16, ea⟩]
    concatenates_S300000x256_S300000x256_S300000x16_S300000x528_d1

theorem catH_left (g1 g2 : FVec Ideal S300000x256 .f32) (ea : FVec Ideal S300000x16 .f32) (e : Fin 300000) (k : Fin 256) :
    catH g1 g2 ea (ix2 e (⟨k.val, by have := k.isLt; omega⟩ : Fin 528)) = g1 (ix2 e k) := by
  unfold catH
  refine concatenate_apply_piece (t := S300000x528) 1 [⟨S300000x256, g1⟩, ⟨S300000x256, g2⟩, ⟨S300000x16, ea⟩] _ _ 0 (by simp) S300000x256 g1 rfl rfl 0 rfl (ix2 e k) (fun b hb => ?_) ?_
  · match b with
    | ⟨0, _⟩ => rfl
    | ⟨1, _⟩ => exact absurd rfl hb
  · show 0 + k.val = k.val
    omega

theorem catH_mid (g1 g2 : FVec Ideal S300000x256 .f32) (ea : FVec Ideal S300000x16 .f32) (e : Fin 300000) (k : Fin 256) :
    catH g1 g2 ea (ix2 e (⟨256 + k.val, by have := k.isLt; omega⟩ : Fin 528)) = g2 (ix2 e k) := by
  unfold catH
  refine concatenate_apply_piece (t := S300000x528) 1 [⟨S300000x256, g1⟩, ⟨S300000x256, g2⟩, ⟨S300000x16, ea⟩] _ _ 1 (by simp) S300000x256 g2 rfl rfl 256 rfl (ix2 e k) (fun b hb => ?_) ?_
  · match b with
    | ⟨0, _⟩ => rfl
    | ⟨1, _⟩ => exact absurd rfl hb
  · rfl

theorem catH_right (g1 g2 : FVec Ideal S300000x256 .f32) (ea : FVec Ideal S300000x16 .f32) (e : Fin 300000) (k : Fin 16) :
    catH g1 g2 ea (ix2 e (⟨512 + k.val, by have := k.isLt; omega⟩ : Fin 528)) = ea (ix2 e k) := by
  unfold catH
  refine concatenate_apply_piece (t := S300000x528) 1 [⟨S300000x256, g1⟩, ⟨S300000x256, g2⟩, ⟨S300000x16, ea⟩] _ _ 2 (by simp) S300000x16 ea rfl rfl 512 rfl (ix2 e k) (fun b hb => ?_) ?_
  · match b with
    | ⟨0, _⟩ => rfl
    | ⟨1, _⟩ => exact absurd rfl hb
  · rfl

/-- The classifier over the concatenation: three linear maps, the first two followed by relu. -/
def clsH (g1 g2 : FVec Ideal S300000x256 .f32) (ea : FVec Ideal S300000x16 .f32) (w0 : FVec Ideal S528x128 .f32)
    (b0 : FVec Ideal S128 .f32) (w1 : FVec Ideal S128x64 .f32) (b1 : FVec Ideal S64 .f32) (w2 : FVec Ideal S64x2 .f32)
    (b2 : FVec Ideal S2 .f32) : FVec Ideal S300000x2 .f32 :=
  addf (Host.dotGeneral dot_S300000x64_S64x2_S300000x2_1_0_0_1_n_n none
      (maximumf (addf (Host.dotGeneral dot_S300000x128_S128x64_S300000x64_1_0_0_1_n_n none
          (maximumf (addf (Host.dotGeneral dot_S300000x528_S528x128_S300000x128_1_0_0_1_n_n none (catH g1 g2 ea) w0)
              (broadcastInDim S300000x128 ![0, 1] bcast_S1x128_S300000x128_0_1 (broadcastInDim S1x128 ![1] bcast_S128_S1x128_1 b0)))
            (broadcastInDim S300000x128 ![] bcast_S_S300000x128 (constant S_ .f32 0x00000000#32))) w1)
          (broadcastInDim S300000x64 ![0, 1] bcast_S1x64_S300000x64_0_1 (broadcastInDim S1x64 ![1] bcast_S64_S1x64_1 b1)))
        (broadcastInDim S300000x64 ![] bcast_S_S300000x64 (constant S_ .f32 0x00000000#32))) w2)
    (broadcastInDim S300000x2 ![0, 1] bcast_S1x2_S300000x2_0_1 (broadcastInDim S1x2 ![1] bcast_S2_S1x2_1 b2))

theorem clsH_apply (g1 g2 : FVec Ideal S300000x256 .f32) (ea : FVec Ideal S300000x16 .f32) (w0 : FVec Ideal S528x128 .f32)
    (b0 : FVec Ideal S128 .f32) (w1 : FVec Ideal S128x64 .f32) (b1 : FVec Ideal S64 .f32) (w2 : FVec Ideal S64x2 .f32)
    (b2 : FVec Ideal S2 .f32) (e : Fin 300000) (j : Fin 2) :
    clsH g1 g2 ea w0 b0 w1 b1 w2 b2 (ix2 e j)
      = (∑ k2 : Fin 64,
          max ((∑ k1 : Fin 128,
              max (((∑ k : Fin 256, g1 (ix2 e k) * w0 (ix2 (⟨k.val, by have := k.isLt; omega⟩ : Fin 528) k1))
                  + ((∑ k : Fin 256, g2 (ix2 e k) * w0 (ix2 (⟨256 + k.val, by have := k.isLt; omega⟩ : Fin 528) k1))
                    + ∑ k0 : Fin 16, ea (ix2 e k0) * w0 (ix2 (⟨512 + k0.val, by have := k0.isLt; omega⟩ : Fin 528) k1)))
                + b0 (ix1 k1)) (Ideal.ofBits .f32 0x00000000#32)
                * w1 (ix2 k1 k2)) + b1 (ix1 k2)) (Ideal.ofBits .f32 0x00000000#32)
            * w2 (ix2 k2 j)) + b2 (ix1 j) := by
  unfold clsH
  simp only [Host.dotGeneral]
  rw [addf_apply, bias_apply]
  refine congrArg₂ (· + ·) ?_ rfl
  refine (Cert.Lib.dotGeneral_plain_apply dot_S300000x64_S64x2_S300000x2_1_0_0_1_n_n.wf none _ _ w2 e j).trans ?_
  refine Finset.sum_congr rfl fun k2 _ => congrArg₂ (· * ·) ?_ rfl
  rw [maximumf_apply, addf_apply, zero_apply, bias_apply]
  refine congrArg₂ max (congrArg₂ (· + ·) ?_ rfl) rfl
  refine (Cert.Lib.dotGeneral_plain_apply dot_S300000x128_S128x64_S300000x64_1_0_0_1_n_n.wf none _ _ w1 e k2).trans ?_
  refine Finset.sum_congr rfl fun k1 _ => congrArg₂ (· * ·) ?_ rfl
  rw [maximumf_apply, addf_apply, zero_apply, bias_apply]
  refine congrArg₂ max (congrArg₂ (· + ·) ?_ rfl) rfl
  refine (Cert.Lib.dotGeneral_plain_apply dot_S300000x528_S528x128_S300000x128_1_0_0_1_n_n.wf none _ _ w0 e k1).trans ?_
  rw [sum_split3 (fun k : Fin 528 => catH g1 g2 ea (ix2 e k) * w0 (ix2 k k1))]
  simp only [catH_left, catH_mid, catH_right]

end Cert.ReferenceIdeal.Forms

end
-- ==== Proof.Bridge.lean ====
/-
  Each region's function of the arrays it finds is the reference's stage of the same arrays: the encoder, a
  layer's linear map, the self-loop step fused with the next linear map, the two node projections, and the
  classifier — where the kernel adds the two gathered node projections to the edge term and the reference
  multiplies the concatenation [x[src] | x[dst] | a] by the whole weight matrix: the same sum over the 528 rows,
  grouped by the three row blocks (commutativity and associativity of the sum on the extended reals).
  A reshaped bias, a reshaped per-row scale and the row blocks of the weights enter through what they read.
-/
import proofs.«132875_j15685220565562_2_alg».proof.Proof.Region0
import proofs.«132875_j15685220565562_2_alg».proof.Proof.Region1
import proofs.«132875_j15685220565562_2_alg».proof.Proof.Region2
import proofs.«132875_j15685220565562_2_alg».proof.Proof.Region3
import proofs.«132875_j15685220565562_2_alg».proof.Proof.Region4
import proofs.«132875_j15685220565562_2_alg».proof.Proof.Region5
import proofs.«132875_j15685220565562_2_alg».proof.Proof.HostForms

set_option maxRecDepth 16384

noncomputable section

namespace Cert.Bridge

open Idealize.ShloMosaic Idealize.ShloMosaic.ValueIdx
open Cert.ReferenceIdeal.Forms

/-- The encoder region is relu (X · W + b). -/
theorem enc_eq (nf : (⟨2, ![50000, 128]⟩ : Shape).Idx → EReal) (w : (⟨2, ![128, 256]⟩ : Shape).Idx → EReal)
    (b : (⟨1, ![256]⟩ : Shape).Idx → EReal) (b2 : (⟨2, ![1, 256]⟩ : Shape).Idx → EReal)
    (hb : ∀ q : Fin 256, b2 (ix2 (0 : Fin 1) q) = b (ix1 q)) :
    Cert.KernelIdeal.Region0.G nf w b2 = encH nf w b := by
  funext i
  obtain ⟨p, q, rfl⟩ : ∃ (p : Fin 50000) (q : Fin 256), i = ix2 p q := ⟨i 0, i 1, eq_ix2 i⟩
  rw [encH_apply]
  show max ((∑ k : Fin 128, nf (ix2 p k) * w (ix2 k q)) + b2 (ix2 (0 : Fin 1) q)) _ = _
  rw [hb]

/-- The first linear region is X · W + b. -/
theorem lin_eq (x : (⟨2, ![50000, 256]⟩ : Shape).Idx → EReal) (w : (⟨2, ![256, 256]⟩ : Shape).Idx → EReal)
    (b : (⟨1, ![256]⟩ : Shape).Idx → EReal) (b2 : (⟨2, ![1, 256]⟩ : Shape).Idx → EReal)
    (hb : ∀ q : Fin 256, b2 (ix2 (0 : Fin 1) q) = b (ix1 q)) :
    Cert.KernelIdeal.Region1.G x w b2 = linH x w b := by
  funext i
  obtain ⟨p, q, rfl⟩ : ∃ (p : Fin 50000) (q : Fin 256), i = ix2 p q := ⟨i 0, i 1, eq_ix2 i⟩
  rw [linH_apply]
  show (∑ k : Fin 256, x (ix2 p k) * w (ix2 k q)) + b2 (ix2 (0 : Fin 1) q) = _
  rw [hb]

/-- Region 2 is the self-loop step followed by the next linear map. -/
theorem finlin2_eq (ag h : (⟨2, ![50000, 256]⟩ : Shape).Idx → EReal) (d : (⟨1, ![50000]⟩ : Shape).Idx → EReal)
    (dcol : (⟨2, ![50000, 1]⟩ : Shape).Idx → EReal) (w : (⟨2, ![256, 256]⟩ : Shape).Idx → EReal)
    (b : (⟨1, ![256]⟩ : Shape).Idx → EReal) (b2 : (⟨2, ![1, 256]⟩ : Shape).Idx → EReal)
    (hd : ∀ p : Fin 50000, dcol (ix2 p (0 : Fin 1)) = d (ix1 p))
    (hb : ∀ q : Fin 256, b2 (ix2 (0 : Fin 1) q) = b (ix1 q)) :
    Cert.KernelIdeal.Region2.G ag h dcol w b2 = linH (finH ag h d) w b := by
  funext i
  obtain ⟨p, q, rfl⟩ : ∃ (p : Fin 50000) (q : Fin 256), i = ix2 p q := ⟨i 0, i 1, eq_ix2 i⟩
  rw [linH_apply]
  simp only [finH_apply]
  show (∑ k : Fin 256, max (ag (ix2 p k) + h (ix2 p k) * dcol (ix2 p (0 : Fin 1))) (Ideal.ofBits .f32 0x00000000#32) * w (ix2 k q))
    + b2 (ix2 (0 : Fin 1) q) = _
  rw [hb, hd]

/-- Region 3 is the self-loop step followed by the next linear map. -/
theorem finlin3_eq (ag h : (⟨2, ![50000, 256]⟩ : Shape).Idx → EReal) (d : (⟨1, ![50000]⟩ : Shape).Idx → EReal)
    (dcol : (⟨2, ![50000, 1]⟩ : Shape).Idx → EReal) (w : (⟨2, ![256, 256]⟩ : Shape).Idx → EReal)
    (b : (⟨1, ![256]⟩ : Shape).Idx → EReal) (b2 : (⟨2, ![1, 256]⟩ : Shape).Idx → EReal)
    (hd : ∀ p : Fin 50000, dcol (ix2 p (0 : Fin 1)) = d (ix1 p))
    (hb : ∀ q : Fin 256, b2 (ix2 (0 : Fin 1) q) = b (ix1 q)) :
    Cert.KernelIdeal.Region3.G ag h dcol w b2 = linH (finH ag h d) w b := by
  funext i
  obtain ⟨p, q, rfl⟩ : ∃ (p : Fin 50000) (q : Fin 256), i = ix2 p q := ⟨i 0, i 1, eq_ix2 i⟩
  rw [linH_apply]
  simp only [finH_apply]
  show (∑ k : Fin 256, max (ag (ix2 p k) + h (ix2 p k) * dcol (ix2 p (0 : Fin 1))) (Ideal.ofBits .f32 0x00000000#32) * w (ix2 k q))
    + b2 (ix2 (0 : Fin 1) q) = _
  rw [hb, hd]

/-- A node projection of region 4, at node n and column q. -/
theorem proj_apply (ag h : (⟨2, ![50000, 256]⟩ : Shape).Idx → EReal) (d : (⟨1, ![50000]⟩ : Shape).Idx → EReal)
    (dcol : (⟨2, ![50000, 1]⟩ : Shape).Idx → EReal) (ws : (⟨2, ![256, 128]⟩ : Shape).Idx → EReal)
    (hd : ∀ p : Fin 50000, dcol (ix2 p (0 : Fin 1)) = d (ix1 p)) (n : Fin 50000) (q : Fin 128) :
    Cert.KernelIdeal.Region4.G ag h dcol ws (ix2 n q) = ∑ k : Fin 256, finH ag h d (ix2 n k) * ws (ix2 k q) := by
  simp only [finH_apply]
  show (∑ k : Fin 256, max (ag (ix2 n k) + h (ix2 n k) * dcol (ix2 n (0 : Fin 1))) (Ideal.ofBits .f32 0x00000000#32) * ws (ix2 k q)) = _
  rw [hd]

/-- The classifier region against the classifier over the concatenation. -/
theorem cls_eq (g1 g2 : (⟨2, ![300000, 256]⟩ : Shape).Idx → EReal) (es : (⟨2, ![300000, 128]⟩ : Shape).Idx → EReal)
    (ea : (⟨2, ![300000, 16]⟩ : Shape).Idx → EReal) (w0 : (⟨2, ![528, 128]⟩ : Shape).Idx → EReal)
    (wa : (⟨2, ![16, 128]⟩ : Shape).Idx → EReal)
    (b0 : (⟨1, ![128]⟩ : Shape).Idx → EReal) (b0r : (⟨2, ![1, 128]⟩ : Shape).Idx → EReal)
    (w1 : (⟨2, ![128, 64]⟩ : Shape).Idx → EReal)
    (b1 : (⟨1, ![64]⟩ : Shape).Idx → EReal) (b1r : (⟨2, ![1, 64]⟩ : Shape).Idx → EReal)
    (w2 : (⟨2, ![64, 2]⟩ : Shape).Idx → EReal)
    (b2 : (⟨1, ![2]⟩ : Shape).Idx → EReal) (b2r : (⟨2, ![1, 2]⟩ : Shape).Idx → EReal)
    (hes : ∀ (e : Fin 300000) (k1 : Fin 128), es (ix2 e k1)
      = (∑ k : Fin 256, g1 (ix2 e k) * w0 (ix2 (⟨k.val, by have := k.isLt; omega⟩ : Fin 528) k1))
        + ∑ k : Fin 256, g2 (ix2 e k) * w0 (ix2 (⟨256 + k.val, by have := k.isLt; omega⟩ : Fin 528) k1))
    (hwa : ∀ (k0 : Fin 16) (k1 : Fin 128), wa (ix2 k0 k1) = w0 (ix2 (⟨512 + k0.val, by have := k0.isLt; omega⟩ : Fin 528) k1))
    (hb0 : ∀ q : Fin 128, b0r (ix2 (0 : Fin 1) q) = b0 (ix1 q))
    (hb1 : ∀ q : Fin 64, b1r (ix2 (0 : Fin 1) q) = b1 (ix1 q))
    (hb2 : ∀ q : Fin 2, b2r (ix2 (0 : Fin 1) q) = b2 (ix1 q)) :
    Cert.KernelIdeal.Region5.G es ea wa b0r w1 b1r w2 b2r = clsH g1 g2 ea w0 b0 w1 b1 w2 b2 := by
  funext i
  obtain ⟨e, j, rfl⟩ : ∃ (e : Fin 300000) (j : Fin 2), i = ix2 e j := ⟨i 0, i 1, eq_ix2 i⟩
  rw [clsH_apply]
  show (∑ k2 : Fin 64,
      max ((∑ k1 : Fin 128,
          max (((∑ k0 : Fin 16, ea (ix2 e k0) * wa (ix2 k0 k1)) + es (ix2 e k1)) + b0r (ix2 (0 : Fin 1) k1)) (Ideal.ofBits .f32 0x00000000#32)
            * w1 (ix2 k1 k2)) + b1r (ix2 (0 : Fin 1) k2)) (Ideal.ofBits .f32 0x00000000#32)
        * w2 (ix2 k2 j)) + b2r (ix2 (0 : Fin 1) j) = _
  rw [hb2]
  refine congrArg₂ (· + ·) (Finset.sum_congr rfl fun k2 _ => congrArg₂ (· * ·) ?_ rfl) rfl
  rw [hb1]
  refine congrArg₂ max (congrArg₂ (· + ·) (Finset.sum_congr rfl fun k1 _ => congrArg₂ (· * ·) ?_ rfl) rfl) rfl
  rw [hb0, hes]
  simp only [hwa]
  refine congrArg₂ max (congrArg₂ (· + ·) ?_ rfl) rfl
  rw [add_comm, add_assoc]

end Cert.Bridge

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.Equiv.lean ====
/-
  The kernel's function of the arguments is the reference's: stage by stage the regions are the reference's
  stages (the bridge), the aggregations over the edges are the same host operations on both sides, and in the
  classifier the gathered node projections are the products of the gathered rows with the weights' row blocks.
-/
import proofs.«132875_j15685220565562_2_alg».proof.Proof.KernelValue
import proofs.«132875_j15685220565562_2_alg».proof.Proof.Bridge
import proofs.«132875_j15685220565562_2_alg».proof.Proof.LibColumnCast
import proofs.«132875_j15685220565562_2_alg».proof.Proof.Gen.ReferenceIdeal.Read

set_option maxRecDepth 16384

noncomputable section

namespace Cert.Equiv

open Idealize.ShloMosaic Idealize.ShloMosaic.TcCoe Idealize.ShloMosaic.ValueIdx Idealize.SL.Sem
open Cert.ReferenceIdeal.Forms Cert.ReferenceIdeal.Read
open Cert.KernelIdeal.KHost (rsh src dst srcN dstN col deg invDegCol agg esum normE)

/-! ## The reference's result as the composition of its stages -/

/-- The reference's aggregation over the edges, of the node features `h`. -/
def aggH (h : FVec Ideal Cert.ReferenceIdeal.S50000x256 .f32) (ei : (⟨Cert.ReferenceIdeal.S2x300000, .i32⟩ : BufTy).Contents (Elt Ideal)) : FVec Ideal Cert.ReferenceIdeal.S50000x256 .f32 :=
  Host.scatterAdd (F := Ideal) (φ := .f32) Cert.ReferenceIdeal.scatter_S50000x256_S300000x1_S300000x256_1_0_0_1 (val_main_v47 (F := Ideal)) (val_main_v48 (F := Ideal) ei)
    (mulf (F := Ideal) (φ := .f32) (Host.gather Cert.ReferenceIdeal.gather_S50000x256_S300000x1_S300000x256_1_0_n_n_0_1_1256 h (val_main_v42 (F := Ideal) ei))
      (val_main_v45 (F := Ideal) ei))

def rX0 (a0 : (⟨Cert.ReferenceIdeal.S50000x128, .f32⟩ : BufTy).Contents (Elt Ideal)) (a3 : (⟨Cert.ReferenceIdeal.S128x256, .f32⟩ : BufTy).Contents (Elt Ideal)) (a4 : (⟨Cert.ReferenceIdeal.S256, .f32⟩ : BufTy).Contents (Elt Ideal)) : (⟨Cert.ReferenceIdeal.S50000x256, .f32⟩ : BufTy).Contents (Elt Ideal) := encH a0 a3 a4
def rH0 (a0 : (⟨Cert.ReferenceIdeal.S50000x128, .f32⟩ : BufTy).Contents (Elt Ideal)) (a3 : (⟨Cert.ReferenceIdeal.S128x256, .f32⟩ : BufTy).Contents (Elt Ideal)) (a4 : (⟨Cert.ReferenceIdeal.S256, .f32⟩ : BufTy).Contents (Elt Ideal)) (a5 : (⟨Cert.ReferenceIdeal.S256x256, .f32⟩ : BufTy).Contents (Elt Ideal)) (a6 : (⟨Cert.ReferenceIdeal.S256, .f32⟩ : BufTy).Contents (Elt Ideal)) : (⟨Cert.ReferenceIdeal.S50000x256, .f32⟩ : BufTy).Contents (Elt Ideal) := linH (rX0 a0 a3 a4) a5 a6
def rH1 (a0 : (⟨Cert.ReferenceIdeal.S50000x128, .f32⟩ : BufTy).Contents (Elt Ideal)) (a1 : (⟨Cert.ReferenceIdeal.S2x300000, .i32⟩ : BufTy).Contents (Elt Ideal)) (a3 : (⟨Cert.ReferenceIdeal.S128x256, .f32⟩ : BufTy).Contents (Elt Ideal)) (a4 : (⟨Cert.ReferenceIdeal.S256, .f32⟩ : BufTy).Contents (Elt Ideal)) (a5 : (⟨Cert.ReferenceIdeal.S256x256, .f32⟩ : BufTy).Contents (Elt Ideal)) (a6 : (⟨Cert.ReferenceIdeal.S256, .f32⟩ : BufTy).Contents (Elt Ideal)) (a7 : (⟨Cert.ReferenceIdeal.S256x256, .f32⟩ : BufTy).Contents (Elt Ideal)) (a8 : (⟨Cert.ReferenceIdeal.S256, .f32⟩ : BufTy).Contents (Elt Ideal)) : (⟨Cert.ReferenceIdeal.S50000x256, .f32⟩ : BufTy).Contents (Elt Ideal) :=
  linH (finH (aggH (rH0 a0 a3 a4 a5 a6) a1) (rH0 a0 a3 a4 a5 a6) (val_main_v27 (F := Ideal) a1)) a7 a8
def rH2 (a0 : (⟨Cert.ReferenceIdeal.S50000x128, .f32⟩ : BufTy).Contents (Elt Ideal)) (a1 : (⟨Cert.ReferenceIdeal.S2x300000, .i32⟩ : BufTy).Contents (Elt Ideal)) (a3 : (⟨Cert.ReferenceIdeal.S128x256, .f32⟩ : BufTy).Contents (Elt Ideal)) (a4 : (⟨Cert.ReferenceIdeal.S256, .f32⟩ : BufTy).Contents (Elt Ideal)) (a5 : (⟨Cert.ReferenceIdeal.S256x256, .f32⟩ : BufTy).Contents (Elt Ideal)) (a6 : (⟨Cert.ReferenceIdeal.S256, .f32⟩ : BufTy).Contents (Elt Ideal)) (a7 : (⟨Cert.ReferenceIdeal.S256x256, .f32⟩ : BufTy).Contents (Elt Ideal)) (a8 : (⟨Cert.ReferenceIdeal.S256, .f32⟩ : BufTy).Contents (Elt Ideal)) (a9 : (⟨Cert.ReferenceIdeal.S256x256, .f32⟩ : BufTy).Contents (Elt Ideal)) (a10 : (⟨Cert.ReferenceIdeal.S256, .f32⟩ : BufTy).Contents (Elt Ideal)) : (⟨Cert.ReferenceIdeal.S50000x256, .f32⟩ : BufTy).Contents (Elt Ideal) :=
  linH (finH (aggH (rH1 a0 a1 a3 a4 a5 a6 a7 a8) a1) (rH1 a0 a1 a3 a4 a5 a6 a7 a8) (val_main_v27 (F := Ideal) a1)) a9 a10
def rX3 (a0 : (⟨Cert.ReferenceIdeal.S50000x128, .f32⟩ : BufTy).Contents (Elt Ideal)) (a1 : (⟨Cert.ReferenceIdeal.S2x300000, .i32⟩ : BufTy).Contents (Elt Ideal)) (a3 : (⟨Cert.ReferenceIdeal.S128x256, .f32⟩ : BufTy).Contents (Elt Ideal)) (a4 : (⟨Cert.ReferenceIdeal.S256, .f32⟩ : BufTy).Contents (Elt Ideal)) (a5 : (⟨Cert.ReferenceIdeal.S256x256, .f32⟩ : BufTy).Contents (Elt Ideal)) (a6 : (⟨Cert.ReferenceIdeal.S256, .f32⟩ : BufTy).Contents (Elt Ideal)) (a7 : (⟨Cert.ReferenceIdeal.S256x256, .f32⟩ : BufTy).Contents (Elt Ideal)) (a8 : (⟨Cert.ReferenceIdeal.S256, .f32⟩ : BufTy).Contents (Elt Ideal)) (a9 : (⟨Cert.ReferenceIdeal.S256x256, .f32⟩ : BufTy).Contents (Elt Ideal)) (a10 : (⟨Cert.ReferenceIdeal.S256, .f32⟩ : BufTy).Contents (Elt Ideal)) : (⟨Cert.ReferenceIdeal.S50000x256, .f32⟩ : BufTy).Contents (Elt Ideal) :=
  finH (aggH (rH2 a0 a1 a3 a4 a5 a6 a7 a8 a9 a10) a1) (rH2 a0 a1 a3 a4 a5 a6 a7 a8 a9 a10) (val_main_v27 (F := Ideal) a1)
def refOut (a0 : (⟨Cert.ReferenceIdeal.S50000x128, .f32⟩ : BufTy).Contents (Elt Ideal)) (a1 : (⟨Cert.ReferenceIdeal.S2x300000, .i32⟩ : BufTy).Contents (Elt Ideal)) (a2 : (⟨Cert.ReferenceIdeal.S300000x16, .f32⟩ : BufTy).Contents (Elt Ideal)) (a3 : (⟨Cert.ReferenceIdeal.S128x256, .f32⟩ : BufTy).Contents (Elt Ideal)) (a4 : (⟨Cert.ReferenceIdeal.S256, .f32⟩ : BufTy).Contents (Elt Ideal)) (a5 : (⟨Cert.ReferenceIdeal.S256x256, .f32⟩ : BufTy).Contents (Elt Ideal)) (a6 : (⟨Cert.ReferenceIdeal.S256, .f32⟩ : BufTy).Contents (Elt Ideal)) (a7 : (⟨Cert.ReferenceIdeal.S256x256, .f32⟩ : BufTy).Contents (Elt Ideal)) (a8 : (⟨Cert.ReferenceIdeal.S256, .f32⟩ : BufTy).Contents (Elt Ideal)) (a9 : (⟨Cert.ReferenceIdeal.S256x256, .f32⟩ : BufTy).Contents (Elt Ideal)) (a10 : (⟨Cert.ReferenceIdeal.S256, .f32⟩ : BufTy).Contents (Elt Ideal)) (a11 : (⟨Cert.ReferenceIdeal.S528x128, .f32⟩ : BufTy).Contents (Elt Ideal)) (a12 : (⟨Cert.ReferenceIdeal.S128, .f32⟩ : BufTy).Contents (Elt Ideal)) (a13 : (⟨Cert.ReferenceIdeal.S128x64, .f32⟩ : BufTy).Contents (Elt Ideal)) (a14 : (⟨Cert.ReferenceIdeal.S64, .f32⟩ : BufTy).Contents (Elt Ideal)) (a15 : (⟨Cert.ReferenceIdeal.S64x2, .f32⟩ : BufTy).Contents (Elt Ideal)) (a16 : (⟨Cert.ReferenceIdeal.S2, .f32⟩ : BufTy).Contents (Elt Ideal)) : (⟨Cert.ReferenceIdeal.S300000x2, .f32⟩ : BufTy).Contents (Elt Ideal) :=
  clsH (Host.gather Cert.ReferenceIdeal.gather_S50000x256_S300000x1_S300000x256_1_0_n_n_0_1_1256 (rX3 a0 a1 a3 a4 a5 a6 a7 a8 a9 a10) (val_main_v104 (F := Ideal) a1))
    (Host.gather Cert.ReferenceIdeal.gather_S50000x256_S300000x1_S300000x256_1_0_n_n_0_1_1256 (rX3 a0 a1 a3 a4 a5 a6 a7 a8 a9 a10) (val_main_v111 (F := Ideal) a1))
    a2 a11 a12 a13 a14 a15 a16

theorem v36_eq (a0 : (⟨Cert.ReferenceIdeal.S50000x128, .f32⟩ : BufTy).Contents (Elt Ideal)) (a3 : (⟨Cert.ReferenceIdeal.S128x256, .f32⟩ : BufTy).Contents (Elt Ideal)) (a4 : (⟨Cert.ReferenceIdeal.S256, .f32⟩ : BufTy).Contents (Elt Ideal)) (a5 : (⟨Cert.ReferenceIdeal.S256x256, .f32⟩ : BufTy).Contents (Elt Ideal)) (a6 : (⟨Cert.ReferenceIdeal.S256, .f32⟩ : BufTy).Contents (Elt Ideal)) : val_main_v36 (F := Ideal) a0 a3 a4 a5 a6 = rH0 a0 a3 a4 a5 a6 := rfl
theorem v58_eq (a0 : (⟨Cert.ReferenceIdeal.S50000x128, .f32⟩ : BufTy).Contents (Elt Ideal)) (a1 : (⟨Cert.ReferenceIdeal.S2x300000, .i32⟩ : BufTy).Contents (Elt Ideal)) (a3 : (⟨Cert.ReferenceIdeal.S128x256, .f32⟩ : BufTy).Contents (Elt Ideal)) (a4 : (⟨Cert.ReferenceIdeal.S256, .f32⟩ : BufTy).Contents (Elt Ideal)) (a5 : (⟨Cert.ReferenceIdeal.S256x256, .f32⟩ : BufTy).Contents (Elt Ideal)) (a6 : (⟨Cert.ReferenceIdeal.S256, .f32⟩ : BufTy).Contents (Elt Ideal)) (a7 : (⟨Cert.ReferenceIdeal.S256x256, .f32⟩ : BufTy).Contents (Elt Ideal)) (a8 : (⟨Cert.ReferenceIdeal.S256, .f32⟩ : BufTy).Contents (Elt Ideal)) : val_main_v58 (F := Ideal) a0 a1 a3 a4 a5 a6 a7 a8 = rH1 a0 a1 a3 a4 a5 a6 a7 a8 := rfl
theorem v80_eq (a0 : (⟨Cert.ReferenceIdeal.S50000x128, .f32⟩ : BufTy).Contents (Elt Ideal)) (a1 : (⟨Cert.ReferenceIdeal.S2x300000, .i32⟩ : BufTy).Contents (Elt Ideal)) (a3 : (⟨Cert.ReferenceIdeal.S128x256, .f32⟩ : BufTy).Contents (Elt Ideal)) (a4 : (⟨Cert.ReferenceIdeal.S256, .f32⟩ : BufTy).Contents (Elt Ideal)) (a5 : (⟨Cert.ReferenceIdeal.S256x256, .f32⟩ : BufTy).Contents (Elt Ideal)) (a6 : (⟨Cert.ReferenceIdeal.S256, .f32⟩ : BufTy).Contents (Elt Ideal)) (a7 : (⟨Cert.ReferenceIdeal.S256x256, .f32⟩ : BufTy).Contents (Elt Ideal)) (a8 : (⟨Cert.ReferenceIdeal.S256, .f32⟩ : BufTy).Contents (Elt Ideal)) (a9 : (⟨Cert.ReferenceIdeal.S256x256, .f32⟩ : BufTy).Contents (Elt Ideal)) (a10 : (⟨Cert.ReferenceIdeal.S256, .f32⟩ : BufTy).Contents (Elt Ideal)) : val_main_v80 (F := Ideal) a0 a1 a3 a4 a5 a6 a7 a8 a9 a10 = rH2 a0 a1 a3 a4 a5 a6 a7 a8 a9 a10 := rfl
theorem v98_eq (a0 : (⟨Cert.ReferenceIdeal.S50000x128, .f32⟩ : BufTy).Contents (Elt Ideal)) (a1 : (⟨Cert.ReferenceIdeal.S2x300000, .i32⟩ : BufTy).Contents (Elt Ideal)) (a3 : (⟨Cert.ReferenceIdeal.S128x256, .f32⟩ : BufTy).Contents (Elt Ideal)) (a4 : (⟨Cert.ReferenceIdeal.S256, .f32⟩ : BufTy).Contents (Elt Ideal)) (a5 : (⟨Cert.ReferenceIdeal.S256x256, .f32⟩ : BufTy).Contents (Elt Ideal)) (a6 : (⟨Cert.ReferenceIdeal.S256, .f32⟩ : BufTy).Contents (Elt Ideal)) (a7 : (⟨Cert.ReferenceIdeal.S256x256, .f32⟩ : BufTy).Contents (Elt Ideal)) (a8 : (⟨Cert.ReferenceIdeal.S256, .f32⟩ : BufTy).Contents (Elt Ideal)) (a9 : (⟨Cert.ReferenceIdeal.S256x256, .f32⟩ : BufTy).Contents (Elt Ideal)) (a10 : (⟨Cert.ReferenceIdeal.S256, .f32⟩ : BufTy).Contents (Elt Ideal)) : val_main_v98 (F := Ideal) a0 a1 a3 a4 a5 a6 a7 a8 a9 a10 = rX3 a0 a1 a3 a4 a5 a6 a7 a8 a9 a10 := rfl
/-- The reference's run term is that composition: every stage unfolds to its form. -/
theorem ref_eq (a0 : (⟨Cert.ReferenceIdeal.S50000x128, .f32⟩ : BufTy).Contents (Elt Ideal)) (a1 : (⟨Cert.ReferenceIdeal.S2x300000, .i32⟩ : BufTy).Contents (Elt Ideal)) (a2 : (⟨Cert.ReferenceIdeal.S300000x16, .f32⟩ : BufTy).Contents (Elt Ideal)) (a3 : (⟨Cert.ReferenceIdeal.S128x256, .f32⟩ : BufTy).Contents (Elt Ideal)) (a4 : (⟨Cert.ReferenceIdeal.S256, .f32⟩ : BufTy).Contents (Elt Ideal)) (a5 : (⟨Cert.ReferenceIdeal.S256x256, .f32⟩ : BufTy).Contents (Elt Ideal)) (a6 : (⟨Cert.ReferenceIdeal.S256, .f32⟩ : BufTy).Contents (Elt Ideal)) (a7 : (⟨Cert.ReferenceIdeal.S256x256, .f32⟩ : BufTy).Contents (Elt Ideal)) (a8 : (⟨Cert.ReferenceIdeal.S256, .f32⟩ : BufTy).Contents (Elt Ideal)) (a9 : (⟨Cert.ReferenceIdeal.S256x256, .f32⟩ : BufTy).Contents (Elt Ideal)) (a10 : (⟨Cert.ReferenceIdeal.S256, .f32⟩ : BufTy).Contents (Elt Ideal)) (a11 : (⟨Cert.ReferenceIdeal.S528x128, .f32⟩ : BufTy).Contents (Elt Ideal)) (a12 : (⟨Cert.ReferenceIdeal.S128, .f32⟩ : BufTy).Contents (Elt Ideal)) (a13 : (⟨Cert.ReferenceIdeal.S128x64, .f32⟩ : BufTy).Contents (Elt Ideal)) (a14 : (⟨Cert.ReferenceIdeal.S64, .f32⟩ : BufTy).Contents (Elt Ideal)) (a15 : (⟨Cert.ReferenceIdeal.S64x2, .f32⟩ : BufTy).Contents (Elt Ideal)) (a16 : (⟨Cert.ReferenceIdeal.S2, .f32⟩ : BufTy).Contents (Elt Ideal)) : val_main_v127 (F := Ideal) a0 a1 a2 a3 a4 a5 a6 a7 a8 a9 a10 a11 a12 a13 a14 a15 a16 = refOut a0 a1 a2 a3 a4 a5 a6 a7 a8 a9 a10 a11 a12 a13 a14 a15 a16 := rfl

/-! ## The kernel's stages are the reference's -/

section Kernel

variable (m : (ℓ : Loc Cert.KernelIdeal.nD Cert.KernelIdeal.τ Cert.KernelIdeal.sig) → Buf (Elt Ideal) ℓ) (c : Dev Cert.KernelIdeal.nD)

open Cert.KernelIdeal.KVal

theorem x0_eq : x0 m c = rX0 (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) :=
  Cert.Bridge.enc_eq _ _ _ _ (fun q => shapeCast_a_1a_apply _ _ 0 q)

theorem h0_eq : h0 m c = rH0 (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  unfold h0 rH0
  rw [x0_eq]
  exact Cert.Bridge.lin_eq _ _ _ _ (fun q => shapeCast_a_1a_apply _ _ 0 q)

/-- The aggregation over the edges is the same host operations in both programs. -/
theorem agg_eq (h : FVec Ideal Cert.ReferenceIdeal.S50000x256 .f32) (ei : (⟨Cert.ReferenceIdeal.S2x300000, .i32⟩ : BufTy).Contents (Elt Ideal)) : agg h ei = aggH h ei := rfl

/-- The per-row scale as a column reads the reference's 1 / deg. -/
theorem invdeg_eq (ei : (⟨Cert.ReferenceIdeal.S2x300000, .i32⟩ : BufTy).Contents (Elt Ideal)) (p : Fin 50000) :
    invDegCol ei (ix2 p (0 : Fin 1)) = val_main_v27 (F := Ideal) ei (ix1 p) :=
  (Cert.Lib.shapeCast_a_a1_apply _ _ p 0).trans rfl

theorem h1_eq : h1 m c = rH1 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  unfold h1 rH1
  rw [h0_eq, agg_eq]
  exact Cert.Bridge.finlin2_eq _ _ _ _ _ _ _ (invdeg_eq _) (fun q => shapeCast_a_1a_apply _ _ 0 q)

theorem h2_eq : h2 m c = rH2 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  unfold h2 rH2
  rw [h1_eq, agg_eq]
  exact Cert.Bridge.finlin3_eq _ _ _ _ _ _ _ (invdeg_eq _) (fun q => shapeCast_a_1a_apply _ _ 0 q)

/-- The per-edge sum of the gathered node projections: the products of the gathered rows of the last layer's
    features with the source and destination row blocks of the classifier's weights. -/
theorem esum_apply (e : Fin 300000) (k1 : Fin 128) :
    esum (ps m c) (pd m c) (m ((c : Thread Cert.KernelIdeal.nD Cert.KernelIdeal.τ).loc Cert.KernelIdeal.main_arg1)) (ix2 e k1)
      = (∑ k : Fin 256, Host.gather Cert.ReferenceIdeal.gather_S50000x256_S300000x1_S300000x256_1_0_n_n_0_1_1256 (rX3 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))) (val_main_v104 (F := Ideal) (m ((c : Thread Cert.KernelIdeal.nD Cert.KernelIdeal.τ).loc Cert.KernelIdeal.main_arg1))) (ix2 e k)
            * (m ((c : Thread Cert.KernelIdeal.nD Cert.KernelIdeal.τ).loc Cert.KernelIdeal.main_arg11)) (ix2 (⟨k.val, by have := k.isLt; omega⟩ : Fin 528) k1))
        + ∑ k : Fin 256, Host.gather Cert.ReferenceIdeal.gather_S50000x256_S300000x1_S300000x256_1_0_n_n_0_1_1256 (rX3 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))) (val_main_v111 (F := Ideal) (m ((c : Thread Cert.KernelIdeal.nD Cert.KernelIdeal.τ).loc Cert.KernelIdeal.main_arg1))) (ix2 e k)
            * (m ((c : Thread Cert.KernelIdeal.nD Cert.KernelIdeal.τ).loc Cert.KernelIdeal.main_arg11)) (ix2 (⟨256 + k.val, by have := k.isLt; omega⟩ : Fin 528) k1) := by
  have hs : Host.gather Cert.KernelIdeal.gather_S50000x128_S300000x1_S300000x128_1_0_n_n_0_1_1128 (ps m c) (col (srcN (m ((c : Thread Cert.KernelIdeal.nD Cert.KernelIdeal.τ).loc Cert.KernelIdeal.main_arg1)))) (ix2 e k1)
      = ps m c (ix2 (Cert.Lib.clampRow 50000 (by decide) (col (srcN (m ((c : Thread Cert.KernelIdeal.nD Cert.KernelIdeal.τ).loc Cert.KernelIdeal.main_arg1)))) e) k1) :=
    Cert.Lib.gather_rows_apply (by decide) Cert.KernelIdeal.gather_S50000x128_S300000x1_S300000x128_1_0_n_n_0_1_1128.wf _ _ e k1
  have hd : Host.gather Cert.KernelIdeal.gather_S50000x128_S300000x1_S300000x128_1_0_n_n_0_1_1128 (pd m c) (col (dstN (m ((c : Thread Cert.KernelIdeal.nD Cert.KernelIdeal.τ).loc Cert.KernelIdeal.main_arg1)))) (ix2 e k1)
      = pd m c (ix2 (Cert.Lib.clampRow 50000 (by decide) (col (dstN (m ((c : Thread Cert.KernelIdeal.nD Cert.KernelIdeal.τ).loc Cert.KernelIdeal.main_arg1)))) e) k1) :=
    Cert.Lib.gather_rows_apply (by decide) Cert.KernelIdeal.gather_S50000x128_S300000x1_S300000x128_1_0_n_n_0_1_1128.wf _ _ e k1
  have g1 : ∀ k : Fin 256, Host.gather Cert.ReferenceIdeal.gather_S50000x256_S300000x1_S300000x256_1_0_n_n_0_1_1256 (rX3 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))) (val_main_v104 (F := Ideal) (m ((c : Thread Cert.KernelIdeal.nD Cert.KernelIdeal.τ).loc Cert.KernelIdeal.main_arg1))) (ix2 e k)
      = rX3 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (ix2 (Cert.Lib.clampRow 50000 (by decide) (val_main_v104 (F := Ideal) (m ((c : Thread Cert.KernelIdeal.nD Cert.KernelIdeal.τ).loc Cert.KernelIdeal.main_arg1))) e) k) := fun k =>
    Cert.Lib.gather_rows_apply (by decide) Cert.ReferenceIdeal.gather_S50000x256_S300000x1_S300000x256_1_0_n_n_0_1_1256.wf _ _ e k
  have g2 : ∀ k : Fin 256, Host.gather Cert.ReferenceIdeal.gather_S50000x256_S300000x1_S300000x256_1_0_n_n_0_1_1256 (rX3 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))) (val_main_v111 (F := Ideal) (m ((c : Thread Cert.KernelIdeal.nD Cert.KernelIdeal.τ).loc Cert.KernelIdeal.main_arg1))) (ix2 e k)
      = rX3 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (ix2 (Cert.Lib.clampRow 50000 (by decide) (val_main_v111 (F := Ideal) (m ((c : Thread Cert.KernelIdeal.nD Cert.KernelIdeal.τ).loc Cert.KernelIdeal.main_arg1))) e) k) := fun k =>
    Cert.Lib.gather_rows_apply (by decide) Cert.ReferenceIdeal.gather_S50000x256_S300000x1_S300000x256_1_0_n_n_0_1_1256.wf _ _ e k
  unfold esum
  rw [addf_apply, extf_apply, extf_apply, hs, hd]
  unfold ps pd
  rw [Cert.Bridge.proj_apply _ _ (val_main_v27 (F := Ideal) (m ((c : Thread Cert.KernelIdeal.nD Cert.KernelIdeal.τ).loc Cert.KernelIdeal.main_arg1))) _ _ (invdeg_eq _),
    Cert.Bridge.proj_apply _ _ (val_main_v27 (F := Ideal) (m ((c : Thread Cert.KernelIdeal.nD Cert.KernelIdeal.τ).loc Cert.KernelIdeal.main_arg1))) _ _ (invdeg_eq _), h2_eq, agg_eq]
  simp only [g1, g2]
  refine congrArg₂ (· + ·) (Finset.sum_congr rfl fun k _ => congrArg₂ (· * ·) rfl ?_)
    (Finset.sum_congr rfl fun k _ => congrArg₂ (· * ·) rfl ?_)
  · exact (slice2_axis0_eq 0 _ _ k k1).trans (congrArg (fun r => (m ((c : Thread Cert.KernelIdeal.nD Cert.KernelIdeal.τ).loc Cert.KernelIdeal.main_arg11)) (ix2 r k1)) (Fin.ext (Nat.zero_add _)))
  · exact slice2_axis0_eq 256 _ _ k k1

/-- The kernel's function of the arguments is the reference's. -/
theorem out_eq : out m c = refOut (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) := by
  unfold out refOut
  exact Cert.Bridge.cls_eq _ _ _ _ (m ((c : Thread Cert.KernelIdeal.nD Cert.KernelIdeal.τ).loc Cert.KernelIdeal.main_arg11)) _ (m ((c : Thread Cert.KernelIdeal.nD Cert.KernelIdeal.τ).loc Cert.KernelIdeal.main_arg12)) _ _ (m ((c : Thread Cert.KernelIdeal.nD Cert.KernelIdeal.τ).loc Cert.KernelIdeal.main_arg14)) _ _ (m ((c : Thread Cert.KernelIdeal.nD Cert.KernelIdeal.τ).loc Cert.KernelIdeal.main_arg16)) _ (esum_apply m c)
    (fun k0 k1 => slice2_axis0_eq 512 _ _ k0 k1) (fun q => shapeCast_a_1a_apply _ _ 0 q)
    (fun q => shapeCast_a_1a_apply _ _ 0 q) (fun q => shapeCast_a_1a_apply _ _ 0 q)

end Kernel

end Cert.Equiv

end
-- ==== Proof.lean ====
/-
  A three-layer graph convolution with an edge classifier, f32[300000, 2] logits, as a kernel of six regions
  among host operations against its plain reference, equal over the extended reals.

  Both programs compute, from the edge list, the degrees deg = 1 + (number of edges into a node), the edge weights
  rsqrt (deg src) · rsqrt (deg dst) and the per-node scale 1 / deg with the same host operations; node features
  x₀ = relu (X · W + b); three times h = x · W + b, the aggregation A = ∑ over the edges into a node of (h at the
  edge's source) · (the edge's weight), and x = relu (A + h / deg); and per edge the classifier
  relu (relu ([x src | x dst | a] · W₀ + b₀) · W₁ + b₁) · W₂ + b₂.

  The kernel computes the matrix products in its regions, block of rows by block of rows (each region's output
  array is one function of the arrays it finds: Region0 … Region5), fuses each self-loop step with the next
  linear map, and replaces the product of the concatenation with W₀ by the node projections x · W₀[0:256] and
  x · W₀[256:512], gathered at the edge's source and destination and added to a · W₀[512:528]. The two agree
  because the sum over the 528 rows of W₀ splits along the concatenation into those three sums, and addition on
  the extended reals is commutative and associative; a change of float format is the identity there. No step
  needs the inputs to be finite.

  The kernel's run with the result buffer named is the frame's run over the regions with a larger post
  (KernelRun); what every region finds in its input arrays is read off the host operations (KernelHost,
  KernelValue); the reference's run and its stages are the generated modules (Run, Read), read as the
  composition of the stages (Equiv).
-/
import proofs.«132875_j15685220565562_2_alg».proof.Defs
import proofs.«132875_j15685220565562_2_alg».proof.Proof.Gen.Kernel
import proofs.«132875_j15685220565562_2_alg».proof.Proof.Gen.Kernel.Skeleton
import proofs.«132875_j15685220565562_2_alg».proof.Proof.Gen.Kernel.Launch
import proofs.«132875_j15685220565562_2_alg».proof.Proof.Gen.Kernel.Points
import proofs.«132875_j15685220565562_2_alg».proof.Proof.Gen.Kernel.Frame
import proofs.«132875_j15685220565562_2_alg».proof.Proof.Gen.KernelIdeal
import proofs.«132875_j15685220565562_2_alg».proof.Proof.Gen.KernelIdeal.Skeleton
import proofs.«132875_j15685220565562_2_alg».proof.Proof.Gen.KernelIdeal.Launch
import proofs.«132875_j15685220565562_2_alg».proof.Proof.Gen.KernelIdeal.Points
import proofs.«132875_j15685220565562_2_alg».proof.Proof.Gen.KernelIdeal.Frame
import proofs.«132875_j15685220565562_2_alg».proof.Proof.Gen.ReferenceIdeal
import proofs.«132875_j15685220565562_2_alg».proof.Proof.Gen.Pre_finite_inputs
import proofs.«132875_j15685220565562_2_alg».proof.Proof.Gen.ReferenceIdeal.Run
import proofs.«132875_j15685220565562_2_alg».proof.Proof.Gen.ReferenceIdeal.Read
import proofs.«132875_j15685220565562_2_alg».proof.Proof.KernelRun
import proofs.«132875_j15685220565562_2_alg».proof.Proof.Equiv
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the logits at the kernel's function of the arguments: the kernel by its run over the
    regions, the reference by its run read as the composition of its stages, which is that function. -/
theorem algebraic : Cert.algebraic_KernelIdeal_ReferenceIdeal := by
  intro m ρ m' ρ' _ hagree
  refine ⟨fun c => Cert.KernelIdeal.KVal.out m c, ?_, ?_⟩
  · exact (θ_run Cert.KernelIdeal.defs _ _).mono
      (fun r h c => ⟨(h c).1.trans (Cert.KernelIdeal.KVal.value m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.Read.val_main_v127_eq, Cert.Equiv.ref_eq, e0, e1, e2, e3, e4, e5, e6, e7, e8, e9, e10, e11,
      e12, e13, e14, e15, e16]
    exact (Cert.Equiv.out_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
